-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4000000 : Shape := ⟨2, ![2, 4000000]⟩
abbrev S2x100000 : Shape := ⟨2, ![2, 100000]⟩
abbrev S200000x64 : Shape := ⟨2, ![200000, 64]⟩
abbrev S2x64x64 : Shape := ⟨3, ![2, 64, 64]⟩
abbrev S2x64 : Shape := ⟨2, ![2, 64]⟩
abbrev S128x64 : Shape := ⟨2, ![128, 64]⟩
abbrev S64 : Shape := ⟨1, ![64]⟩
abbrev S64x4 : Shape := ⟨2, ![64, 4]⟩
abbrev S4 : Shape := ⟨1, ![4]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part5 {F : FTy → Type} [FloatOps F] (main_arg20 : FVec F S64x4 .f32) (main_arg21 : FVec F S4 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x4 .f32 := Host.absf main_arg20
  let main_cst_34 : FVec F S_ .f32 := constant S_ .f32 0x7F800000#32
  let main_v90 : FVec F S64x4 .f32 := broadcastInDim S64x4 ![] bcast_S_S64x4 main_cst_34
  let main_v91 : IVec S64x4 1 := cmpf .olt main_v89 main_v90
  let main_c_35 : IVec S_ 1 := constantI S_ 1 1#1
  let main_v92 : IVec S_ 1 := (fun x v => Host.reduce IntOp.andi x v reducesTo_S64x4_S_d0_1 h_S_) main_v91 main_c_35
  let main_v93 : IVec S_ 1 := andi main_v88 main_v92
  let main_v94 : FVec F S4 .f32 := Host.absf main_arg21
  let main_cst_36 : FVec F S_ .f32 := constant S_ .f32 0x7F800000#32
  let main_v95 : FVec F S4 .f32 := broadcastInDim S4 ![] bcast_S_S4 main_cst_36
  let main_v96 : IVec S4 1 := cmpf .olt main_v94 main_v95
  let main_c_37 : IVec S_ 1 := constantI S_ 1 1#1
  let main_v97 : IVec S_ 1 := (fun x v => Host.reduce IntOp.andi x v reducesTo_S4_S_d0 h_S_) main_v96 main_c_37
  let main_v98 : IVec S_ 1 := andi main_v93 main_v97
  main_v98

def fn_part4 {F : FTy → Type} [FloatOps F] (main_arg16 : FVec F S2x64 .f32) (main_arg17 : FVec F S2x64 .f32) (main_arg18 : FVec F S128x64 .f32) (main_arg19 : FVec F S64 .f32) (main_arg20 : FVec F S64x4 .f32) (main_arg21 : FVec F S4 .f32) (main_v63 : IVec S_ 1) (main_v67 : IVec S_ 1) : IVec S_ 1 :=
  let main_v68 : IVec S_ 1 := andi main_v63 main_v67
  let main_v69 : FVec F S2x64 .f32 := Host.absf main_arg16
  let main_cst_26 : FVec F S_ .f32 := constant S_ .f32 0x7F800000#32
  let main_v70 : FVec F S2x64 .f32 := broadcastInDim S2x64 ![] bcast_S_S2x64 main_cst_26
  let main_v71 : IVec S2x64 1 := cmpf .olt main_v69 main_v70
  let main_c_27 : IVec S_ 1 := constantI S_ 1 1#1
  let main_v72 : IVec S_ 1 := (fun x v => Host.reduce IntOp.andi x v reducesTo_S2x64_S_d0_1 h_S_) main_v71 main_c_27
  let main_v73 : IVec S_ 1 := andi main_v68 main_v72
  let main_v74 : FVec F S2x64 .f32 := Host.absf main_arg17
  let main_cst_28 : FVec F S_ .f32 := constant S_ .f32 0x7F800000#32
  let main_v75 : FVec F S2x64 .f32 := broadcastInDim S2x64 ![] bcast_S_S2x64 main_cst_28
  let main_v76 : IVec S2x64 1 := cmpf .olt main_v74 main_v75
  let main_c_29 : IVec S_ 1 := constantI S_ 1 1#1
  let main_v77 : IVec S_ 1 := (fun x v => Host.reduce IntOp.andi x v reducesTo_S2x64_S_d0_1 h_S_) main_v76 main_c_29
  let main_v78 : IVec S_ 1 := andi main_v73 main_v77
  let main_v79 : FVec F S128x64 .f32 := Host.absf main_arg18
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S2x64 .f32) (main_arg14 : FVec F S2x64 .f32) (main_arg15 : FVec F S2x64 .f32) (main_arg16 : FVec F S2x64 .f32) (main_arg17 : FVec F S2x64 .f32) (main_arg18 : FVec F S128x64 .f32) (main_arg19 : FVec F S64 .f32) (main_arg20 : FVec F S64x4 .f32) (main_arg21 : FVec F S4 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2x64 .f32 := Host.absf main_arg13
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S2x64 .f32 := Host.absf main_arg14
  let main_cst_22 : FVec F S_ .f32 := constant S_ .f32 0x7F800000#32
  let main_v60 : FVec F S2x64 .f32 := broadcastInDim S2x64 ![] bcast_S_S2x64 main_cst_22
  let main_v61 : IVec S2x64 1 := cmpf .olt main_v59 main_v60
  let main_c_23 : IVec S_ 1 := constantI S_ 1 1#1
  let main_v62 : IVec S_ 1 := (fun x v => Host.reduce IntOp.andi x v reducesTo_S2x64_S_d0_1 h_S_) main_v61 main_c_23
  let main_v63 : IVec S_ 1 := andi main_v58 main_v62
  let main_v64 : FVec F S2x64 .f32 := Host.absf main_arg15
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg16 main_arg17 main_arg18 main_arg19 main_arg20 main_arg21 main_v63 main_v67

def fn_part2 {F : FTy → Type} [FloatOps F] (main_arg9 : FVec F S2x64x64 .f32) (main_arg10 : FVec F S2x64 .f32) (main_arg11 : FVec F S2x64 .f32) (main_arg12 : FVec F S2x64 .f32) (main_arg13 : FVec F S2x64 .f32) (main_arg14 : FVec F S2x64 .f32) (main_arg15 : FVec F S2x64 .f32) (main_arg16 : FVec F S2x64 .f32) (main_arg17 : FVec F S2x64 .f32) (main_arg18 : FVec F S128x64 .f32) (main_arg19 : FVec F S64 .f32) (main_arg20 : FVec F S64x4 .f32) (main_arg21 : FVec F S4 .f32) (main_v33 : IVec S_ 1) : IVec S_ 1 :=
  let main_v34 : FVec F S2x64x64 .f32 := Host.absf main_arg9
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64 .f32 := Host.absf main_arg10
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64 .f32 := Host.absf main_arg11
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64 .f32 := Host.absf main_arg12
  let main_cst_18 : FVec F S_ .f32 := constant S_ .f32 0x7F800000#32
  let main_v50 : FVec F S2x64 .f32 := broadcastInDim S2x64 ![] bcast_S_S2x64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S2x64x64 .f32) (main_arg7 : FVec F S2x64x64 .f32) (main_arg8 : FVec F S2x64 .f32) (main_arg9 : FVec F S2x64x64 .f32) (main_arg10 : FVec F S2x64 .f32) (main_arg11 : FVec F S2x64 .f32) (main_arg12 : FVec F S2x64 .f32) (main_arg13 : FVec F S2x64 .f32) (main_arg14 : FVec F S2x64 .f32) (main_arg15 : FVec F S2x64 .f32) (main_arg16 : FVec F S2x64 .f32) (main_arg17 : FVec F S2x64 .f32) (main_arg18 : FVec F S128x64 .f32) (main_arg19 : FVec F S64 .f32) (main_arg20 : FVec F S64x4 .f32) (main_arg21 : FVec F S4 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2x64x64 .f32 := Host.absf main_arg6
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64x64 .f32 := Host.absf main_arg7
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : IVec S2x4000000 32) (main_arg1 : IVec S2x100000 32) (main_arg2 : FVec F S200000x64 .f32) (main_arg3 : FVec F S200000x64 .f32) (main_arg4 : FVec F S2x64x64 .f32) (main_arg5 : FVec F S2x64 .f32) (main_arg6 : FVec F S2x64x64 .f32) (main_arg7 : FVec F S2x64x64 .f32) (main_arg8 : FVec F S2x64 .f32) (main_arg9 : FVec F S2x64x64 .f32) (main_arg10 : FVec F S2x64 .f32) (main_arg11 : FVec F S2x64 .f32) (main_arg12 : FVec F S2x64 .f32) (main_arg13 : FVec F S2x64 .f32) (main_arg14 : FVec F S2x64 .f32) (main_arg15 : FVec F S2x64 .f32) (main_arg16 : FVec F S2x64 .f32) (main_arg17 : FVec F S2x64 .f32) (main_arg18 : FVec F S128x64 .f32) (main_arg19 : FVec F S64 .f32) (main_arg20 : FVec F S64x4 .f32) (main_arg21 : FVec F S4 .f32) : IVec S_ 1 :=
  let main_v0 : FVec F S200000x64 .f32 := Host.absf main_arg2
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x64 .f32 := Host.absf main_arg3
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S2x64x64 .f32 := Host.absf main_arg4
  let main_cst_2 : FVec F S_ .f32 := constant S_ .f32 0x7F800000#32
  let main_v10 : FVec F S2x64x64 .f32 := broadcastInDim S2x64x64 ![] bcast_S_S2x64x64 main_cst_2
  let main_v11 : IVec S2x64x64 1 := cmpf .olt main_v9 main_v10
  let main_c_3 : IVec S_ 1 := constantI S_ 1 1#1
  let main_v12 : IVec S_ 1 := (fun x v => Host.reduce IntOp.andi x v reducesTo_S2x64x64_S_d0_1_2 h_S_) main_v11 main_c_3
  let main_v13 : IVec S_ 1 := andi main_v8 main_v12
  let main_v14 : FVec F S2x64 .f32 := Host.absf main_arg5
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S2x4000000 : Shape := ⟨2, ![2, 4000000]⟩
abbrev S2x100000 : Shape := ⟨2, ![2, 100000]⟩
abbrev S200000x64 : Shape := ⟨2, ![200000, 64]⟩
abbrev S2x64x64 : Shape := ⟨3, ![2, 64, 64]⟩
abbrev S2x64 : Shape := ⟨2, ![2, 64]⟩
abbrev S128x64 : Shape := ⟨2, ![128, 64]⟩
abbrev S64 : Shape := ⟨1, ![64]⟩
abbrev S64x4 : Shape := ⟨2, ![64, 4]⟩
abbrev S4 : Shape := ⟨1, ![4]⟩
abbrev S1x4000000 : Shape := ⟨2, ![1, 4000000]⟩
abbrev S4000000 : Shape := ⟨1, ![4000000]⟩
abbrev S_ : Shape := ⟨0, ![]⟩
abbrev S200000 : Shape := ⟨1, ![200000]⟩
abbrev S4000000x1 : Shape := ⟨2, ![4000000, 1]⟩
abbrev S200000x1 : Shape := ⟨2, ![200000, 1]⟩
abbrev S4000000x64 : Shape := ⟨2, ![4000000, 64]⟩
abbrev S1x64x64 : Shape := ⟨3, ![1, 64, 64]⟩
abbrev S64x64 : Shape := ⟨2, ![64, 64]⟩
abbrev S1x64 : Shape := ⟨2, ![1, 64]⟩
abbrev S10000x64 : Shape := ⟨2, ![10000, 64]⟩
abbrev S1x100000 : Shape := ⟨2, ![1, 100000]⟩
abbrev S100000 : Shape := ⟨1, ![100000]⟩
abbrev S100000x1 : Shape := ⟨2, ![100000, 1]⟩
abbrev S100000x64 : Shape := ⟨2, ![100000, 64]⟩
abbrev S1x4 : Shape := ⟨2, ![1, 4]⟩
abbrev S100000x4 : Shape := ⟨2, ![100000, 4]⟩
abbrev S10000x4 : Shape := ⟨2, ![10000, 4]⟩

abbrev nBuf : Space → Nat
  | .hbm => 211
  | .vmem => 63
  | .smem => 0
  | _ => 0

abbrev hbmTy0_0 (i : Nat) : BufTy := match i % 128 with
  | 0 => ⟨S2x4000000, .i32⟩
  | 1 => ⟨S2x100000, .i32⟩
  | 2 => ⟨S200000x64, .f32⟩
  | 3 => ⟨S200000x64, .f32⟩
  | 4 => ⟨S2x64x64, .f32⟩
  | 5 => ⟨S2x64, .f32⟩
  | 6 => ⟨S2x64x64, .f32⟩
  | 7 => ⟨S2x64x64, .f32⟩
  | 8 => ⟨S2x64, .f32⟩
  | 9 => ⟨S2x64x64, .f32⟩
  | 10 => ⟨S2x64, .f32⟩
  | 11 => ⟨S2x64, .f32⟩
  | 12 => ⟨S2x64, .f32⟩
  | 13 => ⟨S2x64, .f32⟩
  | 14 => ⟨S2x64, .f32⟩
  | 15 => ⟨S2x64, .f32⟩
  | 16 => ⟨S2x64, .f32⟩
  | 17 => ⟨S2x64, .f32⟩
  | 18 => ⟨S128x64, .f32⟩
  | 19 => ⟨S64, .f32⟩
  | 20 => ⟨S64x4, .f32⟩
  | 21 => ⟨S4, .f32⟩
  | 22 => ⟨S1x4000000, .i32⟩
  | 23 => ⟨S4000000, .i32⟩
  | 24 => ⟨S1x4000000, .i32⟩
  | 25 => ⟨S4000000, .i32⟩
  | 26 => ⟨S_, .f32⟩
  | 27 => ⟨S4000000, .f32⟩
  | 28 => ⟨S_, .f32⟩
  | 29 => ⟨S200000, .f32⟩
  | 30 => ⟨S4000000x1, .i32⟩
  | 31 => ⟨S200000, .f32⟩
  | 32 => ⟨S_, .f32⟩
  | 33 => ⟨S200000, .f32⟩
  | 34 => ⟨S200000, .f32⟩
  | 35 => ⟨S200000x1, .f32⟩
  | 36 => ⟨S_, .f32⟩
  | 37 => ⟨S200000, .f32⟩
  | 38 => ⟨S4000000x1, .i32⟩
  | 39 => ⟨S200000, .f32⟩
  | 40 => ⟨S_, .f32⟩
  | 41 => ⟨S200000, .f32⟩
  | 42 => ⟨S200000, .f32⟩
  | 43 => ⟨S200000x1, .f32⟩
  | 44 => ⟨S_, .i32⟩
  | 45 => ⟨S4000000, .i32⟩
  | 46 => ⟨S4000000, .i1⟩
  | 47 => ⟨S_, .i32⟩
  | 48 => ⟨S4000000, .i32⟩
  | 49 => ⟨S4000000, .i32⟩
  | 50 => ⟨S4000000, .i32⟩
  | 51 => ⟨S4000000x1, .i32⟩
  | 52 => ⟨S4000000x64, .f32⟩
  | 53 => ⟨S_, .f32⟩
  | 54 => ⟨S200000x64, .f32⟩
  | 55 => ⟨S4000000x1, .i32⟩
  | 56 => ⟨S200000x64, .f32⟩
  | 57 => ⟨S200000x64, .f32⟩
  | 58 => ⟨S200000x64, .f32⟩
  | 59 => ⟨S_, .i32⟩
  | 60 => ⟨S4000000, .i32⟩
  | 61 => ⟨S4000000, .i1⟩
  | 62 => ⟨S_, .i32⟩
  | 63 => ⟨S4000000, .i32⟩
  | 64 => ⟨S4000000, .i32⟩
  | 65 => ⟨S4000000, .i32⟩
  | 66 => ⟨S4000000x1, .i32⟩
  | 67 => ⟨S4000000x64, .f32⟩
  | 68 => ⟨S_, .f32⟩
  | 69 => ⟨S200000x64, .f32⟩
  | 70 => ⟨S4000000x1, .i32⟩
  | 71 => ⟨S200000x64, .f32⟩
  | 72 => ⟨S200000x64, .f32⟩
  | 73 => ⟨S200000x64, .f32⟩
  | 74 => ⟨S1x64x64, .f32⟩
  | 75 => ⟨S64x64, .f32⟩
  | 76 => ⟨S1x64, .f32⟩
  | 77 => ⟨S64, .f32⟩
  | 78 => ⟨S1x64x64, .f32⟩
  | 79 => ⟨S64x64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S64, .f32⟩
  | 86 => ⟨S1x64, .f32⟩
  | 87 => ⟨S64, .f32⟩
  | 88 => ⟨S1x64, .f32⟩
  | 89 => ⟨S1x64, .f32⟩
  | 90 => ⟨S1x64, .f32⟩
  | 91 => ⟨S1x64, .f32⟩
  | 92 => ⟨S1x64, .f32⟩
  | 93 => ⟨S200000x64, .f32⟩
  | 94 => ⟨S1x64x64, .f32⟩
  | 95 => ⟨S64x64, .f32⟩
  | 96 => ⟨S1x64, .f32⟩
  | 97 => ⟨S64, .f32⟩
  | 98 => ⟨S1x64x64, .f32⟩
  | 99 => ⟨S64x64, .f32⟩
  | 100 => ⟨S1x64, .f32⟩
  | 101 => ⟨S64, .f32⟩
  | 102 => ⟨S1x64, .f32⟩
  | 103 => ⟨S64, .f32⟩
  | 104 => ⟨S1x64, .f32⟩
  | 105 => ⟨S64, .f32⟩
  | 106 => ⟨S1x64, .f32⟩
  | 107 => ⟨S64, .f32⟩
  | 108 => ⟨S1x64, .f32⟩
  | 109 => ⟨S1x64, .f32⟩
  | 110 => ⟨S1x64, .f32⟩
  | 111 => ⟨S1x64, .f32⟩
  | 112 => ⟨S1x64, .f32⟩
  | 113 => ⟨S200000x64, .f32⟩
  | 114 => ⟨S_, .i32⟩
  | 115 => ⟨S4000000, .i32⟩
  | 116 => ⟨S4000000, .i1⟩
  | 117 => ⟨S_, .i32⟩
  | 118 => ⟨S4000000, .i32⟩
  | 119 => ⟨S4000000, .i32⟩
  | 120 => ⟨S4000000, .i32⟩
  | 121 => ⟨S4000000x1, .i32⟩
  | 122 => ⟨S4000000x64, .f32⟩
  | 123 => ⟨S_, .f32⟩
  | 124 => ⟨S200000x64, .f32⟩
  | 125 => ⟨S4000000x1, .i32⟩
  | 126 => ⟨S200000x64, .f32⟩
  | 127 => ⟨S200000x64, .f32⟩
  | _ => ⟨S2x4000000, .i32⟩

abbrev hbmTy0_1 (i : Nat) : BufTy := match i % 128 with
  | 0 => ⟨S200000x64, .f32⟩
  | 1 => ⟨S_, .i32⟩
  | 2 => ⟨S4000000, .i32⟩
  | 3 => ⟨S4000000, .i1⟩
  | 4 => ⟨S_, .i32⟩
  | 5 => ⟨S4000000, .i32⟩
  | 6 => ⟨S4000000, .i32⟩
  | 7 => ⟨S4000000, .i32⟩
  | 8 => ⟨S4000000x1, .i32⟩
  | 9 => ⟨S4000000x64, .f32⟩
  | 10 => ⟨S_, .f32⟩
  | 11 => ⟨S200000x64, .f32⟩
  | 12 => ⟨S4000000x1, .i32⟩
  | 13 => ⟨S200000x64, .f32⟩
  | 14 => ⟨S200000x64, .f32⟩
  | 15 => ⟨S200000x64, .f32⟩
  | 16 => ⟨S1x64x64, .f32⟩
  | 17 => ⟨S64x64, .f32⟩
  | 18 => ⟨S1x64, .f32⟩
  | 19 => ⟨S64, .f32⟩
  | 20 => ⟨S1x64x64, .f32⟩
  | 21 => ⟨S64x64, .f32⟩
  | 22 => ⟨S1x64, .f32⟩
  | 23 => ⟨S64, .f32⟩
  | 24 => ⟨S1x64, .f32⟩
  | 25 => ⟨S64, .f32⟩
  | 26 => ⟨S1x64, .f32⟩
  | 27 => ⟨S64, .f32⟩
  | 28 => ⟨S1x64, .f32⟩
  | 29 => ⟨S64, .f32⟩
  | 30 => ⟨S1x64, .f32⟩
  | 31 => ⟨S1x64, .f32⟩
  | 32 => ⟨S1x64, .f32⟩
  | 33 => ⟨S1x64, .f32⟩
  | 34 => ⟨S1x64, .f32⟩
  | 35 => ⟨S200000x64, .f32⟩
  | 36 => ⟨S1x64x64, .f32⟩
  | 37 => ⟨S64x64, .f32⟩
  | 38 => ⟨S1x64, .f32⟩
  | 39 => ⟨S64, .f32⟩
  | 40 => ⟨S1x64x64, .f32⟩
  | 41 => ⟨S64x64, .f32⟩
  | 42 => ⟨S1x64, .f32⟩
  | 43 => ⟨S64, .f32⟩
  | 44 => ⟨S1x64, .f32⟩
  | 45 => ⟨S64, .f32⟩
  | 46 => ⟨S1x64, .f32⟩
  | 47 => ⟨S64, .f32⟩
  | 48 => ⟨S1x64, .f32⟩
  | 49 => ⟨S64, .f32⟩
  | 50 => ⟨S1x64, .f32⟩
  | 51 => ⟨S1x64, .f32⟩
  | 52 => ⟨S1x64, .f32⟩
  | 53 => ⟨S1x64, .f32⟩
  | 54 => ⟨S1x64, .f32⟩
  | 55 => ⟨S200000x64, .f32⟩
  | 56 => ⟨S1x100000, .i32⟩
  | 57 => ⟨S100000, .i32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S100000x1, .i32⟩
  | 66 => ⟨S100000x64, .f32⟩
  | 67 => ⟨S1x100000, .i32⟩
  | 68 => ⟨S100000, .i32⟩
  | 69 => ⟨S_, .i32⟩
  | 70 => ⟨S100000, .i32⟩
  | 71 => ⟨S100000, .i1⟩
  | 72 => ⟨S_, .i32⟩
  | 73 => ⟨S100000, .i32⟩
  | 74 => ⟨S100000, .i32⟩
  | 75 => ⟨S100000, .i32⟩
  | 76 => ⟨S100000x1, .i32⟩
  | 77 => ⟨S100000x64, .f32⟩
  | 78 => ⟨S64x64, .f32⟩
  | 79 => ⟨S64x64, .f32⟩
  | 80 => ⟨S1x64, .f32⟩
  | 81 => ⟨S1x4, .f32⟩
  | 82 => ⟨S100000x4, .f32⟩
  | _ => ⟨S2x4000000, .i32⟩

abbrev hbmTy (i : Nat) : BufTy := match i / 128 with
  | 0 => hbmTy0_0 i
  | 1 => hbmTy0_1 i
  | _ => ⟨S2x4000000, .i32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S64x64, .f32⟩
  | .local _ .vmem, ⟨44, _⟩ => ⟨S1x64, .f32⟩
  | .local _ .vmem, ⟨45, _⟩ => ⟨S64x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S64x64, .f32⟩
  | .local _ .vmem, ⟨57, _⟩ => ⟨S64x64, .f32⟩
  | .local _ .vmem, ⟨58, _⟩ => ⟨S1x64, .f32⟩
  | .local _ .vmem, ⟨59, _⟩ => ⟨S64x4, .f32⟩
  | .local _ .vmem, ⟨60, _⟩ => ⟨S1x4, .f32⟩
  | .local _ .vmem, ⟨61, _⟩ => ⟨S10000x4, .f32⟩
  | .local _ .vmem, ⟨62, _⟩ => ⟨S10000x4, .f32⟩
  | _, _ => ⟨S2x4000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_6 : Ref sig .tc := ⟨.hbm, 59, rfl⟩
abbrev main_v29 : Ref sig .tc := ⟨.hbm, 60, rfl⟩
abbrev main_v30 : Ref sig .tc := ⟨.hbm, 61, rfl⟩
abbrev main_c_7 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_8 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_9 : Ref sig .tc := ⟨.hbm, 114, rfl⟩
abbrev main_v81 : Ref sig .tc := ⟨.hbm, 115, rfl⟩
abbrev main_v82 : Ref sig .tc := ⟨.hbm, 116, rfl⟩
abbrev main_c_10 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_11 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_12 : Ref sig .tc := ⟨.hbm, 129, rfl⟩
abbrev main_v93 : Ref sig .tc := ⟨.hbm, 130, rfl⟩
abbrev main_v94 : Ref sig .tc := ⟨.hbm, 131, rfl⟩
abbrev main_c_13 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_14 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_c_15 : Ref sig .tc := ⟨.hbm, 186, rfl⟩
abbrev main_v147 : Ref sig .tc := ⟨.hbm, 187, rfl⟩
abbrev main_v148 : Ref sig .tc := ⟨.hbm, 188, rfl⟩
abbrev main_c_16 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_c_17 : Ref sig .tc := ⟨.hbm, 197, rfl⟩
abbrev main_v156 : Ref sig .tc := ⟨.hbm, 198, rfl⟩
abbrev main_v157 : Ref sig .tc := ⟨.hbm, 199, rfl⟩
abbrev main_c_18 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg9_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg6_0 : Ref sig .tc := ⟨.vmem, 60, rfl⟩
abbrev cc4_stg7_0 : Ref sig .tc := ⟨.vmem, 61, rfl⟩
abbrev cc4_stg7_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem9_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem5_0 : DmaSem sig := 59
abbrev cc4_sem6_0 : DmaSem sig := 60
abbrev cc4_sem7_0 : DmaSem sig := 61
abbrev cc4_sem7_1 : DmaSem sig := 62

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S10000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S10000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x4 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x4 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x4 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S200000 : S_.BroadcastsInDim S200000 (![] : Fin 0 → Fin S200000.rank)
  bcast_S4000000_S4000000x1_0 : S4000000.BroadcastsInDim S4000000x1 (![0] : Fin 1 → Fin S4000000x1.rank)
  bcast_S200000_S200000x1_0 : S200000.BroadcastsInDim S200000x1 (![0] : Fin 1 → Fin S200000x1.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x64x64_S1x64x64_1_0_0 : S2x64x64.Slices ![1, 0, 0] S1x64x64
  slices_S2x64_S1x64_1_0 : S2x64.Slices ![1, 0] S1x64
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  slices_S128x64_S64x64_0_0 : S128x64.Slices ![0, 0] S64x64
  slices_S128x64_S64x64_64_0 : S128x64.Slices ![64, 0] S64x64
  shapeCasts_S4_S1x4 : S4.ShapeCasts S1x4
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S10000x4_S10000x4_0_0 : ∀ a, (![0, 0] : Fin 2 → Nat) a + S10000x4.size a ≤ S10000x4.size a
  h_S10000x4 : 0 < S10000x4.numel
  scatter_S200000_S4000000x1_S4000000_n_0_0_1_wf : ScatterDims.WF S200000 S4000000x1 S4000000 [] [0] [0] 1
  gather_S200000x64_S4000000x1_S4000000x64_1_0_n_n_0_1_164_wf : GatherDims.WF S200000x64 S4000000x1 S4000000x64 [1] [0] [] [0] [] 1 ![1, 64]
  scatter_S200000x64_S4000000x1_S4000000x64_1_0_0_1_wf : ScatterDims.WF S200000x64 S4000000x1 S4000000x64 [1] [0] [0] 1
  dot_S10000x64_S64x64_S10000x64_1_0_0_1_n_n_wf : DotDims.WF S10000x64 S64x64 S10000x64 [1] [0] [0] [1] [] []
  gather_S200000x64_S100000x1_S100000x64_1_0_n_n_0_1_164_wf : GatherDims.WF S200000x64 S100000x1 S100000x64 [1] [0] [] [0] [] 1 ![1, 64]
  dot_S10000x64_S64x4_S10000x4_1_0_0_1_n_n_wf : DotDims.WF S10000x64 S64x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S200000x64.size a
  hwx0_0 : ∀ i : grid0.Coords, EltTy.bits .f32 = 32 ∨ (Rect.block (s := S200000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S200000x64.size a
  hwx0_1 : ∀ i : grid0.Coords, EltTy.bits .f32 = 32 ∨ (Rect.block (s := S200000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x64.size a ≤ S200000x64.size a
  hwx0_9 : ∀ i : grid0.Coords, EltTy.bits .f32 = 32 ∨ (Rect.block (s := S200000x64) S10000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S200000x64.size a
  hwx1_1 : ∀ i : grid1.Coords, EltTy.bits .f32 = 32 ∨ (Rect.block (s := S200000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x64.size a ≤ S200000x64.size a
  hwx1_9 : ∀ i : grid1.Coords, EltTy.bits .f32 = 32 ∨ (Rect.block (s := S200000x64) S10000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S200000x64.size a
  hwx2_1 : ∀ i : grid2.Coords, EltTy.bits .f32 = 32 ∨ (Rect.block (s := S200000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S10000x64.size a ≤ S200000x64.size a
  hwx2_9 : ∀ i : grid2.Coords, EltTy.bits .f32 = 32 ∨ (Rect.block (s := S200000x64) S10000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S200000x64.size a
  hwx3_1 : ∀ i : grid3.Coords, EltTy.bits .f32 = 32 ∨ (Rect.block (s := S200000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S10000x64.size a ≤ S200000x64.size a
  hwx3_9 : ∀ i : grid3.Coords, EltTy.bits .f32 = 32 ∨ (Rect.block (s := S200000x64) S10000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x4.size a ≤ S64x4.size a
  hwx4_5 : ∀ i : grid4.Coords, EltTy.bits .f32 = 32 ∨ (Rect.block (s := S64x4) S64x4.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x4.size a ≤ S1x4.size a
  hwx4_6 : ∀ i : grid4.Coords, EltTy.bits .f32 = 32 ∨ (Rect.block (s := S1x4) S1x4.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x4.size a ≤ S100000x4.size a
  hwx4_7 : ∀ i : grid4.Coords, EltTy.bits .f32 = 32 ∨ (Rect.block (s := S100000x4) S10000x4.size (cc4_transform_7 i) (hinb4_7 i)).WholeWords (EltTy.packing .f32)

variable [Facts₀]

def scatter_S200000_S4000000x1_S4000000_n_0_0_1 : ScatterDims S200000 S4000000x1 S4000000 where
  updateWindowDims := []
  insertedWindowDims := [0]
  scatterDimsToOperandDims := [0]
  indexVectorDim := 1
  wf := scatter_S200000_S4000000x1_S4000000_n_0_0_1_wf
def gather_S200000x64_S4000000x1_S4000000x64_1_0_n_n_0_1_164 : GatherDims S200000x64 S4000000x1 S4000000x64 where
  offsetDims := [1]
  collapsedSliceDims := [0]
  operandBatchingDims := []
  startIndicesBatchingDims := []
  startIndexMap := [0]
  indexVectorDim := 1
  sliceSizes := ![1, 64]
  wf := gather_S200000x64_S4000000x1_S4000000x64_1_0_n_n_0_1_164_wf
def scatter_S200000x64_S4000000x1_S4000000x64_1_0_0_1 : ScatterDims S200000x64 S4000000x1 S4000000x64 where
  updateWindowDims := [1]
  insertedWindowDims := [0]
  scatterDimsToOperandDims := [0]
  indexVectorDim := 1
  wf := scatter_S200000x64_S4000000x1_S4000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S200000x64_S100000x1_S100000x64_1_0_n_n_0_1_164 : GatherDims S200000x64 S100000x1 S100000x64 where
  offsetDims := [1]
  collapsedSliceDims := [0]
  operandBatchingDims := []
  startIndicesBatchingDims := []
  startIndexMap := [0]
  indexVectorDim := 1
  sliceSizes := ![1, 64]
  wf := gather_S200000x64_S100000x1_S100000x64_1_0_n_n_0_1_164_wf
def dot_S10000x64_S64x4_S10000x4_1_0_0_1_n_n : DotDims S10000x64 S64x4 S10000x4 where
  lhsContracting := [1]
  rhsContracting := [0]
  lhsNonContracting := [0]
  rhsNonContracting := [1]
  lhsBatch := []
  rhsBatch := []
  wf := dot_S10000x64_S64x4_S10000x4_1_0_0_1_n_n_wf

abbrev win0_0 : Pipeline.Window sig grid0 :=
  Pipeline.Window.ofSpec (Memref.whole main_v28) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v57) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v58) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v59) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v60) S10000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v75) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v76) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v77) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v78) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v79) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v80) S10000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v92) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v106) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v119) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v110) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v120) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v121) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v122) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v123) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v124) S10000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v104) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v126) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v139) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v130) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v140) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v141) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v142) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v143) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v144) S10000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v153) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v162) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v163) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v164) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v165) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg20) S64x4.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v166) S1x4.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v167) S10000x4.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S2x4000000 : Shape := ⟨2, ![2, 4000000]⟩
abbrev S2x100000 : Shape := ⟨2, ![2, 100000]⟩
abbrev S200000x64 : Shape := ⟨2, ![200000, 64]⟩
abbrev S2x64x64 : Shape := ⟨3, ![2, 64, 64]⟩
abbrev S2x64 : Shape := ⟨2, ![2, 64]⟩
abbrev S128x64 : Shape := ⟨2, ![128, 64]⟩
abbrev S64 : Shape := ⟨1, ![64]⟩
abbrev S64x4 : Shape := ⟨2, ![64, 4]⟩
abbrev S4 : Shape := ⟨1, ![4]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x64 : Shape := ⟨2, ![4000000, 64]⟩
abbrev S200000 : Shape := ⟨1, ![200000]⟩
abbrev S200000x1 : Shape := ⟨2, ![200000, 1]⟩
abbrev S1x64x64 : Shape := ⟨3, ![1, 64, 64]⟩
abbrev S64x64 : Shape := ⟨2, ![64, 64]⟩
abbrev S1x64 : Shape := ⟨2, ![1, 64]⟩
abbrev S1x100000 : Shape := ⟨2, ![1, 100000]⟩
abbrev S100000 : Shape := ⟨1, ![100000]⟩
abbrev S100000x1 : Shape := ⟨2, ![100000, 1]⟩
abbrev S100000x64 : Shape := ⟨2, ![100000, 64]⟩
abbrev S100000x128 : Shape := ⟨2, ![100000, 128]⟩
abbrev S100000x4 : Shape := ⟨2, ![100000, 4]⟩
abbrev S1x4 : Shape := ⟨2, ![1, 4]⟩

abbrev nBuf : Space → Nat
  | .hbm => 316
  | .vmem => 0
  | .smem => 0
  | _ => 0

abbrev hbmTy0_0 (i : Nat) : BufTy := match i % 128 with
  | 0 => ⟨S2x4000000, .i32⟩
  | 1 => ⟨S2x100000, .i32⟩
  | 2 => ⟨S200000x64, .f32⟩
  | 3 => ⟨S200000x64, .f32⟩
  | 4 => ⟨S2x64x64, .f32⟩
  | 5 => ⟨S2x64, .f32⟩
  | 6 => ⟨S2x64x64, .f32⟩
  | 7 => ⟨S2x64x64, .f32⟩
  | 8 => ⟨S2x64, .f32⟩
  | 9 => ⟨S2x64x64, .f32⟩
  | 10 => ⟨S2x64, .f32⟩
  | 11 => ⟨S2x64, .f32⟩
  | 12 => ⟨S2x64, .f32⟩
  | 13 => ⟨S2x64, .f32⟩
  | 14 => ⟨S2x64, .f32⟩
  | 15 => ⟨S2x64, .f32⟩
  | 16 => ⟨S2x64, .f32⟩
  | 17 => ⟨S2x64, .f32⟩
  | 18 => ⟨S128x64, .f32⟩
  | 19 => ⟨S64, .f32⟩
  | 20 => ⟨S64x4, .f32⟩
  | 21 => ⟨S4, .f32⟩
  | 22 => ⟨S1x4000000, .i32⟩
  | 23 => ⟨S4000000, .i32⟩
  | 24 => ⟨S1x4000000, .i32⟩
  | 25 => ⟨S4000000, .i32⟩
  | 26 => ⟨S_, .i32⟩
  | 27 => ⟨S4000000, .i32⟩
  | 28 => ⟨S4000000, .i1⟩
  | 29 => ⟨S_, .i32⟩
  | 30 => ⟨S4000000, .i32⟩
  | 31 => ⟨S4000000, .i32⟩
  | 32 => ⟨S4000000, .i32⟩
  | 33 => ⟨S4000000x1, .i32⟩
  | 34 => ⟨S4000000x64, .f32⟩
  | 35 => ⟨S_, .f32⟩
  | 36 => ⟨S200000x64, .f32⟩
  | 37 => ⟨S4000000x1, .i32⟩
  | 38 => ⟨S200000x64, .f32⟩
  | 39 => ⟨S_, .f32⟩
  | 40 => ⟨S4000000, .f32⟩
  | 41 => ⟨S_, .f32⟩
  | 42 => ⟨S200000, .f32⟩
  | 43 => ⟨S4000000x1, .i32⟩
  | 44 => ⟨S200000, .f32⟩
  | 45 => ⟨S_, .f32⟩
  | 46 => ⟨S200000, .f32⟩
  | 47 => ⟨S200000, .f32⟩
  | 48 => ⟨S200000x1, .f32⟩
  | 49 => ⟨S200000x64, .f32⟩
  | 50 => ⟨S200000x64, .f32⟩
  | 51 => ⟨S1x64x64, .f32⟩
  | 52 => ⟨S64x64, .f32⟩
  | 53 => ⟨S200000x64, .f32⟩
  | 54 => ⟨S1x64, .f32⟩
  | 55 => ⟨S64, .f32⟩
  | 56 => ⟨S1x64, .f32⟩
  | 57 => ⟨S200000x64, .f32⟩
  | 58 => ⟨S200000x64, .f32⟩
  | 59 => ⟨S1x64x64, .f32⟩
  | 60 => ⟨S64x64, .f32⟩
  | 61 => ⟨S200000x64, .f32⟩
  | 62 => ⟨S200000x64, .f32⟩
  | 63 => ⟨S1x64, .f32⟩
  | 64 => ⟨S64, .f32⟩
  | 65 => ⟨S1x64, .f32⟩
  | 66 => ⟨S64, .f32⟩
  | 67 => ⟨S1x64, .f32⟩
  | 68 => ⟨S64, .f32⟩
  | 69 => ⟨S1x64, .f32⟩
  | 70 => ⟨S64, .f32⟩
  | 71 => ⟨S1x64, .f32⟩
  | 72 => ⟨S200000x64, .f32⟩
  | 73 => ⟨S200000x64, .f32⟩
  | 74 => ⟨S_, .f32⟩
  | 75 => ⟨S64, .f32⟩
  | 76 => ⟨S64, .f32⟩
  | 77 => ⟨S64, .f32⟩
  | 78 => ⟨S1x64, .f32⟩
  | 79 => ⟨S200000x64, .f32⟩
  | 80 => ⟨S200000x64, .f32⟩
  | 81 => ⟨S1x64, .f32⟩
  | 82 => ⟨S200000x64, .f32⟩
  | 83 => ⟨S200000x64, .f32⟩
  | 84 => ⟨S1x64, .f32⟩
  | 85 => ⟨S200000x64, .f32⟩
  | 86 => ⟨S200000x64, .f32⟩
  | 87 => ⟨S_, .f32⟩
  | 88 => ⟨S200000x64, .f32⟩
  | 89 => ⟨S200000x64, .f32⟩
  | 90 => ⟨S_, .i32⟩
  | 91 => ⟨S4000000, .i32⟩
  | 92 => ⟨S4000000, .i1⟩
  | 93 => ⟨S_, .i32⟩
  | 94 => ⟨S4000000, .i32⟩
  | 95 => ⟨S4000000, .i32⟩
  | 96 => ⟨S4000000, .i32⟩
  | 97 => ⟨S4000000x1, .i32⟩
  | 98 => ⟨S4000000x64, .f32⟩
  | 99 => ⟨S_, .f32⟩
  | 100 => ⟨S200000x64, .f32⟩
  | 101 => ⟨S4000000x1, .i32⟩
  | 102 => ⟨S200000x64, .f32⟩
  | 103 => ⟨S_, .f32⟩
  | 104 => ⟨S4000000, .f32⟩
  | 105 => ⟨S_, .f32⟩
  | 106 => ⟨S200000, .f32⟩
  | 107 => ⟨S4000000x1, .i32⟩
  | 108 => ⟨S200000, .f32⟩
  | 109 => ⟨S_, .f32⟩
  | 110 => ⟨S200000, .f32⟩
  | 111 => ⟨S200000, .f32⟩
  | 112 => ⟨S200000x1, .f32⟩
  | 113 => ⟨S200000x64, .f32⟩
  | 114 => ⟨S200000x64, .f32⟩
  | 115 => ⟨S1x64x64, .f32⟩
  | 116 => ⟨S64x64, .f32⟩
  | 117 => ⟨S200000x64, .f32⟩
  | 118 => ⟨S1x64, .f32⟩
  | 119 => ⟨S64, .f32⟩
  | 120 => ⟨S1x64, .f32⟩
  | 121 => ⟨S200000x64, .f32⟩
  | 122 => ⟨S200000x64, .f32⟩
  | 123 => ⟨S1x64x64, .f32⟩
  | 124 => ⟨S64x64, .f32⟩
  | 125 => ⟨S200000x64, .f32⟩
  | 126 => ⟨S200000x64, .f32⟩
  | 127 => ⟨S1x64, .f32⟩
  | _ => ⟨S2x4000000, .i32⟩

abbrev hbmTy0_1 (i : Nat) : BufTy := match i % 128 with
  | 0 => ⟨S64, .f32⟩
  | 1 => ⟨S1x64, .f32⟩
  | 2 => ⟨S64, .f32⟩
  | 3 => ⟨S1x64, .f32⟩
  | 4 => ⟨S64, .f32⟩
  | 5 => ⟨S1x64, .f32⟩
  | 6 => ⟨S64, .f32⟩
  | 7 => ⟨S1x64, .f32⟩
  | 8 => ⟨S200000x64, .f32⟩
  | 9 => ⟨S200000x64, .f32⟩
  | 10 => ⟨S_, .f32⟩
  | 11 => ⟨S64, .f32⟩
  | 12 => ⟨S64, .f32⟩
  | 13 => ⟨S64, .f32⟩
  | 14 => ⟨S1x64, .f32⟩
  | 15 => ⟨S200000x64, .f32⟩
  | 16 => ⟨S200000x64, .f32⟩
  | 17 => ⟨S1x64, .f32⟩
  | 18 => ⟨S200000x64, .f32⟩
  | 19 => ⟨S200000x64, .f32⟩
  | 20 => ⟨S1x64, .f32⟩
  | 21 => ⟨S200000x64, .f32⟩
  | 22 => ⟨S200000x64, .f32⟩
  | 23 => ⟨S_, .f32⟩
  | 24 => ⟨S200000x64, .f32⟩
  | 25 => ⟨S200000x64, .f32⟩
  | 26 => ⟨S_, .i32⟩
  | 27 => ⟨S4000000, .i32⟩
  | 28 => ⟨S4000000, .i1⟩
  | 29 => ⟨S_, .i32⟩
  | 30 => ⟨S4000000, .i32⟩
  | 31 => ⟨S4000000, .i32⟩
  | 32 => ⟨S4000000, .i32⟩
  | 33 => ⟨S4000000x1, .i32⟩
  | 34 => ⟨S4000000x64, .f32⟩
  | 35 => ⟨S_, .f32⟩
  | 36 => ⟨S200000x64, .f32⟩
  | 37 => ⟨S4000000x1, .i32⟩
  | 38 => ⟨S200000x64, .f32⟩
  | 39 => ⟨S_, .f32⟩
  | 40 => ⟨S4000000, .f32⟩
  | 41 => ⟨S_, .f32⟩
  | 42 => ⟨S200000, .f32⟩
  | 43 => ⟨S4000000x1, .i32⟩
  | 44 => ⟨S200000, .f32⟩
  | 45 => ⟨S_, .f32⟩
  | 46 => ⟨S200000, .f32⟩
  | 47 => ⟨S200000, .f32⟩
  | 48 => ⟨S200000x1, .f32⟩
  | 49 => ⟨S200000x64, .f32⟩
  | 50 => ⟨S200000x64, .f32⟩
  | 51 => ⟨S1x64x64, .f32⟩
  | 52 => ⟨S64x64, .f32⟩
  | 53 => ⟨S200000x64, .f32⟩
  | 54 => ⟨S1x64, .f32⟩
  | 55 => ⟨S64, .f32⟩
  | 56 => ⟨S1x64, .f32⟩
  | 57 => ⟨S200000x64, .f32⟩
  | 58 => ⟨S200000x64, .f32⟩
  | 59 => ⟨S1x64x64, .f32⟩
  | 60 => ⟨S64x64, .f32⟩
  | 61 => ⟨S200000x64, .f32⟩
  | 62 => ⟨S200000x64, .f32⟩
  | 63 => ⟨S1x64, .f32⟩
  | 64 => ⟨S64, .f32⟩
  | 65 => ⟨S1x64, .f32⟩
  | 66 => ⟨S64, .f32⟩
  | 67 => ⟨S1x64, .f32⟩
  | 68 => ⟨S64, .f32⟩
  | 69 => ⟨S1x64, .f32⟩
  | 70 => ⟨S64, .f32⟩
  | 71 => ⟨S1x64, .f32⟩
  | 72 => ⟨S200000x64, .f32⟩
  | 73 => ⟨S200000x64, .f32⟩
  | 74 => ⟨S_, .f32⟩
  | 75 => ⟨S64, .f32⟩
  | 76 => ⟨S64, .f32⟩
  | 77 => ⟨S64, .f32⟩
  | 78 => ⟨S1x64, .f32⟩
  | 79 => ⟨S200000x64, .f32⟩
  | 80 => ⟨S200000x64, .f32⟩
  | 81 => ⟨S1x64, .f32⟩
  | 82 => ⟨S200000x64, .f32⟩
  | 83 => ⟨S200000x64, .f32⟩
  | 84 => ⟨S1x64, .f32⟩
  | 85 => ⟨S200000x64, .f32⟩
  | 86 => ⟨S200000x64, .f32⟩
  | 87 => ⟨S_, .f32⟩
  | 88 => ⟨S200000x64, .f32⟩
  | 89 => ⟨S200000x64, .f32⟩
  | 90 => ⟨S_, .i32⟩
  | 91 => ⟨S4000000, .i32⟩
  | 92 => ⟨S4000000, .i1⟩
  | 93 => ⟨S_, .i32⟩
  | 94 => ⟨S4000000, .i32⟩
  | 95 => ⟨S4000000, .i32⟩
  | 96 => ⟨S4000000, .i32⟩
  | 97 => ⟨S4000000x1, .i32⟩
  | 98 => ⟨S4000000x64, .f32⟩
  | 99 => ⟨S_, .f32⟩
  | 100 => ⟨S200000x64, .f32⟩
  | 101 => ⟨S4000000x1, .i32⟩
  | 102 => ⟨S200000x64, .f32⟩
  | 103 => ⟨S_, .f32⟩
  | 104 => ⟨S4000000, .f32⟩
  | 105 => ⟨S_, .f32⟩
  | 106 => ⟨S200000, .f32⟩
  | 107 => ⟨S4000000x1, .i32⟩
  | 108 => ⟨S200000, .f32⟩
  | 109 => ⟨S_, .f32⟩
  | 110 => ⟨S200000, .f32⟩
  | 111 => ⟨S200000, .f32⟩
  | 112 => ⟨S200000x1, .f32⟩
  | 113 => ⟨S200000x64, .f32⟩
  | 114 => ⟨S200000x64, .f32⟩
  | 115 => ⟨S1x64x64, .f32⟩
  | 116 => ⟨S64x64, .f32⟩
  | 117 => ⟨S200000x64, .f32⟩
  | 118 => ⟨S1x64, .f32⟩
  | 119 => ⟨S64, .f32⟩
  | 120 => ⟨S1x64, .f32⟩
  | 121 => ⟨S200000x64, .f32⟩
  | 122 => ⟨S200000x64, .f32⟩
  | 123 => ⟨S1x64x64, .f32⟩
  | 124 => ⟨S64x64, .f32⟩
  | 125 => ⟨S200000x64, .f32⟩
  | 126 => ⟨S200000x64, .f32⟩
  | 127 => ⟨S1x64, .f32⟩
  | _ => ⟨S2x4000000, .i32⟩

abbrev hbmTy0_2 (i : Nat) : BufTy := match i % 128 with
  | 0 => ⟨S64, .f32⟩
  | 1 => ⟨S1x64, .f32⟩
  | 2 => ⟨S64, .f32⟩
  | 3 => ⟨S1x64, .f32⟩
  | 4 => ⟨S64, .f32⟩
  | 5 => ⟨S1x64, .f32⟩
  | 6 => ⟨S64, .f32⟩
  | 7 => ⟨S1x64, .f32⟩
  | 8 => ⟨S200000x64, .f32⟩
  | 9 => ⟨S200000x64, .f32⟩
  | 10 => ⟨S_, .f32⟩
  | 11 => ⟨S64, .f32⟩
  | 12 => ⟨S64, .f32⟩
  | 13 => ⟨S64, .f32⟩
  | 14 => ⟨S1x64, .f32⟩
  | 15 => ⟨S200000x64, .f32⟩
  | 16 => ⟨S200000x64, .f32⟩
  | 17 => ⟨S1x64, .f32⟩
  | 18 => ⟨S200000x64, .f32⟩
  | 19 => ⟨S200000x64, .f32⟩
  | 20 => ⟨S1x64, .f32⟩
  | 21 => ⟨S200000x64, .f32⟩
  | 22 => ⟨S200000x64, .f32⟩
  | 23 => ⟨S_, .f32⟩
  | 24 => ⟨S200000x64, .f32⟩
  | 25 => ⟨S200000x64, .f32⟩
  | 26 => ⟨S1x100000, .i32⟩
  | 27 => ⟨S100000, .i32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S100000x1, .i32⟩
  | 36 => ⟨S100000x64, .f32⟩
  | 37 => ⟨S1x100000, .i32⟩
  | 38 => ⟨S100000, .i32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x64, .f32⟩
  | 48 => ⟨S100000x128, .f32⟩
  | 49 => ⟨S100000x64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S100000x4, .f32⟩
  | 57 => ⟨S1x4, .f32⟩
  | 58 => ⟨S100000x4, .f32⟩
  | 59 => ⟨S100000x4, .f32⟩
  | _ => ⟨S2x4000000, .i32⟩

abbrev hbmTy (i : Nat) : BufTy := match i / 128 with
  | 0 => hbmTy0_0 i
  | 1 => hbmTy0_1 i
  | 2 => hbmTy0_2 i
  | _ => ⟨S2x4000000, .i32⟩

abbrev bufTy : (tb : Table) → Fin (tcTables nBuf tb) → BufTy
  | .hbm, ⟨i, _⟩ => hbmTy i
  | _, _ => ⟨S2x4000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_4 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call0_cst : Ref sig .tc := ⟨.hbm, 87, rfl⟩
abbrev main_call0_v0 : Ref sig .tc := ⟨.hbm, 88, rfl⟩
abbrev main_v58 : Ref sig .tc := ⟨.hbm, 89, rfl⟩
abbrev main_c_5 : Ref sig .tc := ⟨.hbm, 90, rfl⟩
abbrev main_v59 : Ref sig .tc := ⟨.hbm, 91, rfl⟩
abbrev main_v60 : Ref sig .tc := ⟨.hbm, 92, rfl⟩
abbrev main_c_6 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_7 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_8 : Ref sig .tc := ⟨.hbm, 103, rfl⟩
abbrev main_v69 : Ref sig .tc := ⟨.hbm, 104, rfl⟩
abbrev main_cst_9 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_10 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_11 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_call1_cst : Ref sig .tc := ⟨.hbm, 151, rfl⟩
abbrev main_call1_v0 : Ref sig .tc := ⟨.hbm, 152, rfl⟩
abbrev main_v113 : Ref sig .tc := ⟨.hbm, 153, rfl⟩
abbrev main_c_12 : Ref sig .tc := ⟨.hbm, 154, rfl⟩
abbrev main_v114 : Ref sig .tc := ⟨.hbm, 155, rfl⟩
abbrev main_v115 : Ref sig .tc := ⟨.hbm, 156, rfl⟩
abbrev main_c_13 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_14 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_15 : Ref sig .tc := ⟨.hbm, 167, rfl⟩
abbrev main_v124 : Ref sig .tc := ⟨.hbm, 168, rfl⟩
abbrev main_cst_16 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_17 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_cst_18 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_call2_cst : Ref sig .tc := ⟨.hbm, 215, rfl⟩
abbrev main_call2_v0 : Ref sig .tc := ⟨.hbm, 216, rfl⟩
abbrev main_v168 : Ref sig .tc := ⟨.hbm, 217, rfl⟩
abbrev main_c_19 : Ref sig .tc := ⟨.hbm, 218, rfl⟩
abbrev main_v169 : Ref sig .tc := ⟨.hbm, 219, rfl⟩
abbrev main_v170 : Ref sig .tc := ⟨.hbm, 220, rfl⟩
abbrev main_c_20 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_cst_21 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_cst_22 : Ref sig .tc := ⟨.hbm, 231, rfl⟩
abbrev main_v179 : Ref sig .tc := ⟨.hbm, 232, rfl⟩
abbrev main_cst_23 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_cst_24 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_cst_25 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_call3_cst : Ref sig .tc := ⟨.hbm, 279, rfl⟩
abbrev main_call3_v0 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_c_26 : Ref sig .tc := ⟨.hbm, 284, rfl⟩
abbrev main_v226 : Ref sig .tc := ⟨.hbm, 285, rfl⟩
abbrev main_v227 : Ref sig .tc := ⟨.hbm, 286, rfl⟩
abbrev main_c_27 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_c_28 : Ref sig .tc := ⟨.hbm, 295, rfl⟩
abbrev main_v235 : Ref sig .tc := ⟨.hbm, 296, rfl⟩
abbrev main_v236 : Ref sig .tc := ⟨.hbm, 297, rfl⟩
abbrev main_c_29 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_call4_cst : Ref sig .tc := ⟨.hbm, 309, rfl⟩
abbrev main_call4_v0 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S64 : S_.BroadcastsInDim S64 (![] : Fin 0 → Fin S64.rank)
  slices_S2x64x64_S1x64x64_1_0_0 : S2x64x64.Slices ![1, 0, 0] S1x64x64
  slices_S2x64_S1x64_1_0 : S2x64.Slices ![1, 0] S1x64
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  gather_S200000x64_S4000000x1_S4000000x64_1_0_n_n_0_1_164_wf : GatherDims.WF S200000x64 S4000000x1 S4000000x64 [1] [0] [] [0] [] 1 ![1, 64]
  scatter_S200000x64_S4000000x1_S4000000x64_1_0_0_1_wf : ScatterDims.WF S200000x64 S4000000x1 S4000000x64 [1] [0] [0] 1
  scatter_S200000_S4000000x1_S4000000_n_0_0_1_wf : ScatterDims.WF S200000 S4000000x1 S4000000 [] [0] [0] 1
  dot_S200000x64_S64x64_S200000x64_1_0_0_1_n_n_wf : DotDims.WF S200000x64 S64x64 S200000x64 [1] [0] [0] [1] [] []
  gather_S200000x64_S100000x1_S100000x64_1_0_n_n_0_1_164_wf : GatherDims.WF S200000x64 S100000x1 S100000x64 [1] [0] [] [0] [] 1 ![1, 64]
  dot_S100000x128_S128x64_S100000x64_1_0_0_1_n_n_wf : DotDims.WF S100000x128 S128x64 S100000x64 [1] [0] [0] [1] [] []
  dot_S100000x64_S64x4_S100000x4_1_0_0_1_n_n_wf : DotDims.WF S100000x64 S64x4 S100000x4 [1] [0] [0] [1] [] []

variable [Facts₀]

def gather_S200000x64_S4000000x1_S4000000x64_1_0_n_n_0_1_164 : GatherDims S200000x64 S4000000x1 S4000000x64 where
  offsetDims := [1]
  collapsedSliceDims := [0]
  operandBatchingDims := []
  startIndicesBatchingDims := []
  startIndexMap := [0]
  indexVectorDim := 1
  sliceSizes := ![1, 64]
  wf := gather_S200000x64_S4000000x1_S4000000x64_1_0_n_n_0_1_164_wf
def scatter_S200000x64_S4000000x1_S4000000x64_1_0_0_1 : ScatterDims S200000x64 S4000000x1 S4000000x64 where
  updateWindowDims := [1]
  insertedWindowDims := [0]
  scatterDimsToOperandDims := [0]
  indexVectorDim := 1
  wf := scatter_S200000x64_S4000000x1_S4000000x64_1_0_0_1_wf
def scatter_S200000_S4000000x1_S4000000_n_0_0_1 : ScatterDims S200000 S4000000x1 S4000000 where
  updateWindowDims := []
  insertedWindowDims := [0]
  scatterDimsToOperandDims := [0]
  indexVectorDim := 1
  wf := scatter_S200000_S4000000x1_S4000000_n_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S200000x64_S100000x1_S100000x64_1_0_n_n_0_1_164 : GatherDims S200000x64 S100000x1 S100000x64 where
  offsetDims := [1]
  collapsedSliceDims := [0]
  operandBatchingDims := []
  startIndicesBatchingDims := []
  startIndexMap := [0]
  indexVectorDim := 1
  sliceSizes := ![1, 64]
  wf := gather_S200000x64_S100000x1_S100000x64_1_0_n_n_0_1_164_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf

class Facts : Prop extends Facts₀ where

variable [Facts]
-- ==== Proof.ValueRun.lean ====
/-
  The kernel program's run with its result named.

  The program is ten segments — five stretches of host operations and five pipelined regions — and the buffer contents at
  each segment boundary are a fold from the launch memory: a host stretch applies its operations, a region replaces its
  arrays by what its write-backs leave. Every weakly fair execution terminates, without a fault, in a state whose
  unscoped buffers hold the last boundary's contents; reading the result buffer and the twenty-two argument buffers there
  gives the result at the fold's value and the arguments as launched.
-/
import proofs.«131276_j14113262535218_1_alg».proof.Proof.Gen.KernelIdeal.Frame

set_option maxRecDepth 16384

noncomputable section

namespace Cert.KernelIdeal.ValueRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last segment
    boundary's contents and every argument buffer as launched. -/
theorem run_result : θ_run defs (onTc (τ := τ) (main (F := F))) ⟨m, fun _ => 0, ρ⟩ (fun r => ∀ c : Dev nD,
      r.2.mem ((c.tc : Thread nD τ).loc main_v167) = W10 m ρ c (Proc.devRef .tc main_v167)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v167 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c)⟩)

end Cert.KernelIdeal.ValueRun

end
-- ==== Proof.Spec.lean ====
/-
  The arithmetic of the network, on extended reals, index by index.

  One side of one layer: from the neighbourhood means `agg` and the side's own features `x` (both n rows of 64), two
  64×64 weight matrices, a bias row and the four rows of a fixed normalisation (scale g, shift b, mean mu, variance v),
      out[r, q] = max( ((agg·Wl)[r,q] + (x·Wr)[r,q] + bl[q] − mu[q]) · rsqrt(v[q] + ε) · g[q] + b[q], 0 ).
  The three summands of the pre-activation are added in two different orders by the two programs; on the extended reals
  addition is commutative and associative (no cancellation is involved), so the orders agree: `pre_comm`.

  The head: from two blocks of n rows of 64 (the gathered features of the two endpoints of a queried pair),
      hid[r, j] = max( (u·A)[r,j] + (t·B)[r,j] + b1[j], 0 ),   out[r, c] = (hid·W2)[r,c] + b2[c],
  where A and B are the upper and lower 64 rows of one 128×64 matrix; the other program multiplies the 128-long
  concatenated row by the whole matrix, and a sum over 128 = 64 + 64 terms splits into the two sums: `sum_split`.
-/
import Idealize.ShloMosaic.PureOps.Ideal
import Idealize.ShloMosaic.Lib.ValueIdx

noncomputable section

namespace Cert.Sage

open Idealize.ShloMosaic Idealize.ShloMosaic.ValueIdx

/-- The variance floor: the single-precision word nearest 1e-5, the same word in both programs. -/
abbrev epsW : EReal := Ideal.ofBits .f32 0x3727C5AC#32
/-- The clipping level of the rectifier: the zero word. -/
abbrev zeroW : EReal := Ideal.ofBits .f32 0x00000000#32

/-- Row `r` of `a` against column `q` of `w`: the matrix product's entry as a sum of 64 products. -/
def dot64 {n c : Nat} (a : (⟨2, ![n, 64]⟩ : Shape).Idx → EReal) (w : (⟨2, ![64, c]⟩ : Shape).Idx → EReal)
    (r : Fin n) (q : Fin c) : EReal :=
  ∑ k : Fin 64, a (ix2 r k) * w (ix2 k q)

/-- Normalise by the fixed statistics, scale, shift, clip at zero: column `q`'s map of a pre-activation `y`. -/
def act (g b mu v : (⟨2, ![1, 64]⟩ : Shape).Idx → EReal) (q : Fin 64) (y : EReal) : EReal :=
  max ((y - mu (ix2 0 q)) * Ideal.rsqrt (v (ix2 0 q) + epsW) * g (ix2 0 q) + b (ix2 0 q)) zeroW

/-- The pre-activation with the two products added first and the bias last. -/
def preA {n : Nat} (agg x : (⟨2, ![n, 64]⟩ : Shape).Idx → EReal) (wl wr : (⟨2, ![64, 64]⟩ : Shape).Idx → EReal)
    (bl : (⟨2, ![1, 64]⟩ : Shape).Idx → EReal) (r : Fin n) (q : Fin 64) : EReal :=
  (dot64 agg wl r q + dot64 x wr r q) + bl (ix2 0 q)

/-- The pre-activation with the bias added to the first product before the second product. -/
def preB {n : Nat} (agg x : (⟨2, ![n, 64]⟩ : Shape).Idx → EReal) (wl wr : (⟨2, ![64, 64]⟩ : Shape).Idx → EReal)
    (bl : (⟨2, ![1, 64]⟩ : Shape).Idx → EReal) (r : Fin n) (q : Fin 64) : EReal :=
  (dot64 agg wl r q + bl (ix2 0 q)) + dot64 x wr r q

/-- The two orders of the three summands agree: addition of extended reals is commutative and associative. -/
theorem pre_comm {n : Nat} (agg x : (⟨2, ![n, 64]⟩ : Shape).Idx → EReal) (wl wr : (⟨2, ![64, 64]⟩ : Shape).Idx → EReal)
    (bl : (⟨2, ![1, 64]⟩ : Shape).Idx → EReal) (r : Fin n) (q : Fin 64) :
    preB agg x wl wr bl r q = preA agg x wl wr bl r q := by
  unfold preA preB
  exact add_right_comm _ _ _

/-- One side of one layer, as one function of whole arrays. -/
def upd {n : Nat} (agg x : (⟨2, ![n, 64]⟩ : Shape).Idx → EReal) (wl : (⟨2, ![64, 64]⟩ : Shape).Idx → EReal)
    (bl : (⟨2, ![1, 64]⟩ : Shape).Idx → EReal) (wr : (⟨2, ![64, 64]⟩ : Shape).Idx → EReal)
    (g b mu v : (⟨2, ![1, 64]⟩ : Shape).Idx → EReal) : (⟨2, ![n, 64]⟩ : Shape).Idx → EReal :=
  fun i => act g b mu v ⟨(i 1).val, (i 1).isLt⟩ (preA agg x wl wr bl ⟨(i 0).val, (i 0).isLt⟩ ⟨(i 1).val, (i 1).isLt⟩)

theorem upd_ix2 {n : Nat} (agg x : (⟨2, ![n, 64]⟩ : Shape).Idx → EReal) (wl : (⟨2, ![64, 64]⟩ : Shape).Idx → EReal)
    (bl : (⟨2, ![1, 64]⟩ : Shape).Idx → EReal) (wr : (⟨2, ![64, 64]⟩ : Shape).Idx → EReal)
    (g b mu v : (⟨2, ![1, 64]⟩ : Shape).Idx → EReal) (r : Fin n) (q : Fin 64) :
    upd agg x wl bl wr g b mu v (ix2 r q) = act g b mu v q (preA agg x wl wr bl r q) := rfl

/-- The hidden layer of the head at row `r`, unit `j`. -/
def hid {n : Nat} (u t : (⟨2, ![n, 64]⟩ : Shape).Idx → EReal) (wa wb : (⟨2, ![64, 64]⟩ : Shape).Idx → EReal)
    (b1 : (⟨2, ![1, 64]⟩ : Shape).Idx → EReal) (r : Fin n) (j : Fin 64) : EReal :=
  max ((dot64 u wa r j + dot64 t wb r j) + b1 (ix2 0 j)) zeroW

/-- The head, as one function of whole arrays: n rows of 4 scores. -/
def head {n : Nat} (u t : (⟨2, ![n, 64]⟩ : Shape).Idx → EReal) (wa wb : (⟨2, ![64, 64]⟩ : Shape).Idx → EReal)
    (b1 : (⟨2, ![1, 64]⟩ : Shape).Idx → EReal) (w2 : (⟨2, ![64, 4]⟩ : Shape).Idx → EReal)
    (b2 : (⟨2, ![1, 4]⟩ : Shape).Idx → EReal) : (⟨2, ![n, 4]⟩ : Shape).Idx → EReal :=
  fun i => (∑ j : Fin 64, hid u t wa wb b1 ⟨(i 0).val, (i 0).isLt⟩ j * w2 (ix2 j ⟨(i 1).val, (i 1).isLt⟩))
    + b2 (ix2 0 ⟨(i 1).val, (i 1).isLt⟩)

theorem head_ix2 {n : Nat} (u t : (⟨2, ![n, 64]⟩ : Shape).Idx → EReal) (wa wb : (⟨2, ![64, 64]⟩ : Shape).Idx → EReal)
    (b1 : (⟨2, ![1, 64]⟩ : Shape).Idx → EReal) (w2 : (⟨2, ![64, 4]⟩ : Shape).Idx → EReal)
    (b2 : (⟨2, ![1, 4]⟩ : Shape).Idx → EReal) (r : Fin n) (c : Fin 4) :
    head u t wa wb b1 w2 b2 (ix2 r c) = (∑ j : Fin 64, hid u t wa wb b1 r j * w2 (ix2 j c)) + b2 (ix2 0 c) := rfl

/-- A length-`c` vector read as the single row of a 1×c array. -/
def row {c : Nat} (f : (⟨1, ![c]⟩ : Shape).Idx → EReal) : (⟨2, ![1, c]⟩ : Shape).Idx → EReal :=
  fun j => f (ix1 ⟨(j 1).val, (j 1).isLt⟩)

theorem row_ix2 {c : Nat} (f : (⟨1, ![c]⟩ : Shape).Idx → EReal) (z : Fin 1) (q : Fin c) : row f (ix2 z q) = f (ix1 q) := rfl

/-- The upper 64 rows of a 128×64 matrix. -/
def top (w : (⟨2, ![128, 64]⟩ : Shape).Idx → EReal) : (⟨2, ![64, 64]⟩ : Shape).Idx → EReal :=
  fun j => w (ix2 ⟨(j 0).val, Nat.lt_of_lt_of_le (j 0).isLt (by decide)⟩ ⟨(j 1).val, (j 1).isLt⟩)

/-- The lower 64 rows of a 128×64 matrix. -/
def bot (w : (⟨2, ![128, 64]⟩ : Shape).Idx → EReal) : (⟨2, ![64, 64]⟩ : Shape).Idx → EReal :=
  fun j => w (ix2 ⟨64 + (j 0).val, Nat.add_lt_add_left (j 0).isLt 64⟩ ⟨(j 1).val, (j 1).isLt⟩)

theorem top_ix2 (w : (⟨2, ![128, 64]⟩ : Shape).Idx → EReal) (k : Fin 64) (q : Fin 64) :
    top w (ix2 k q) = w (ix2 ⟨k.val, by omega⟩ q) := rfl

theorem bot_ix2 (w : (⟨2, ![128, 64]⟩ : Shape).Idx → EReal) (k : Fin 64) (q : Fin 64) :
    bot w (ix2 k q) = w (ix2 ⟨64 + k.val, by omega⟩ q) := rfl

/-- A sum of 128 terms is the sum of its first 64 and its last 64. -/
theorem sum_split (f : Fin 128 → EReal) :
    ∑ k : Fin 128, f k = (∑ k : Fin 64, f ⟨k.val, by omega⟩) + ∑ k : Fin 64, f ⟨64 + k.val, by omega⟩ := by
  have h := Fin.sum_univ_add (M := EReal) (a := 64) (b := 64) f
  exact h

end Cert.Sage

end
-- ==== Proof.RefSide.lean ====
/-
  The reference program, read as the network's arithmetic.

  Each of the four update chains of the reference (one side of one layer) is the function `upd` of the specification
  applied to the chain's own stages: the neighbourhood means, the side's own features, the two 64×64 weight slices and
  the five 64-vectors (bias, scale, shift, mean, variance), each vector read as a single row. The reference forms the
  pre-activation as (agg·Wl + bl) + x·Wr; the specification's `upd` adds the bias last, and `pre_comm` says the two
  orders agree. The head of the reference multiplies the 128-long joined row by the whole 128×64 matrix; the sum over
  128 terms splits into the sums over the upper and the lower 64 rows, which is the specification's `head`.

  Every step is entry by entry: an entry (r, q) of a stage is read from the entries of its operands, a broadcast row
  vector at column q is the vector's entry q, a matrix product's entry is the sum over the 64 (or 128) contraction
  positions. The neighbourhood means and the gathered rows are never opened.
-/
import proofs.«131276_j14113262535218_1_alg».proof.Proof.RefRead
import proofs.«131276_j14113262535218_1_alg».proof.Proof.Spec

noncomputable section

namespace Cert.Sage.Ref

open Cert.ReferenceIdeal Cert.ReferenceIdeal.Gen Cert.ReferenceIdeal.Read Idealize.ShloMosaic Idealize.ShloMosaic.ValueIdx

/-- Layer 0, the side whose own features are the first feature array: the chain's output is `upd` of its stages. -/
theorem upd_u0 (x0 : (⟨S2x4000000, .i32⟩ : BufTy).Contents (Elt Ideal)) (x2 x3 : (⟨S200000x64, .f32⟩ : BufTy).Contents (Elt Ideal)) (x4 : (⟨S2x64x64, .f32⟩ : BufTy).Contents (Elt Ideal)) (x5 : (⟨S2x64, .f32⟩ : BufTy).Contents (Elt Ideal)) (x6 : (⟨S2x64x64, .f32⟩ : BufTy).Contents (Elt Ideal)) (x10 x11 x12 x13 : (⟨S2x64, .f32⟩ : BufTy).Contents (Elt Ideal)) :
    (val_main_v58 (F := Ideal) x0 x2 x3 x4 x5 x6 x10 x11 x12 x13) =
      upd (val_main_v22 (F := Ideal) x0 x3) x2 (val_main_v24 (F := Ideal) x4) (row (val_main_v27 (F := Ideal) x5)) (val_main_v32 (F := Ideal) x6)
        (row (val_main_v36 (F := Ideal) x10)) (row (val_main_v38 (F := Ideal) x11)) (row (val_main_v40 (F := Ideal) x12)) (row (val_main_v42 (F := Ideal) x13)) := by
  funext i
  obtain ⟨r, q, rfl⟩ : ∃ (r : Fin 200000) (q : Fin 64), i = ix2 r q := ⟨i 0, i 1, eq_ix2 i⟩
  have hbl : (val_main_v29 (F := Ideal) x5) (ix2 r q) = row (val_main_v27 (F := Ideal) x5) (ix2 0 q) := by
    rw [row_ix2, val_main_v29_apply, val_main_v28_apply]
    exact congrArg (val_main_v27 (F := Ideal) x5) (funext fun a => Fin.ext (by match a with | ⟨0, _⟩ => rfl))
  have hmu : (val_main_v44 (F := Ideal) x12) (ix2 r q) = row (val_main_v40 (F := Ideal) x12) (ix2 0 q) := by
    rw [row_ix2, val_main_v44_apply, val_main_v43_apply]
    exact congrArg (val_main_v40 (F := Ideal) x12) (funext fun a => Fin.ext (by match a with | ⟨0, _⟩ => rfl))
  have hg : (val_main_v53 (F := Ideal) x10) (ix2 r q) = row (val_main_v36 (F := Ideal) x10) (ix2 0 q) := by
    rw [row_ix2, val_main_v53_apply, val_main_v52_apply]
    exact congrArg (val_main_v36 (F := Ideal) x10) (funext fun a => Fin.ext (by match a with | ⟨0, _⟩ => rfl))
  have hb : (val_main_v56 (F := Ideal) x11) (ix2 r q) = row (val_main_v38 (F := Ideal) x11) (ix2 0 q) := by
    rw [row_ix2, val_main_v56_apply, val_main_v55_apply]
    exact congrArg (val_main_v38 (F := Ideal) x11) (funext fun a => Fin.ext (by match a with | ⟨0, _⟩ => rfl))
  have hrs : (val_main_v50 (F := Ideal) x13) (ix2 r q) = Ideal.rsqrt (row (val_main_v42 (F := Ideal) x13) (ix2 0 q) + epsW) := by
    rw [row_ix2, val_main_v50_apply, val_main_v49_apply, val_main_v48_apply, val_main_v47_apply, val_main_v46_apply, val_main_cst_4_apply,
      show idx_main_v49 (idx_main_v50 (ix2 r q)) = ix1 q from (funext fun a => Fin.ext (by match a with | ⟨0, _⟩ => rfl))]
    rfl
  have hz : (val_main_call0_v0 (F := Ideal)) (ix2 r q) = zeroW := by
    rw [val_main_call0_v0_apply, val_main_call0_cst_apply]
    rfl
  have hd1 : (val_main_v25 (F := Ideal) x0 x3 x4) (ix2 r q) = dot64 (val_main_v22 (F := Ideal) x0 x3) (val_main_v24 (F := Ideal) x4) r q := by
    unfold dot64
    rw [val_main_v25_apply]
    refine Finset.sum_congr rfl fun k _ => ?_
    rw [show lidx_main_v25 (ix2 r q) k = ix2 r k from (funext fun a => Fin.ext (by match a with | ⟨0, _⟩ => rfl | ⟨1, _⟩ => rfl)),
      show ridx_main_v25 (ix2 r q) k = ix2 k q from (funext fun a => Fin.ext (by match a with | ⟨0, _⟩ => rfl | ⟨1, _⟩ => rfl))]
  have hd2 : (val_main_v33 (F := Ideal) x2 x6) (ix2 r q) = dot64 x2 (val_main_v32 (F := Ideal) x6) r q := by
    unfold dot64
    rw [val_main_v33_apply]
    refine Finset.sum_congr rfl fun k _ => ?_
    rw [show lidx_main_v33 (ix2 r q) k = ix2 r k from (funext fun a => Fin.ext (by match a with | ⟨0, _⟩ => rfl | ⟨1, _⟩ => rfl)),
      show ridx_main_v33 (ix2 r q) k = ix2 k q from (funext fun a => Fin.ext (by match a with | ⟨0, _⟩ => rfl | ⟨1, _⟩ => rfl))]
  rw [upd_ix2, ← pre_comm, val_main_v58_apply, val_main_v57_apply, val_main_v54_apply, val_main_v51_apply, val_main_v45_apply, val_main_v34_apply, val_main_v30_apply,
    hd1, hd2, hbl, hmu, hg, hb, hrs, hz]
  rfl

/-- Layer 0, the side whose own features are the second feature array. -/
theorem upd_i0 (x0 : (⟨S2x4000000, .i32⟩ : BufTy).Contents (Elt Ideal)) (x2 x3 : (⟨S200000x64, .f32⟩ : BufTy).Contents (Elt Ideal)) (x7 : (⟨S2x64x64, .f32⟩ : BufTy).Contents (Elt Ideal)) (x8 : (⟨S2x64, .f32⟩ : BufTy).Contents (Elt Ideal)) (x9 : (⟨S2x64x64, .f32⟩ : BufTy).Contents (Elt Ideal)) (x14 x15 x16 x17 : (⟨S2x64, .f32⟩ : BufTy).Contents (Elt Ideal)) :
    (val_main_v113 (F := Ideal) x0 x2 x3 x7 x8 x9 x14 x15 x16 x17) =
      upd (val_main_v77 (F := Ideal) x0 x2) x3 (val_main_v79 (F := Ideal) x7) (row (val_main_v82 (F := Ideal) x8)) (val_main_v87 (F := Ideal) x9)
        (row (val_main_v91 (F := Ideal) x14)) (row (val_main_v93 (F := Ideal) x15)) (row (val_main_v95 (F := Ideal) x16)) (row (val_main_v97 (F := Ideal) x17)) := by
  funext i
  obtain ⟨r, q, rfl⟩ : ∃ (r : Fin 200000) (q : Fin 64), i = ix2 r q := ⟨i 0, i 1, eq_ix2 i⟩
  have hbl : (val_main_v84 (F := Ideal) x8) (ix2 r q) = row (val_main_v82 (F := Ideal) x8) (ix2 0 q) := by
    rw [row_ix2, val_main_v84_apply, val_main_v83_apply]
    exact congrArg (val_main_v82 (F := Ideal) x8) (funext fun a => Fin.ext (by match a with | ⟨0, _⟩ => rfl))
  have hmu : (val_main_v99 (F := Ideal) x16) (ix2 r q) = row (val_main_v95 (F := Ideal) x16) (ix2 0 q) := by
    rw [row_ix2, val_main_v99_apply, val_main_v98_apply]
    exact congrArg (val_main_v95 (F := Ideal) x16) (funext fun a => Fin.ext (by match a with | ⟨0, _⟩ => rfl))
  have hg : (val_main_v108 (F := Ideal) x14) (ix2 r q) = row (val_main_v91 (F := Ideal) x14) (ix2 0 q) := by
    rw [row_ix2, val_main_v108_apply, val_main_v107_apply]
    exact congrArg (val_main_v91 (F := Ideal) x14) (funext fun a => Fin.ext (by match a with | ⟨0, _⟩ => rfl))
  have hb : (val_main_v111 (F := Ideal) x15) (ix2 r q) = row (val_main_v93 (F := Ideal) x15) (ix2 0 q) := by
    rw [row_ix2, val_main_v111_apply, val_main_v110_apply]
    exact congrArg (val_main_v93 (F := Ideal) x15) (funext fun a => Fin.ext (by match a with | ⟨0, _⟩ => rfl))
  have hrs : (val_main_v105 (F := Ideal) x17) (ix2 r q) = Ideal.rsqrt (row (val_main_v97 (F := Ideal) x17) (ix2 0 q) + epsW) := by
    rw [row_ix2, val_main_v105_apply, val_main_v104_apply, val_main_v103_apply, val_main_v102_apply, val_main_v101_apply, val_main_cst_11_apply,
      show idx_main_v104 (idx_main_v105 (ix2 r q)) = ix1 q from (funext fun a => Fin.ext (by match a with | ⟨0, _⟩ => rfl))]
    rfl
  have hz : (val_main_call1_v0 (F := Ideal)) (ix2 r q) = zeroW := by
    rw [val_main_call1_v0_apply, val_main_call1_cst_apply]
    rfl
  have hd1 : (val_main_v80 (F := Ideal) x0 x2 x7) (ix2 r q) = dot64 (val_main_v77 (F := Ideal) x0 x2) (val_main_v79 (F := Ideal) x7) r q := by
    unfold dot64
    rw [val_main_v80_apply]
    refine Finset.sum_congr rfl fun k _ => ?_
    rw [show lidx_main_v80 (ix2 r q) k = ix2 r k from (funext fun a => Fin.ext (by match a with | ⟨0, _⟩ => rfl | ⟨1, _⟩ => rfl)),
      show ridx_main_v80 (ix2 r q) k = ix2 k q from (funext fun a => Fin.ext (by match a with | ⟨0, _⟩ => rfl | ⟨1, _⟩ => rfl))]
  have hd2 : (val_main_v88 (F := Ideal) x3 x9) (ix2 r q) = dot64 x3 (val_main_v87 (F := Ideal) x9) r q := by
    unfold dot64
    rw [val_main_v88_apply]
    refine Finset.sum_congr rfl fun k _ => ?_
    rw [show lidx_main_v88 (ix2 r q) k = ix2 r k from (funext fun a => Fin.ext (by match a with | ⟨0, _⟩ => rfl | ⟨1, _⟩ => rfl)),
      show ridx_main_v88 (ix2 r q) k = ix2 k q from (funext fun a => Fin.ext (by match a with | ⟨0, _⟩ => rfl | ⟨1, _⟩ => rfl))]
  rw [upd_ix2, ← pre_comm, val_main_v113_apply, val_main_v112_apply, val_main_v109_apply, val_main_v106_apply, val_main_v100_apply, val_main_v89_apply, val_main_v85_apply,
    hd1, hd2, hbl, hmu, hg, hb, hrs, hz]
  rfl

/-- Layer 1, first side: its own features are layer 0's output of the same side. -/
theorem upd_u1 (x0 : (⟨S2x4000000, .i32⟩ : BufTy).Contents (Elt Ideal)) (x2 x3 : (⟨S200000x64, .f32⟩ : BufTy).Contents (Elt Ideal)) (x4 : (⟨S2x64x64, .f32⟩ : BufTy).Contents (Elt Ideal)) (x5 : (⟨S2x64, .f32⟩ : BufTy).Contents (Elt Ideal)) (x6 x7 : (⟨S2x64x64, .f32⟩ : BufTy).Contents (Elt Ideal)) (x8 : (⟨S2x64, .f32⟩ : BufTy).Contents (Elt Ideal)) (x9 : (⟨S2x64x64, .f32⟩ : BufTy).Contents (Elt Ideal)) (x10 x11 x12 x13 x14 x15 x16 x17 : (⟨S2x64, .f32⟩ : BufTy).Contents (Elt Ideal)) :
    (val_main_v168 (F := Ideal) x0 x2 x3 x4 x5 x6 x7 x8 x9 x10 x11 x12 x13 x14 x15 x16 x17) =
      upd (val_main_v132 (F := Ideal) x0 x2 x3 x7 x8 x9 x14 x15 x16 x17) (val_main_v58 (F := Ideal) x0 x2 x3 x4 x5 x6 x10 x11 x12 x13) (val_main_v134 (F := Ideal) x4) (row (val_main_v137 (F := Ideal) x5)) (val_main_v142 (F := Ideal) x6)
        (row (val_main_v146 (F := Ideal) x10)) (row (val_main_v148 (F := Ideal) x11)) (row (val_main_v150 (F := Ideal) x12)) (row (val_main_v152 (F := Ideal) x13)) := by
  funext i
  obtain ⟨r, q, rfl⟩ : ∃ (r : Fin 200000) (q : Fin 64), i = ix2 r q := ⟨i 0, i 1, eq_ix2 i⟩
  have hbl : (val_main_v139 (F := Ideal) x5) (ix2 r q) = row (val_main_v137 (F := Ideal) x5) (ix2 0 q) := by
    rw [row_ix2, val_main_v139_apply, val_main_v138_apply]
    exact congrArg (val_main_v137 (F := Ideal) x5) (funext fun a => Fin.ext (by match a with | ⟨0, _⟩ => rfl))
  have hmu : (val_main_v154 (F := Ideal) x12) (ix2 r q) = row (val_main_v150 (F := Ideal) x12) (ix2 0 q) := by
    rw [row_ix2, val_main_v154_apply, val_main_v153_apply]
    exact congrArg (val_main_v150 (F := Ideal) x12) (funext fun a => Fin.ext (by match a with | ⟨0, _⟩ => rfl))
  have hg : (val_main_v163 (F := Ideal) x10) (ix2 r q) = row (val_main_v146 (F := Ideal) x10) (ix2 0 q) := by
    rw [row_ix2, val_main_v163_apply, val_main_v162_apply]
    exact congrArg (val_main_v146 (F := Ideal) x10) (funext fun a => Fin.ext (by match a with | ⟨0, _⟩ => rfl))
  have hb : (val_main_v166 (F := Ideal) x11) (ix2 r q) = row (val_main_v148 (F := Ideal) x11) (ix2 0 q) := by
    rw [row_ix2, val_main_v166_apply, val_main_v165_apply]
    exact congrArg (val_main_v148 (F := Ideal) x11) (funext fun a => Fin.ext (by match a with | ⟨0, _⟩ => rfl))
  have hrs : (val_main_v160 (F := Ideal) x13) (ix2 r q) = Ideal.rsqrt (row (val_main_v152 (F := Ideal) x13) (ix2 0 q) + epsW) := by
    rw [row_ix2, val_main_v160_apply, val_main_v159_apply, val_main_v158_apply, val_main_v157_apply, val_main_v156_apply, val_main_cst_18_apply,
      show idx_main_v159 (idx_main_v160 (ix2 r q)) = ix1 q from (funext fun a => Fin.ext (by match a with | ⟨0, _⟩ => rfl))]
    rfl
  have hz : (val_main_call2_v0 (F := Ideal)) (ix2 r q) = zeroW := by
    rw [val_main_call2_v0_apply, val_main_call2_cst_apply]
    rfl
  have hd1 : (val_main_v135 (F := Ideal) x0 x2 x3 x4 x7 x8 x9 x14 x15 x16 x17) (ix2 r q) = dot64 (val_main_v132 (F := Ideal) x0 x2 x3 x7 x8 x9 x14 x15 x16 x17) (val_main_v134 (F := Ideal) x4) r q := by
    unfold dot64
    rw [val_main_v135_apply]
    refine Finset.sum_congr rfl fun k _ => ?_
    rw [show lidx_main_v135 (ix2 r q) k = ix2 r k from (funext fun a => Fin.ext (by match a with | ⟨0, _⟩ => rfl | ⟨1, _⟩ => rfl)),
      show ridx_main_v135 (ix2 r q) k = ix2 k q from (funext fun a => Fin.ext (by match a with | ⟨0, _⟩ => rfl | ⟨1, _⟩ => rfl))]
  have hd2 : (val_main_v143 (F := Ideal) x0 x2 x3 x4 x5 x6 x10 x11 x12 x13) (ix2 r q) = dot64 (val_main_v58 (F := Ideal) x0 x2 x3 x4 x5 x6 x10 x11 x12 x13) (val_main_v142 (F := Ideal) x6) r q := by
    unfold dot64
    rw [val_main_v143_apply]
    refine Finset.sum_congr rfl fun k _ => ?_
    rw [show lidx_main_v143 (ix2 r q) k = ix2 r k from (funext fun a => Fin.ext (by match a with | ⟨0, _⟩ => rfl | ⟨1, _⟩ => rfl)),
      show ridx_main_v143 (ix2 r q) k = ix2 k q from (funext fun a => Fin.ext (by match a with | ⟨0, _⟩ => rfl | ⟨1, _⟩ => rfl))]
  rw [upd_ix2, ← pre_comm, val_main_v168_apply, val_main_v167_apply, val_main_v164_apply, val_main_v161_apply, val_main_v155_apply, val_main_v144_apply, val_main_v140_apply,
    hd1, hd2, hbl, hmu, hg, hb, hrs, hz]
  rfl

/-- Layer 1, second side: its own features are layer 0's output of the same side. -/
theorem upd_i1 (x0 : (⟨S2x4000000, .i32⟩ : BufTy).Contents (Elt Ideal)) (x2 x3 : (⟨S200000x64, .f32⟩ : BufTy).Contents (Elt Ideal)) (x4 : (⟨S2x64x64, .f32⟩ : BufTy).Contents (Elt Ideal)) (x5 : (⟨S2x64, .f32⟩ : BufTy).Contents (Elt Ideal)) (x6 x7 : (⟨S2x64x64, .f32⟩ : BufTy).Contents (Elt Ideal)) (x8 : (⟨S2x64, .f32⟩ : BufTy).Contents (Elt Ideal)) (x9 : (⟨S2x64x64, .f32⟩ : BufTy).Contents (Elt Ideal)) (x10 x11 x12 x13 x14 x15 x16 x17 : (⟨S2x64, .f32⟩ : BufTy).Contents (Elt Ideal)) :
    (val_main_v223 (F := Ideal) x0 x2 x3 x4 x5 x6 x7 x8 x9 x10 x11 x12 x13 x14 x15 x16 x17) =
      upd (val_main_v187 (F := Ideal) x0 x2 x3 x4 x5 x6 x10 x11 x12 x13) (val_main_v113 (F := Ideal) x0 x2 x3 x7 x8 x9 x14 x15 x16 x17) (val_main_v189 (F := Ideal) x7) (row (val_main_v192 (F := Ideal) x8)) (val_main_v197 (F := Ideal) x9)
        (row (val_main_v201 (F := Ideal) x14)) (row (val_main_v203 (F := Ideal) x15)) (row (val_main_v205 (F := Ideal) x16)) (row (val_main_v207 (F := Ideal) x17)) := by
  funext i
  obtain ⟨r, q, rfl⟩ : ∃ (r : Fin 200000) (q : Fin 64), i = ix2 r q := ⟨i 0, i 1, eq_ix2 i⟩
  have hbl : (val_main_v194 (F := Ideal) x8) (ix2 r q) = row (val_main_v192 (F := Ideal) x8) (ix2 0 q) := by
    rw [row_ix2, val_main_v194_apply, val_main_v193_apply]
    exact congrArg (val_main_v192 (F := Ideal) x8) (funext fun a => Fin.ext (by match a with | ⟨0, _⟩ => rfl))
  have hmu : (val_main_v209 (F := Ideal) x16) (ix2 r q) = row (val_main_v205 (F := Ideal) x16) (ix2 0 q) := by
    rw [row_ix2, val_main_v209_apply, val_main_v208_apply]
    exact congrArg (val_main_v205 (F := Ideal) x16) (funext fun a => Fin.ext (by match a with | ⟨0, _⟩ => rfl))
  have hg : (val_main_v218 (F := Ideal) x14) (ix2 r q) = row (val_main_v201 (F := Ideal) x14) (ix2 0 q) := by
    rw [row_ix2, val_main_v218_apply, val_main_v217_apply]
    exact congrArg (val_main_v201 (F := Ideal) x14) (funext fun a => Fin.ext (by match a with | ⟨0, _⟩ => rfl))
  have hb : (val_main_v221 (F := Ideal) x15) (ix2 r q) = row (val_main_v203 (F := Ideal) x15) (ix2 0 q) := by
    rw [row_ix2, val_main_v221_apply, val_main_v220_apply]
    exact congrArg (val_main_v203 (F := Ideal) x15) (funext fun a => Fin.ext (by match a with | ⟨0, _⟩ => rfl))
  have hrs : (val_main_v215 (F := Ideal) x17) (ix2 r q) = Ideal.rsqrt (row (val_main_v207 (F := Ideal) x17) (ix2 0 q) + epsW) := by
    rw [row_ix2, val_main_v215_apply, val_main_v214_apply, val_main_v213_apply, val_main_v212_apply, val_main_v211_apply, val_main_cst_25_apply,
      show idx_main_v214 (idx_main_v215 (ix2 r q)) = ix1 q from (funext fun a => Fin.ext (by match a with | ⟨0, _⟩ => rfl))]
    rfl
  have hz : (val_main_call3_v0 (F := Ideal)) (ix2 r q) = zeroW := by
    rw [val_main_call3_v0_apply, val_main_call3_cst_apply]
    rfl
  have hd1 : (val_main_v190 (F := Ideal) x0 x2 x3 x4 x5 x6 x7 x10 x11 x12 x13) (ix2 r q) = dot64 (val_main_v187 (F := Ideal) x0 x2 x3 x4 x5 x6 x10 x11 x12 x13) (val_main_v189 (F := Ideal) x7) r q := by
    unfold dot64
    rw [val_main_v190_apply]
    refine Finset.sum_congr rfl fun k _ => ?_
    rw [show lidx_main_v190 (ix2 r q) k = ix2 r k from (funext fun a => Fin.ext (by match a with | ⟨0, _⟩ => rfl | ⟨1, _⟩ => rfl)),
      show ridx_main_v190 (ix2 r q) k = ix2 k q from (funext fun a => Fin.ext (by match a with | ⟨0, _⟩ => rfl | ⟨1, _⟩ => rfl))]
  have hd2 : (val_main_v198 (F := Ideal) x0 x2 x3 x7 x8 x9 x14 x15 x16 x17) (ix2 r q) = dot64 (val_main_v113 (F := Ideal) x0 x2 x3 x7 x8 x9 x14 x15 x16 x17) (val_main_v197 (F := Ideal) x9) r q := by
    unfold dot64
    rw [val_main_v198_apply]
    refine Finset.sum_congr rfl fun k _ => ?_
    rw [show lidx_main_v198 (ix2 r q) k = ix2 r k from (funext fun a => Fin.ext (by match a with | ⟨0, _⟩ => rfl | ⟨1, _⟩ => rfl)),
      show ridx_main_v198 (ix2 r q) k = ix2 k q from (funext fun a => Fin.ext (by match a with | ⟨0, _⟩ => rfl | ⟨1, _⟩ => rfl))]
  rw [upd_ix2, ← pre_comm, val_main_v223_apply, val_main_v222_apply, val_main_v219_apply, val_main_v216_apply, val_main_v210_apply, val_main_v199_apply, val_main_v195_apply,
    hd1, hd2, hbl, hmu, hg, hb, hrs, hz]
  rfl

/-- A row of the joined 100000×128 array: a column below 64 is the first block's entry in that column. -/
theorem cat_left (y1 y2 : (⟨S100000x64, .f32⟩ : BufTy).Contents (Elt Ideal)) (r : Fin 100000) (k : Fin 64) :
    concatenate S100000x128 1 [⟨S100000x64, y1⟩, ⟨S100000x64, y2⟩] concatenates_S100000x64_S100000x64_S100000x128_d1
      (ix2 r ⟨k.val, by omega⟩) = y1 (ix2 r k) :=
  concatenate_pair_apply_left 1 y1 y2 concatenates_S100000x64_S100000x64_S100000x128_d1 (ix2 r ⟨k.val, by omega⟩) rfl (ix2 r k)
    (fun b => by match b with | ⟨0, _⟩ => rfl | ⟨1, _⟩ => rfl)

/-- A row of the joined 100000×128 array: column 64 + k is the second block's entry in column k. -/
theorem cat_right (y1 y2 : (⟨S100000x64, .f32⟩ : BufTy).Contents (Elt Ideal)) (r : Fin 100000) (k : Fin 64) :
    concatenate S100000x128 1 [⟨S100000x64, y1⟩, ⟨S100000x64, y2⟩] concatenates_S100000x64_S100000x64_S100000x128_d1
      (ix2 r ⟨64 + k.val, by omega⟩) = y2 (ix2 r k) :=
  concatenate_pair_apply_right 1 y1 y2 concatenates_S100000x64_S100000x64_S100000x128_d1 (ix2 r ⟨64 + k.val, by omega⟩) rfl rfl (ix2 r k)
    (fun b hb => by match b, hb with | ⟨0, _⟩, _ => rfl | ⟨1, _⟩, hb => exact (hb rfl).elim)
    (by show k.val + 64 = 64 + k.val; omega)

/-- The joined row against the whole 128×64 matrix is the first block's row against the upper 64 rows plus the second
    block's row against the lower 64 rows. -/
theorem cat_dot (y1 y2 : (⟨S100000x64, .f32⟩ : BufTy).Contents (Elt Ideal)) (w : (⟨S128x64, .f32⟩ : BufTy).Contents (Elt Ideal)) (r : Fin 100000) (j : Fin 64) :
    (∑ k : Fin 128, concatenate S100000x128 1 [⟨S100000x64, y1⟩, ⟨S100000x64, y2⟩] concatenates_S100000x64_S100000x64_S100000x128_d1
        (ix2 r k) * w (ix2 k j)) = dot64 y1 (top w) r j + dot64 y2 (bot w) r j := by
  refine (sum_split _).trans ?_
  unfold dot64
  refine congrArg₂ (· + ·) (Finset.sum_congr rfl fun k _ => ?_) (Finset.sum_congr rfl fun k _ => ?_)
  · exact congrArg₂ (· * ·) (cat_left y1 y2 r k) (top_ix2 w k j).symm
  · exact congrArg₂ (· * ·) (cat_right y1 y2 r k) (bot_ix2 w k j).symm

/-- The head of the reference is `head` of the two gathered blocks, the two halves of the 128×64 matrix, and the rest
    of the head's parameters. -/
theorem head_ref (x0 : (⟨S2x4000000, .i32⟩ : BufTy).Contents (Elt Ideal)) (x1 : (⟨S2x100000, .i32⟩ : BufTy).Contents (Elt Ideal)) (x2 x3 : (⟨S200000x64, .f32⟩ : BufTy).Contents (Elt Ideal)) (x4 : (⟨S2x64x64, .f32⟩ : BufTy).Contents (Elt Ideal)) (x5 : (⟨S2x64, .f32⟩ : BufTy).Contents (Elt Ideal)) (x6 x7 : (⟨S2x64x64, .f32⟩ : BufTy).Contents (Elt Ideal)) (x8 : (⟨S2x64, .f32⟩ : BufTy).Contents (Elt Ideal)) (x9 : (⟨S2x64x64, .f32⟩ : BufTy).Contents (Elt Ideal)) (x10 x11 x12 x13 x14 x15 x16 x17 : (⟨S2x64, .f32⟩ : BufTy).Contents (Elt Ideal)) (x18 : (⟨S128x64, .f32⟩ : BufTy).Contents (Elt Ideal)) (x19 : (⟨S64, .f32⟩ : BufTy).Contents (Elt Ideal)) (x20 : (⟨S64x4, .f32⟩ : BufTy).Contents (Elt Ideal)) (x21 : (⟨S4, .f32⟩ : BufTy).Contents (Elt Ideal)) :
    (val_main_v251 (F := Ideal) x0 x1 x2 x3 x4 x5 x6 x7 x8 x9 x10 x11 x12 x13 x14 x15 x16 x17 x18 x19 x20 x21) =
      head (val_main_v232 (F := Ideal) x0 x1 x2 x3 x4 x5 x6 x7 x8 x9 x10 x11 x12 x13 x14 x15 x16 x17)
        (val_main_v241 (F := Ideal) x0 x1 x2 x3 x4 x5 x6 x7 x8 x9 x10 x11 x12 x13 x14 x15 x16 x17)
        (top x18) (bot x18) (row x19) x20 (row x21) := by
  funext i
  obtain ⟨r, c, rfl⟩ : ∃ (r : Fin 100000) (c : Fin 4), i = ix2 r c := ⟨i 0, i 1, eq_ix2 i⟩
  have hb2 : (val_main_v250 (F := Ideal) x21) (ix2 r c) = row x21 (ix2 0 c) := by
    rw [row_ix2, val_main_v250_apply, val_main_v249_apply]
    exact congrArg x21 (funext fun a => Fin.ext (by match a with | ⟨0, _⟩ => rfl))
  have hhid : ∀ j : Fin 64, (val_main_v247 (F := Ideal) x0 x1 x2 x3 x4 x5 x6 x7 x8 x9 x10 x11 x12 x13 x14 x15 x16 x17 x18 x19) (ix2 r j) =
      hid (val_main_v232 (F := Ideal) x0 x1 x2 x3 x4 x5 x6 x7 x8 x9 x10 x11 x12 x13 x14 x15 x16 x17)
        (val_main_v241 (F := Ideal) x0 x1 x2 x3 x4 x5 x6 x7 x8 x9 x10 x11 x12 x13 x14 x15 x16 x17)
        (top x18) (bot x18) (row x19) r j := by
    intro j
    have hb1 : (val_main_v245 (F := Ideal) x19) (ix2 r j) = row x19 (ix2 0 j) := by
      rw [row_ix2, val_main_v245_apply, val_main_v244_apply]
      exact congrArg x19 (funext fun a => Fin.ext (by match a with | ⟨0, _⟩ => rfl))
    have hz : (val_main_call4_v0 (F := Ideal)) (ix2 r j) = zeroW := by
      rw [val_main_call4_v0_apply, val_main_call4_cst_apply]
      rfl
    have hd : (val_main_v243 (F := Ideal) x0 x1 x2 x3 x4 x5 x6 x7 x8 x9 x10 x11 x12 x13 x14 x15 x16 x17 x18) (ix2 r j) =
        dot64 (val_main_v232 (F := Ideal) x0 x1 x2 x3 x4 x5 x6 x7 x8 x9 x10 x11 x12 x13 x14 x15 x16 x17) (top x18) r j
          + dot64 (val_main_v241 (F := Ideal) x0 x1 x2 x3 x4 x5 x6 x7 x8 x9 x10 x11 x12 x13 x14 x15 x16 x17) (bot x18) r j := by
      rw [val_main_v243_apply]
      refine Eq.trans (Finset.sum_congr rfl fun k _ => ?_) (cat_dot _ _ x18 r j)
      rw [show lidx_main_v243 (ix2 r j) k = ix2 r k from (funext fun a => Fin.ext (by match a with | ⟨0, _⟩ => rfl | ⟨1, _⟩ => rfl)),
        show ridx_main_v243 (ix2 r j) k = ix2 k j from (funext fun a => Fin.ext (by match a with | ⟨0, _⟩ => rfl | ⟨1, _⟩ => rfl))]
      rfl
    rw [val_main_v247_apply, val_main_v246_apply, hd, hb1, hz]
    rfl
  rw [head_ix2, val_main_v251_apply, val_main_v248_apply, hb2]
  refine congrArg₂ (· + ·) (Finset.sum_congr rfl fun j _ => ?_) rfl
  rw [show lidx_main_v248 (ix2 r c) j = ix2 r j from (funext fun a => Fin.ext (by match a with | ⟨0, _⟩ => rfl | ⟨1, _⟩ => rfl)),
    show ridx_main_v248 (ix2 r c) j = ix2 j c from (funext fun a => Fin.ext (by match a with | ⟨0, _⟩ => rfl | ⟨1, _⟩ => rfl)), hhid j]

end Cert.Sage.Ref

end
-- ==== Proof.HeadRegion.lean ====
/-
  The head region: the last of the program's five TensorCore regions computes, from two arrays of 100000 rows of 64
  (the features of the two endpoints of each queried pair), two 64×64 matrices, a 1×64 bias, a 64×4 matrix and a 1×4 bias,
  the 100000 rows of 4 scores
      out[r, c] = Σ_j max( (u·A)[r, j] + (t·B)[r, j] + b1[j], 0 ) · W2[j, c] + b2[c].
  The region walks the rows in ten blocks of 10000. Here: the body's arithmetic on one block is the head of that block,
  entry by entry (the matrix products as sums over the 64 contraction positions; the changes of number format are the
  identity on the extended reals); a row of the head reads only the same row of the two row arrays, so the block a point
  writes back is a block of rows of the head of the whole arrays; the ten blocks cover the output array; hence the array
  after the region is the head of the arrays the region finds, whatever those are.
-/
import proofs.«131276_j14113262535218_1_alg».proof.Proof.Gen.KernelIdeal.Frame
import proofs.«131276_j14113262535218_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HeadRegion

open Cert.KernelIdeal Cert.KernelIdeal.Gen Idealize.ShloMosaic Idealize.ShloMosaic.TcCoe Idealize.SL.Sem
open Idealize.ShloMosaic.ValueIdx
open Idealize.ShloMosaic.Pipeline (Dat)

/-! ## One block: the body's arithmetic, entry by entry

The operand entries a product reads: for the output entry `(r, c)` and the contraction position `k`, the left operand
at `(r, k)` and the right operand at `(k, c)`. -/

theorem hidden_lhs_row (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem hidden_lhs_col (i : S10000x64.Idx) (k : dot_S10000x64_S64x64_S10000x64_1_0_0_1_n_n.contr.Idx) :
    (dot_S10000x64_S64x64_S10000x64_1_0_0_1_n_n.lhsIdx i k 1).val = (k ⟨0, by decide⟩).val :=
  dot_S10000x64_S64x64_S10000x64_1_0_0_1_n_n.lhsIdx_val_of_single rfl i k
theorem hidden_rhs_row (i : S10000x64.Idx) (k : dot_S10000x64_S64x64_S10000x64_1_0_0_1_n_n.contr.Idx) :
    (dot_S10000x64_S64x64_S10000x64_1_0_0_1_n_n.rhsIdx i k 0).val = (k ⟨0, by decide⟩).val :=
  dot_S10000x64_S64x64_S10000x64_1_0_0_1_n_n.rhsIdx_val_of_single rfl i k
theorem hidden_rhs_col (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem scores_lhs_row (i : S10000x4.Idx) (k : dot_S10000x64_S64x4_S10000x4_1_0_0_1_n_n.contr.Idx) :
    (dot_S10000x64_S64x4_S10000x4_1_0_0_1_n_n.lhsIdx i k 0).val = (i 0).val := by
  unfold DotDims.lhsIdx
  rw [dif_neg (show ¬(0 : Fin S10000x64.rank) ∈ dot_S10000x64_S64x4_S10000x4_1_0_0_1_n_n.lhsBatch by decide), dif_pos (show (0 : Fin S10000x64.rank) ∈ dot_S10000x64_S64x4_S10000x4_1_0_0_1_n_n.lhsNonContracting by decide)]
  rfl
theorem scores_lhs_col (i : S10000x4.Idx) (k : dot_S10000x64_S64x4_S10000x4_1_0_0_1_n_n.contr.Idx) :
    (dot_S10000x64_S64x4_S10000x4_1_0_0_1_n_n.lhsIdx i k 1).val = (k ⟨0, by decide⟩).val :=
  dot_S10000x64_S64x4_S10000x4_1_0_0_1_n_n.lhsIdx_val_of_single rfl i k
theorem scores_rhs_row (i : S10000x4.Idx) (k : dot_S10000x64_S64x4_S10000x4_1_0_0_1_n_n.contr.Idx) :
    (dot_S10000x64_S64x4_S10000x4_1_0_0_1_n_n.rhsIdx i k 0).val = (k ⟨0, by decide⟩).val :=
  dot_S10000x64_S64x4_S10000x4_1_0_0_1_n_n.rhsIdx_val_of_single rfl i k
theorem scores_rhs_col (i : S10000x4.Idx) (k : dot_S10000x64_S64x4_S10000x4_1_0_0_1_n_n.contr.Idx) :
    (dot_S10000x64_S64x4_S10000x4_1_0_0_1_n_n.rhsIdx i k 1).val = (i 1).val := by
  unfold DotDims.rhsIdx
  rw [dif_neg (show ¬(1 : Fin S64x4.rank) ∈ dot_S10000x64_S64x4_S10000x4_1_0_0_1_n_n.rhsBatch by decide), dif_pos (show (1 : Fin S64x4.rank) ∈ dot_S10000x64_S64x4_S10000x4_1_0_0_1_n_n.rhsNonContracting by decide)]
  rfl

/-- A product of a block of rows of 64 with a 64×64 matrix, accumulated from zero, has at row `p`, column `q`
    the sum over `k` of the row's entry `k` times the matrix's entry `(k, q)`. -/
theorem matmul_hidden (x : FVec Ideal S10000x64 .bf16) (w : FVec Ideal S64x64 .bf16) (p : Fin 10000) (q : Fin 64) :
    matmul dot_S10000x64_S64x64_S10000x64_1_0_0_1_n_n none x w (constant (F := Ideal) S10000x64 .f32 0x00000000#32) (ix2 p q)
      = ∑ k : Fin 64, x (ix2 p k) * w (ix2 k q) := by
  refine (Ideal.matmul_constant_zero_apply dot_S10000x64_S64x64_S10000x64_1_0_0_1_n_n none x w (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact hidden_lhs_row _ _
    | ⟨1, _⟩ => exact (hidden_lhs_col _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (hidden_rhs_row _ _).trans hk
    | ⟨1, _⟩ => exact hidden_rhs_col _ _)
  rw [el, er]

/-- The same for the product of a block of hidden rows with the 64×4 output matrix. -/
theorem matmul_scores (x : FVec Ideal S10000x64 .bf16) (w : FVec Ideal S64x4 .bf16) (p : Fin 10000) (q : Fin 4) :
    matmul dot_S10000x64_S64x4_S10000x4_1_0_0_1_n_n none x w (constant (F := Ideal) S10000x4 .f32 0x00000000#32) (ix2 p q)
      = ∑ k : Fin 64, x (ix2 p k) * w (ix2 k q) := by
  refine (Ideal.matmul_constant_zero_apply dot_S10000x64_S64x4_S10000x4_1_0_0_1_n_n none x w (ix2 p q)).trans ?_
  rw [← Equiv.sum_comp (ValueIdx.contrEquiv1 dot_S10000x64_S64x4_S10000x4_1_0_0_1_n_n 64 rfl rfl).symm]
  refine Finset.sum_congr rfl fun k _ => ?_
  have hk := ValueIdx.contrEquiv1_symm_val dot_S10000x64_S64x4_S10000x4_1_0_0_1_n_n 64 rfl rfl k
  have el : dot_S10000x64_S64x4_S10000x4_1_0_0_1_n_n.lhsIdx (ix2 p q) ((ValueIdx.contrEquiv1 dot_S10000x64_S64x4_S10000x4_1_0_0_1_n_n 64 rfl rfl).symm k) = ix2 p k := funext fun a => Fin.ext (by
    match a with
    | ⟨0, _⟩ => exact scores_lhs_row _ _
    | ⟨1, _⟩ => exact (scores_lhs_col _ _).trans hk)
  have er : dot_S10000x64_S64x4_S10000x4_1_0_0_1_n_n.rhsIdx (ix2 p q) ((ValueIdx.contrEquiv1 dot_S10000x64_S64x4_S10000x4_1_0_0_1_n_n 64 rfl rfl).symm k) = ix2 k q := funext fun a => Fin.ext (by
    match a with
    | ⟨0, _⟩ => exact (scores_rhs_row _ _).trans hk
    | ⟨1, _⟩ => exact scores_rhs_col _ _)
  rw [el, er]

/-- The body's result for one block, at row `p` of the block and score `q`, is the head of the block's rows: the
    two products with the 64×64 matrices, the bias, the clip at zero, the product with the 64×4 matrix and its
    bias; the changes of number format are the identity on the extended reals, the casts to the same shape are the
    identity, and a one-row array broadcast over the rows reads its one row. -/
theorem block_head (x0 x1 : Vec Ideal S10000x64 .f32) (x2 x3 : Vec Ideal S64x64 .f32) (x4 : Vec Ideal S1x64 .f32)
    (x5 : Vec Ideal S64x4 .f32) (x6 : Vec Ideal S1x4 .f32) (p : Fin 10000) (q : Fin 4) :
    k4_pay1 (F := Ideal) x0 x1 x2 x3 x4 x5 x6 (ix2 p q) = Cert.Sage.head x0 x1 x2 x3 x4 x5 x6 (ix2 p q) := by
  unfold k4_pay1
  simp only [addf_apply, maximumf_apply, truncf_apply, broadcast_apply, matmul_scores, matmul_hidden,
    shapeCast_self, broadcastTo_1b_ab_apply]
  rw [Cert.Sage.head_ix2]
  rfl

/-! ## From the blocks to the array

The region's grid has ten points. At point `t` the two row arrays (100000 rows of 64) are staged in their block of rows
`10000·t … 10000·t + 9999`, the five small arrays (two 64×64 matrices, a 1×64 bias, the 64×4 matrix, a 1×4 bias) whole, and
the output's block of the same rows is written back. A row of the head depends only on the same row of the two row
arrays, so the block the body writes at `t` is the block of rows of the head of the whole arrays, and the ten blocks
cover the output array. -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices at the ten points: the row arrays' and the output's block index is the point itself on the rows
    and zero on the columns; the small arrays' is zero on both axes. -/
theorem block_indices : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

theorem point_lt (t : Fin cfg4.N) : t.val < 10 := lt_of_lt_of_eq t.isLt N_4

theorem row_lt (t : Fin cfg4.N) (p : Fin 10000) : t.val * 10000 + p.val < 100000 := by
  have := point_lt t; have := p.isLt; omega

/-- Row `p` of the block of the first row array staged at point `t` is row `10000·t + p` of the array. -/
theorem rows_left (c : Dev nD) (t : Fin cfg4.N) (p : Fin 10000) (k : Fin 64) :
    iblk4 V c 0 t (ix2 p k) = V c (Pipeline.arrRef spec4 0) (ix2 ⟨t.val * 10000 + p.val, row_lt t p⟩ k) := by
  show V c (Pipeline.arrRef spec4 0) (((cfg4.win 0).blk t).view.emb (ix2 p k)) = _
  refine congrArg _ (funext fun a => Fin.ext ?_)
  obtain ⟨e0, e1, -⟩ := block_indices t
  match a with
  | ⟨0, _⟩ => show win4_0.index t (0 : Fin 2) * 10000 + 1 * p.val = t.val * 10000 + p.val; omega
  | ⟨1, _⟩ => show win4_0.index t (1 : Fin 2) * 64 + 1 * k.val = k.val; omega

/-- The same for the second row array. -/
theorem rows_right (c : Dev nD) (t : Fin cfg4.N) (p : Fin 10000) (k : Fin 64) :
    iblk4 V c 1 t (ix2 p k) = V c (Pipeline.arrRef spec4 1) (ix2 ⟨t.val * 10000 + p.val, row_lt t p⟩ k) := by
  show V c (Pipeline.arrRef spec4 1) (((cfg4.win 1).blk t).view.emb (ix2 p k)) = _
  refine congrArg _ (funext fun a => Fin.ext ?_)
  obtain ⟨-, -, e0, e1, -⟩ := block_indices t
  match a with
  | ⟨0, _⟩ => show win4_1.index t (0 : Fin 2) * 10000 + 1 * p.val = t.val * 10000 + p.val; omega
  | ⟨1, _⟩ => show win4_1.index t (1 : Fin 2) * 64 + 1 * k.val = k.val; omega

/-- The first 64×64 matrix is staged whole at every point: its block is the matrix itself. -/
theorem whole_first_matrix (c : Dev nD) (t : Fin cfg4.N) :
    (iblk4 V c 2 t : S64x64.Idx → EReal) = V c (Pipeline.arrRef spec4 2) := by
  funext j
  show V c (Pipeline.arrRef spec4 2) (((cfg4.win 2).blk t).view.emb j) = V c (Pipeline.arrRef spec4 2) j
  refine congrArg _ (funext fun a => Fin.ext ?_)
  obtain ⟨-, -, -, -, e20, e21, e30, e31, e40, e41, e50, e51, e60, e61, -⟩ := block_indices t
  match a with
  | ⟨0, _⟩ => show win4_2.index t (0 : Fin 2) * 64 + 1 * (j 0).val = (j 0).val; omega
  | ⟨1, _⟩ => show win4_2.index t (1 : Fin 2) * 64 + 1 * (j 1).val = (j 1).val; omega

/-- The second 64×64 matrix is staged whole at every point: its block is the matrix itself. -/
theorem whole_second_matrix (c : Dev nD) (t : Fin cfg4.N) :
    (iblk4 V c 3 t : S64x64.Idx → EReal) = V c (Pipeline.arrRef spec4 3) := by
  funext j
  show V c (Pipeline.arrRef spec4 3) (((cfg4.win 3).blk t).view.emb j) = V c (Pipeline.arrRef spec4 3) j
  refine congrArg _ (funext fun a => Fin.ext ?_)
  obtain ⟨-, -, -, -, e20, e21, e30, e31, e40, e41, e50, e51, e60, e61, -⟩ := block_indices t
  match a with
  | ⟨0, _⟩ => show win4_3.index t (0 : Fin 2) * 64 + 1 * (j 0).val = (j 0).val; omega
  | ⟨1, _⟩ => show win4_3.index t (1 : Fin 2) * 64 + 1 * (j 1).val = (j 1).val; omega

/-- The hidden layer's 1×64 bias is staged whole at every point: its block is the bias itself. -/
theorem whole_hidden_bias (c : Dev nD) (t : Fin cfg4.N) :
    (iblk4 V c 4 t : S1x64.Idx → EReal) = V c (Pipeline.arrRef spec4 4) := by
  funext j
  show V c (Pipeline.arrRef spec4 4) (((cfg4.win 4).blk t).view.emb j) = V c (Pipeline.arrRef spec4 4) j
  refine congrArg _ (funext fun a => Fin.ext ?_)
  obtain ⟨-, -, -, -, e20, e21, e30, e31, e40, e41, e50, e51, e60, e61, -⟩ := block_indices t
  match a with
  | ⟨0, _⟩ => show win4_4.index t (0 : Fin 2) * 1 + 1 * (j 0).val = (j 0).val; omega
  | ⟨1, _⟩ => show win4_4.index t (1 : Fin 2) * 64 + 1 * (j 1).val = (j 1).val; omega

/-- The 64×4 matrix is staged whole at every point: its block is the matrix itself. -/
theorem whole_score_matrix (c : Dev nD) (t : Fin cfg4.N) :
    (iblk4 V c 5 t : S64x4.Idx → EReal) = V c (Pipeline.arrRef spec4 5) := by
  funext j
  show V c (Pipeline.arrRef spec4 5) (((cfg4.win 5).blk t).view.emb j) = V c (Pipeline.arrRef spec4 5) j
  refine congrArg _ (funext fun a => Fin.ext ?_)
  obtain ⟨-, -, -, -, e20, e21, e30, e31, e40, e41, e50, e51, e60, e61, -⟩ := block_indices t
  match a with
  | ⟨0, _⟩ => show win4_5.index t (0 : Fin 2) * 64 + 1 * (j 0).val = (j 0).val; omega
  | ⟨1, _⟩ => show win4_5.index t (1 : Fin 2) * 4 + 1 * (j 1).val = (j 1).val; omega

/-- The scores' 1×4 bias is staged whole at every point: its block is the bias itself. -/
theorem whole_score_bias (c : Dev nD) (t : Fin cfg4.N) :
    (iblk4 V c 6 t : S1x4.Idx → EReal) = V c (Pipeline.arrRef spec4 6) := by
  funext j
  show V c (Pipeline.arrRef spec4 6) (((cfg4.win 6).blk t).view.emb j) = V c (Pipeline.arrRef spec4 6) j
  refine congrArg _ (funext fun a => Fin.ext ?_)
  obtain ⟨-, -, -, -, e20, e21, e30, e31, e40, e41, e50, e51, e60, e61, -⟩ := block_indices t
  match a with
  | ⟨0, _⟩ => show win4_6.index t (0 : Fin 2) * 1 + 1 * (j 0).val = (j 0).val; omega
  | ⟨1, _⟩ => show win4_6.index t (1 : Fin 2) * 4 + 1 * (j 1).val = (j 1).val; omega

/-- A row of the head depends only on the same row of the two row arrays: if the blocks `x0`, `x1` are the rows
    `s … s + 9999` of the arrays `a0`, `a1`, the head of the blocks at row `p` is the head of the arrays at row `s + p`. -/
theorem head_of_rows (a0 a1 : S100000x64.Idx → EReal) (x0 x1 : S10000x64.Idx → EReal) (wa wb : S64x64.Idx → EReal)
    (b1 : S1x64.Idx → EReal) (w2 : S64x4.Idx → EReal) (b2 : S1x4.Idx → EReal) (s : Nat) (hs : ∀ p : Fin 10000, s + p.val < 100000)
    (h0 : ∀ (p : Fin 10000) (k : Fin 64), x0 (ix2 p k) = a0 (ix2 ⟨s + p.val, hs p⟩ k))
    (h1 : ∀ (p : Fin 10000) (k : Fin 64), x1 (ix2 p k) = a1 (ix2 ⟨s + p.val, hs p⟩ k)) (p : Fin 10000) (q : Fin 4) :
    Cert.Sage.head x0 x1 wa wb b1 w2 b2 (ix2 p q) = Cert.Sage.head a0 a1 wa wb b1 w2 b2 (ix2 ⟨s + p.val, hs p⟩ q) := by
  rw [Cert.Sage.head_ix2, Cert.Sage.head_ix2]
  unfold Cert.Sage.hid Cert.Sage.dot64
  simp only [h0, h1]

/-- The same with the five small arrays given as blocks that are the arrays themselves. -/
theorem head_of_blocks (a0 a1 : S100000x64.Idx → EReal) (wa wb : S64x64.Idx → EReal) (b1 : S1x64.Idx → EReal)
    (w2 : S64x4.Idx → EReal) (b2 : S1x4.Idx → EReal) (x0 x1 : S10000x64.Idx → EReal) (x2 x3 : S64x64.Idx → EReal)
    (x4 : S1x64.Idx → EReal) (x5 : S64x4.Idx → EReal) (x6 : S1x4.Idx → EReal) (s : Nat)
    (hs : ∀ p : Fin 10000, s + p.val < 100000)
    (h0 : ∀ (p : Fin 10000) (k : Fin 64), x0 (ix2 p k) = a0 (ix2 ⟨s + p.val, hs p⟩ k))
    (h1 : ∀ (p : Fin 10000) (k : Fin 64), x1 (ix2 p k) = a1 (ix2 ⟨s + p.val, hs p⟩ k))
    (h2 : x2 = wa) (h3 : x3 = wb) (h4 : x4 = b1) (h5 : x5 = w2) (h6 : x6 = b2) (p : Fin 10000) (q : Fin 4) :
    Cert.Sage.head x0 x1 x2 x3 x4 x5 x6 (ix2 p q) = Cert.Sage.head a0 a1 wa wb b1 w2 b2 (ix2 ⟨s + p.val, hs p⟩ q) := by
  subst h2 h3 h4 h5 h6
  exact head_of_rows a0 a1 x0 x1 x2 x3 x4 x5 x6 s hs h0 h1 p q

/-- Row `p` of the output's block at point `t` is row `10000·t + p` of the output array. -/
theorem out_row (t : Fin cfg4.N) (p : Fin 10000) (q : Fin 4) :
    ((cfg4.win 7).blk t).view.emb (ix2 p q) = ix2 ⟨t.val * 10000 + p.val, row_lt t p⟩ q := by
  refine funext fun a => Fin.ext ?_
  obtain ⟨-, -, -, -, -, -, -, -, -, -, -, -, -, -, e0, e1⟩ := block_indices t
  match a with
  | ⟨0, _⟩ => show win4_7.index t (0 : Fin 2) * 10000 + 1 * p.val = t.val * 10000 + p.val; omega
  | ⟨1, _⟩ => show win4_7.index t (1 : Fin 2) * 4 + 1 * q.val = q.val; omega

/-- The output's blocks lie inside the array, so what is written back at a point is the whole block the body leaves. -/
theorem cut_entry (t : Fin cfg4.N) (X : S10000x4.Idx → EReal) (p : Fin 10000) (q : Fin 4) :
    (cfg4.win 7).cut (grid4.coords t) X (ix2 p q) = X (ix2 p q) := rfl

/-- Row `p` of the block of point `t` read off an output array is the array's row `10000·t + p`. -/
theorem read_entry (t : Fin cfg4.N) (G : S100000x4.Idx → EReal) (p : Fin 10000) (q : Fin 4) :
    ((cfg4.win 7).blk t).view.read (Elt Ideal) G (ix2 p q) = G (ix2 ⟨t.val * 10000 + p.val, row_lt t p⟩ q) := by
  show G (((cfg4.win 7).blk t).view.emb (ix2 p q)) = _
  exact congrArg G (out_row t p q)

/-- What point `t` writes back is the block of rows `10000·t … 10000·t + 9999` of the head of the seven input arrays
    as the region finds them: the body's one store covers its whole block, its loads read the staged blocks whole,
    the body's arithmetic on a block is the head of the block, and a row of the head reads the same row of the arrays. -/
theorem written_block (c : Dev nD) (t : Fin cfg4.N) :
    (dat4 (F := Ideal) V c).flushed 7 t = ((cfg4.win 7).blk t).view.read (Elt Ideal)
      (Cert.Sage.head (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) := by
  show (cfg4.win 7).cut (grid4.coords t) ((dat4 V c).after 7 t) = _
  rw [after4_7]
  unfold out4_7
  rw [View.canon_unit_zero zero_offsets]
  simp only [View.ld_unit_zero (S := S10000x64) zero_offsets, View.ld_unit_zero (S := S64x64) zero_offsets,
    View.ld_unit_zero (S := S1x64) zero_offsets, View.ld_unit_zero (S := S64x4) zero_offsets,
    View.ld_unit_zero (S := S1x4) zero_offsets]
  funext j
  obtain ⟨p, q, rfl⟩ : ∃ (p : Fin 10000) (q : Fin 4), j = ix2 p q := ⟨j 0, j 1, eq_ix2 j⟩
  refine (cut_entry t _ p q).trans ?_
  refine Eq.trans ?_ (read_entry t _ p q).symm
  refine (block_head (iblk4 V c 0 t) (iblk4 V c 1 t) (iblk4 V c 2 t) (iblk4 V c 3 t) (iblk4 V c 4 t) (iblk4 V c 5 t)
    (iblk4 V c 6 t) p q).trans ?_
  exact head_of_blocks (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (V c (Pipeline.arrRef spec4 6)) (iblk4 V c 0 t) (iblk4 V c 1 t) (iblk4 V c 2 t) (iblk4 V c 3 t) (iblk4 V c 4 t)
    (iblk4 V c 5 t) (iblk4 V c 6 t) (t.val * 10000) (row_lt t) (rows_left V c t) (rows_right V c t)
    (whole_first_matrix V c t) (whole_second_matrix V c t) (whole_hidden_bias V c t) (whole_score_matrix V c t)
    (whole_score_bias V c t) p q

/-- An index of the output array is in the block of point `t` iff each coordinate is in the block's range on its axis. -/
theorem mem_written (t : Fin cfg4.N) (i : S100000x4.Idx) :
    i ∈ ((cfg4.win 7).blk t).view.set ↔ ∀ a : Fin 2, win4_7.index t a * S10000x4.size a ≤ (i a).val
      ∧ (i a).val < win4_7.index t a * S10000x4.size a + S10000x4.size a := by
  show i ∈ ((View.whole main_v167).slice (win4_7.rect t)).set ↔ _
  rw [View.set_slice_whole, Rect.mem_set_unit]
  exact Iff.rfl

/-- Every row of the output array is in some point's block: row `r` in the block of point `r / 10000`. -/
theorem blocks_cover (i : S100000x4.Idx) :
    ∃ t : Fin cfg4.N, (cfg4.win 7).flush t = true ∧ i ∈ ((cfg4.win 7).blk t).view.set := by
  have hi0 : (i 0).val < 100000 := (i 0).isLt
  have hi1 : (i 1).val < 4 := (i 1).isLt
  obtain ⟨t, ht⟩ : ∃ t : Fin cfg4.N, t.val = (i 0).val / 10000 :=
    ⟨⟨(i 0).val / 10000, lt_of_lt_of_eq (show (i 0).val / 10000 < 10 by omega) N_4.symm⟩, rfl⟩
  obtain ⟨-, -, -, -, -, -, -, -, -, -, -, -, -, -, e0, e1⟩ := block_indices t
  refine ⟨t, flush4_7 t, ?_⟩
  rw [mem_written]
  intro a
  match a with
  | ⟨0, _⟩ =>
    show win4_7.index t (0 : Fin 2) * 10000 ≤ (i 0).val ∧ (i 0).val < win4_7.index t (0 : Fin 2) * 10000 + 10000
    omega
  | ⟨1, _⟩ =>
    show win4_7.index t (1 : Fin 2) * 4 ≤ (i 1).val ∧ (i 1).val < win4_7.index t (1 : Fin 2) * 4 + 4
    omega

/-- THE OUTPUT ARRAY after the region is the head of the seven input arrays as the region finds them: every point
    writes back its block of that one array of scores, and the ten blocks cover the array. -/
theorem head_array (c : Dev nD) : (dat4 (F := Ideal) V c).arrAt 7 cfg4.N
    = Cert.Sage.head (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) :=
  (dat4 (F := Ideal) V c).arrAt_eq_of_cover 7 _ (fun t _ => written_block V c t) blocks_cover

end Cert.KernelIdeal.HeadRegion

end
-- ==== Proof.WireArgs.lean ====
/-
  The argument arrays at the segment boundaries.

  No host operation and no region of the program writes an argument array that a later segment still reads, so at each
  boundary where a later segment reads one it holds what the launch memory holds. Each fact is one step from the previous
  boundary: across a host stretch the stretch's operations do not write the buffer; across a region the buffer is none of
  the region's arrays. Also: a length-n vector reshaped to one row of n is that vector read as a row.
-/
import proofs.«131276_j14113262535218_1_alg».proof.Proof.Gen.KernelIdeal.Frame
import proofs.«131276_j14113262535218_1_alg».proof.Proof.Spec
import Idealize.ShloMosaic.Lib.StableHlo.Run
import Idealize.ShloMosaic.Lib.ValueLayout
import Idealize.ShloMosaic.PureOps.Ideal

set_option maxRecDepth 16384

noncomputable section

namespace Cert.KernelIdeal.Wire

open Cert.KernelIdeal Cert.KernelIdeal.Gen Idealize.ShloMosaic Idealize.ShloMosaic.TcCoe Idealize.SL.Sem Idealize.ShloMosaic.StableHlo
open Idealize.ShloMosaic.ValueIdx

/-- A length-n vector cast to the shape of one row of n reads, in that row, the vector. -/
theorem reshape_row {n : Nat} (f : (⟨1, ![n]⟩ : Shape).Idx → EReal) (h : (⟨1, ![n]⟩ : Shape).ShapeCasts ⟨2, ![1, n]⟩) :
    shapeCast ⟨2, ![1, n]⟩ f h = Cert.Sage.row f := by
  funext j
  obtain ⟨z, q, rfl⟩ : ∃ (z : Fin 1) (q : Fin n), j = ix2 z q := ⟨j 0, j 1, eq_ix2 j⟩
  exact shapeCast_a_1a_apply f h z q

variable (m : (ℓ : Loc nD τ sig) → Buf (Elt Ideal) ℓ) (ρ : Dev nD → PrngReg)

theorem arg1_at1 (c : Dev nD) : W1 m ρ c (Proc.devRef .tc main_arg1) = (m ((c : Thread nD τ).loc main_arg1)) :=
  (show StableHlo.after hostOps0 (W0 m ρ c) (Proc.devRef .tc main_arg1) = W0 m ρ c (Proc.devRef .tc main_arg1) from by after_results_simp <;> rfl).trans rfl

theorem arg1_at2 (c : Dev nD) : W2 m ρ c (Proc.devRef .tc main_arg1) = (m ((c : Thread nD τ).loc main_arg1)) :=
  (W2_of_ne m ρ c main_arg1 (by decide)).trans (arg1_at1 m ρ c)

theorem arg1_at3 (c : Dev nD) : W3 m ρ c (Proc.devRef .tc main_arg1) = (m ((c : Thread nD τ).loc main_arg1)) :=
  (show StableHlo.after hostOps1 (W2 m ρ c) (Proc.devRef .tc main_arg1) = W2 m ρ c (Proc.devRef .tc main_arg1) from by after_results_simp <;> rfl).trans (arg1_at2 m ρ c)

theorem arg1_at4 (c : Dev nD) : W4 m ρ c (Proc.devRef .tc main_arg1) = (m ((c : Thread nD τ).loc main_arg1)) :=
  (W4_of_ne m ρ c main_arg1 (by decide)).trans (arg1_at3 m ρ c)

theorem arg1_at5 (c : Dev nD) : W5 m ρ c (Proc.devRef .tc main_arg1) = (m ((c : Thread nD τ).loc main_arg1)) :=
  (show StableHlo.after hostOps2 (W4 m ρ c) (Proc.devRef .tc main_arg1) = W4 m ρ c (Proc.devRef .tc main_arg1) from by after_results_simp <;> rfl).trans (arg1_at4 m ρ c)

theorem arg1_at6 (c : Dev nD) : W6 m ρ c (Proc.devRef .tc main_arg1) = (m ((c : Thread nD τ).loc main_arg1)) :=
  (W6_of_ne m ρ c main_arg1 (by decide)).trans (arg1_at5 m ρ c)

theorem arg1_at7 (c : Dev nD) : W7 m ρ c (Proc.devRef .tc main_arg1) = (m ((c : Thread nD τ).loc main_arg1)) :=
  (show StableHlo.after hostOps3 (W6 m ρ c) (Proc.devRef .tc main_arg1) = W6 m ρ c (Proc.devRef .tc main_arg1) from by after_results_simp <;> rfl).trans (arg1_at6 m ρ c)

theorem arg1_at8 (c : Dev nD) : W8 m ρ c (Proc.devRef .tc main_arg1) = (m ((c : Thread nD τ).loc main_arg1)) :=
  (W8_of_ne m ρ c main_arg1 (by decide)).trans (arg1_at7 m ρ c)

theorem arg3_at1 (c : Dev nD) : W1 m ρ c (Proc.devRef .tc main_arg3) = (m ((c : Thread nD τ).loc main_arg3)) :=
  (show StableHlo.after hostOps0 (W0 m ρ c) (Proc.devRef .tc main_arg3) = W0 m ρ c (Proc.devRef .tc main_arg3) from by after_results_simp <;> rfl).trans rfl

theorem arg3_at2 (c : Dev nD) : W2 m ρ c (Proc.devRef .tc main_arg3) = (m ((c : Thread nD τ).loc main_arg3)) :=
  (W2_of_ne m ρ c main_arg3 (by decide)).trans (arg3_at1 m ρ c)

theorem arg3_at3 (c : Dev nD) : W3 m ρ c (Proc.devRef .tc main_arg3) = (m ((c : Thread nD τ).loc main_arg3)) :=
  (show StableHlo.after hostOps1 (W2 m ρ c) (Proc.devRef .tc main_arg3) = W2 m ρ c (Proc.devRef .tc main_arg3) from by after_results_simp <;> rfl).trans (arg3_at2 m ρ c)

theorem arg4_at1 (c : Dev nD) : W1 m ρ c (Proc.devRef .tc main_arg4) = (m ((c : Thread nD τ).loc main_arg4)) :=
  (show StableHlo.after hostOps0 (W0 m ρ c) (Proc.devRef .tc main_arg4) = W0 m ρ c (Proc.devRef .tc main_arg4) from by after_results_simp <;> rfl).trans rfl

theorem arg4_at2 (c : Dev nD) : W2 m ρ c (Proc.devRef .tc main_arg4) = (m ((c : Thread nD τ).loc main_arg4)) :=
  (W2_of_ne m ρ c main_arg4 (by decide)).trans (arg4_at1 m ρ c)

theorem arg4_at3 (c : Dev nD) : W3 m ρ c (Proc.devRef .tc main_arg4) = (m ((c : Thread nD τ).loc main_arg4)) :=
  (show StableHlo.after hostOps1 (W2 m ρ c) (Proc.devRef .tc main_arg4) = W2 m ρ c (Proc.devRef .tc main_arg4) from by after_results_simp <;> rfl).trans (arg4_at2 m ρ c)

theorem arg4_at4 (c : Dev nD) : W4 m ρ c (Proc.devRef .tc main_arg4) = (m ((c : Thread nD τ).loc main_arg4)) :=
  (W4_of_ne m ρ c main_arg4 (by decide)).trans (arg4_at3 m ρ c)

theorem arg5_at1 (c : Dev nD) : W1 m ρ c (Proc.devRef .tc main_arg5) = (m ((c : Thread nD τ).loc main_arg5)) :=
  (show StableHlo.after hostOps0 (W0 m ρ c) (Proc.devRef .tc main_arg5) = W0 m ρ c (Proc.devRef .tc main_arg5) from by after_results_simp <;> rfl).trans rfl

theorem arg5_at2 (c : Dev nD) : W2 m ρ c (Proc.devRef .tc main_arg5) = (m ((c : Thread nD τ).loc main_arg5)) :=
  (W2_of_ne m ρ c main_arg5 (by decide)).trans (arg5_at1 m ρ c)

theorem arg5_at3 (c : Dev nD) : W3 m ρ c (Proc.devRef .tc main_arg5) = (m ((c : Thread nD τ).loc main_arg5)) :=
  (show StableHlo.after hostOps1 (W2 m ρ c) (Proc.devRef .tc main_arg5) = W2 m ρ c (Proc.devRef .tc main_arg5) from by after_results_simp <;> rfl).trans (arg5_at2 m ρ c)

theorem arg5_at4 (c : Dev nD) : W4 m ρ c (Proc.devRef .tc main_arg5) = (m ((c : Thread nD τ).loc main_arg5)) :=
  (W4_of_ne m ρ c main_arg5 (by decide)).trans (arg5_at3 m ρ c)

theorem arg6_at1 (c : Dev nD) : W1 m ρ c (Proc.devRef .tc main_arg6) = (m ((c : Thread nD τ).loc main_arg6)) :=
  (show StableHlo.after hostOps0 (W0 m ρ c) (Proc.devRef .tc main_arg6) = W0 m ρ c (Proc.devRef .tc main_arg6) from by after_results_simp <;> rfl).trans rfl

theorem arg6_at2 (c : Dev nD) : W2 m ρ c (Proc.devRef .tc main_arg6) = (m ((c : Thread nD τ).loc main_arg6)) :=
  (W2_of_ne m ρ c main_arg6 (by decide)).trans (arg6_at1 m ρ c)

theorem arg6_at3 (c : Dev nD) : W3 m ρ c (Proc.devRef .tc main_arg6) = (m ((c : Thread nD τ).loc main_arg6)) :=
  (show StableHlo.after hostOps1 (W2 m ρ c) (Proc.devRef .tc main_arg6) = W2 m ρ c (Proc.devRef .tc main_arg6) from by after_results_simp <;> rfl).trans (arg6_at2 m ρ c)

theorem arg6_at4 (c : Dev nD) : W4 m ρ c (Proc.devRef .tc main_arg6) = (m ((c : Thread nD τ).loc main_arg6)) :=
  (W4_of_ne m ρ c main_arg6 (by decide)).trans (arg6_at3 m ρ c)

theorem arg7_at1 (c : Dev nD) : W1 m ρ c (Proc.devRef .tc main_arg7) = (m ((c : Thread nD τ).loc main_arg7)) :=
  (show StableHlo.after hostOps0 (W0 m ρ c) (Proc.devRef .tc main_arg7) = W0 m ρ c (Proc.devRef .tc main_arg7) from by after_results_simp <;> rfl).trans rfl

theorem arg7_at2 (c : Dev nD) : W2 m ρ c (Proc.devRef .tc main_arg7) = (m ((c : Thread nD τ).loc main_arg7)) :=
  (W2_of_ne m ρ c main_arg7 (by decide)).trans (arg7_at1 m ρ c)

theorem arg7_at3 (c : Dev nD) : W3 m ρ c (Proc.devRef .tc main_arg7) = (m ((c : Thread nD τ).loc main_arg7)) :=
  (show StableHlo.after hostOps1 (W2 m ρ c) (Proc.devRef .tc main_arg7) = W2 m ρ c (Proc.devRef .tc main_arg7) from by after_results_simp <;> rfl).trans (arg7_at2 m ρ c)

theorem arg7_at4 (c : Dev nD) : W4 m ρ c (Proc.devRef .tc main_arg7) = (m ((c : Thread nD τ).loc main_arg7)) :=
  (W4_of_ne m ρ c main_arg7 (by decide)).trans (arg7_at3 m ρ c)

theorem arg7_at5 (c : Dev nD) : W5 m ρ c (Proc.devRef .tc main_arg7) = (m ((c : Thread nD τ).loc main_arg7)) :=
  (show StableHlo.after hostOps2 (W4 m ρ c) (Proc.devRef .tc main_arg7) = W4 m ρ c (Proc.devRef .tc main_arg7) from by after_results_simp <;> rfl).trans (arg7_at4 m ρ c)

theorem arg7_at6 (c : Dev nD) : W6 m ρ c (Proc.devRef .tc main_arg7) = (m ((c : Thread nD τ).loc main_arg7)) :=
  (W6_of_ne m ρ c main_arg7 (by decide)).trans (arg7_at5 m ρ c)

theorem arg8_at1 (c : Dev nD) : W1 m ρ c (Proc.devRef .tc main_arg8) = (m ((c : Thread nD τ).loc main_arg8)) :=
  (show StableHlo.after hostOps0 (W0 m ρ c) (Proc.devRef .tc main_arg8) = W0 m ρ c (Proc.devRef .tc main_arg8) from by after_results_simp <;> rfl).trans rfl

theorem arg8_at2 (c : Dev nD) : W2 m ρ c (Proc.devRef .tc main_arg8) = (m ((c : Thread nD τ).loc main_arg8)) :=
  (W2_of_ne m ρ c main_arg8 (by decide)).trans (arg8_at1 m ρ c)

theorem arg8_at3 (c : Dev nD) : W3 m ρ c (Proc.devRef .tc main_arg8) = (m ((c : Thread nD τ).loc main_arg8)) :=
  (show StableHlo.after hostOps1 (W2 m ρ c) (Proc.devRef .tc main_arg8) = W2 m ρ c (Proc.devRef .tc main_arg8) from by after_results_simp <;> rfl).trans (arg8_at2 m ρ c)

theorem arg8_at4 (c : Dev nD) : W4 m ρ c (Proc.devRef .tc main_arg8) = (m ((c : Thread nD τ).loc main_arg8)) :=
  (W4_of_ne m ρ c main_arg8 (by decide)).trans (arg8_at3 m ρ c)

theorem arg8_at5 (c : Dev nD) : W5 m ρ c (Proc.devRef .tc main_arg8) = (m ((c : Thread nD τ).loc main_arg8)) :=
  (show StableHlo.after hostOps2 (W4 m ρ c) (Proc.devRef .tc main_arg8) = W4 m ρ c (Proc.devRef .tc main_arg8) from by after_results_simp <;> rfl).trans (arg8_at4 m ρ c)

theorem arg8_at6 (c : Dev nD) : W6 m ρ c (Proc.devRef .tc main_arg8) = (m ((c : Thread nD τ).loc main_arg8)) :=
  (W6_of_ne m ρ c main_arg8 (by decide)).trans (arg8_at5 m ρ c)

theorem arg9_at1 (c : Dev nD) : W1 m ρ c (Proc.devRef .tc main_arg9) = (m ((c : Thread nD τ).loc main_arg9)) :=
  (show StableHlo.after hostOps0 (W0 m ρ c) (Proc.devRef .tc main_arg9) = W0 m ρ c (Proc.devRef .tc main_arg9) from by after_results_simp <;> rfl).trans rfl

theorem arg9_at2 (c : Dev nD) : W2 m ρ c (Proc.devRef .tc main_arg9) = (m ((c : Thread nD τ).loc main_arg9)) :=
  (W2_of_ne m ρ c main_arg9 (by decide)).trans (arg9_at1 m ρ c)

theorem arg9_at3 (c : Dev nD) : W3 m ρ c (Proc.devRef .tc main_arg9) = (m ((c : Thread nD τ).loc main_arg9)) :=
  (show StableHlo.after hostOps1 (W2 m ρ c) (Proc.devRef .tc main_arg9) = W2 m ρ c (Proc.devRef .tc main_arg9) from by after_results_simp <;> rfl).trans (arg9_at2 m ρ c)

theorem arg9_at4 (c : Dev nD) : W4 m ρ c (Proc.devRef .tc main_arg9) = (m ((c : Thread nD τ).loc main_arg9)) :=
  (W4_of_ne m ρ c main_arg9 (by decide)).trans (arg9_at3 m ρ c)

theorem arg9_at5 (c : Dev nD) : W5 m ρ c (Proc.devRef .tc main_arg9) = (m ((c : Thread nD τ).loc main_arg9)) :=
  (show StableHlo.after hostOps2 (W4 m ρ c) (Proc.devRef .tc main_arg9) = W4 m ρ c (Proc.devRef .tc main_arg9) from by after_results_simp <;> rfl).trans (arg9_at4 m ρ c)

theorem arg9_at6 (c : Dev nD) : W6 m ρ c (Proc.devRef .tc main_arg9) = (m ((c : Thread nD τ).loc main_arg9)) :=
  (W6_of_ne m ρ c main_arg9 (by decide)).trans (arg9_at5 m ρ c)

theorem arg10_at1 (c : Dev nD) : W1 m ρ c (Proc.devRef .tc main_arg10) = (m ((c : Thread nD τ).loc main_arg10)) :=
  (show StableHlo.after hostOps0 (W0 m ρ c) (Proc.devRef .tc main_arg10) = W0 m ρ c (Proc.devRef .tc main_arg10) from by after_results_simp <;> rfl).trans rfl

theorem arg10_at2 (c : Dev nD) : W2 m ρ c (Proc.devRef .tc main_arg10) = (m ((c : Thread nD τ).loc main_arg10)) :=
  (W2_of_ne m ρ c main_arg10 (by decide)).trans (arg10_at1 m ρ c)

theorem arg10_at3 (c : Dev nD) : W3 m ρ c (Proc.devRef .tc main_arg10) = (m ((c : Thread nD τ).loc main_arg10)) :=
  (show StableHlo.after hostOps1 (W2 m ρ c) (Proc.devRef .tc main_arg10) = W2 m ρ c (Proc.devRef .tc main_arg10) from by after_results_simp <;> rfl).trans (arg10_at2 m ρ c)

theorem arg10_at4 (c : Dev nD) : W4 m ρ c (Proc.devRef .tc main_arg10) = (m ((c : Thread nD τ).loc main_arg10)) :=
  (W4_of_ne m ρ c main_arg10 (by decide)).trans (arg10_at3 m ρ c)

theorem arg11_at1 (c : Dev nD) : W1 m ρ c (Proc.devRef .tc main_arg11) = (m ((c : Thread nD τ).loc main_arg11)) :=
  (show StableHlo.after hostOps0 (W0 m ρ c) (Proc.devRef .tc main_arg11) = W0 m ρ c (Proc.devRef .tc main_arg11) from by after_results_simp <;> rfl).trans rfl

theorem arg11_at2 (c : Dev nD) : W2 m ρ c (Proc.devRef .tc main_arg11) = (m ((c : Thread nD τ).loc main_arg11)) :=
  (W2_of_ne m ρ c main_arg11 (by decide)).trans (arg11_at1 m ρ c)

theorem arg11_at3 (c : Dev nD) : W3 m ρ c (Proc.devRef .tc main_arg11) = (m ((c : Thread nD τ).loc main_arg11)) :=
  (show StableHlo.after hostOps1 (W2 m ρ c) (Proc.devRef .tc main_arg11) = W2 m ρ c (Proc.devRef .tc main_arg11) from by after_results_simp <;> rfl).trans (arg11_at2 m ρ c)

theorem arg11_at4 (c : Dev nD) : W4 m ρ c (Proc.devRef .tc main_arg11) = (m ((c : Thread nD τ).loc main_arg11)) :=
  (W4_of_ne m ρ c main_arg11 (by decide)).trans (arg11_at3 m ρ c)

theorem arg12_at1 (c : Dev nD) : W1 m ρ c (Proc.devRef .tc main_arg12) = (m ((c : Thread nD τ).loc main_arg12)) :=
  (show StableHlo.after hostOps0 (W0 m ρ c) (Proc.devRef .tc main_arg12) = W0 m ρ c (Proc.devRef .tc main_arg12) from by after_results_simp <;> rfl).trans rfl

theorem arg12_at2 (c : Dev nD) : W2 m ρ c (Proc.devRef .tc main_arg12) = (m ((c : Thread nD τ).loc main_arg12)) :=
  (W2_of_ne m ρ c main_arg12 (by decide)).trans (arg12_at1 m ρ c)

theorem arg12_at3 (c : Dev nD) : W3 m ρ c (Proc.devRef .tc main_arg12) = (m ((c : Thread nD τ).loc main_arg12)) :=
  (show StableHlo.after hostOps1 (W2 m ρ c) (Proc.devRef .tc main_arg12) = W2 m ρ c (Proc.devRef .tc main_arg12) from by after_results_simp <;> rfl).trans (arg12_at2 m ρ c)

theorem arg12_at4 (c : Dev nD) : W4 m ρ c (Proc.devRef .tc main_arg12) = (m ((c : Thread nD τ).loc main_arg12)) :=
  (W4_of_ne m ρ c main_arg12 (by decide)).trans (arg12_at3 m ρ c)

theorem arg13_at1 (c : Dev nD) : W1 m ρ c (Proc.devRef .tc main_arg13) = (m ((c : Thread nD τ).loc main_arg13)) :=
  (show StableHlo.after hostOps0 (W0 m ρ c) (Proc.devRef .tc main_arg13) = W0 m ρ c (Proc.devRef .tc main_arg13) from by after_results_simp <;> rfl).trans rfl

theorem arg13_at2 (c : Dev nD) : W2 m ρ c (Proc.devRef .tc main_arg13) = (m ((c : Thread nD τ).loc main_arg13)) :=
  (W2_of_ne m ρ c main_arg13 (by decide)).trans (arg13_at1 m ρ c)

theorem arg13_at3 (c : Dev nD) : W3 m ρ c (Proc.devRef .tc main_arg13) = (m ((c : Thread nD τ).loc main_arg13)) :=
  (show StableHlo.after hostOps1 (W2 m ρ c) (Proc.devRef .tc main_arg13) = W2 m ρ c (Proc.devRef .tc main_arg13) from by after_results_simp <;> rfl).trans (arg13_at2 m ρ c)

theorem arg13_at4 (c : Dev nD) : W4 m ρ c (Proc.devRef .tc main_arg13) = (m ((c : Thread nD τ).loc main_arg13)) :=
  (W4_of_ne m ρ c main_arg13 (by decide)).trans (arg13_at3 m ρ c)

theorem arg14_at1 (c : Dev nD) : W1 m ρ c (Proc.devRef .tc main_arg14) = (m ((c : Thread nD τ).loc main_arg14)) :=
  (show StableHlo.after hostOps0 (W0 m ρ c) (Proc.devRef .tc main_arg14) = W0 m ρ c (Proc.devRef .tc main_arg14) from by after_results_simp <;> rfl).trans rfl

theorem arg14_at2 (c : Dev nD) : W2 m ρ c (Proc.devRef .tc main_arg14) = (m ((c : Thread nD τ).loc main_arg14)) :=
  (W2_of_ne m ρ c main_arg14 (by decide)).trans (arg14_at1 m ρ c)

theorem arg14_at3 (c : Dev nD) : W3 m ρ c (Proc.devRef .tc main_arg14) = (m ((c : Thread nD τ).loc main_arg14)) :=
  (show StableHlo.after hostOps1 (W2 m ρ c) (Proc.devRef .tc main_arg14) = W2 m ρ c (Proc.devRef .tc main_arg14) from by after_results_simp <;> rfl).trans (arg14_at2 m ρ c)

theorem arg14_at4 (c : Dev nD) : W4 m ρ c (Proc.devRef .tc main_arg14) = (m ((c : Thread nD τ).loc main_arg14)) :=
  (W4_of_ne m ρ c main_arg14 (by decide)).trans (arg14_at3 m ρ c)

theorem arg14_at5 (c : Dev nD) : W5 m ρ c (Proc.devRef .tc main_arg14) = (m ((c : Thread nD τ).loc main_arg14)) :=
  (show StableHlo.after hostOps2 (W4 m ρ c) (Proc.devRef .tc main_arg14) = W4 m ρ c (Proc.devRef .tc main_arg14) from by after_results_simp <;> rfl).trans (arg14_at4 m ρ c)

theorem arg14_at6 (c : Dev nD) : W6 m ρ c (Proc.devRef .tc main_arg14) = (m ((c : Thread nD τ).loc main_arg14)) :=
  (W6_of_ne m ρ c main_arg14 (by decide)).trans (arg14_at5 m ρ c)

theorem arg15_at1 (c : Dev nD) : W1 m ρ c (Proc.devRef .tc main_arg15) = (m ((c : Thread nD τ).loc main_arg15)) :=
  (show StableHlo.after hostOps0 (W0 m ρ c) (Proc.devRef .tc main_arg15) = W0 m ρ c (Proc.devRef .tc main_arg15) from by after_results_simp <;> rfl).trans rfl

theorem arg15_at2 (c : Dev nD) : W2 m ρ c (Proc.devRef .tc main_arg15) = (m ((c : Thread nD τ).loc main_arg15)) :=
  (W2_of_ne m ρ c main_arg15 (by decide)).trans (arg15_at1 m ρ c)

theorem arg15_at3 (c : Dev nD) : W3 m ρ c (Proc.devRef .tc main_arg15) = (m ((c : Thread nD τ).loc main_arg15)) :=
  (show StableHlo.after hostOps1 (W2 m ρ c) (Proc.devRef .tc main_arg15) = W2 m ρ c (Proc.devRef .tc main_arg15) from by after_results_simp <;> rfl).trans (arg15_at2 m ρ c)

theorem arg15_at4 (c : Dev nD) : W4 m ρ c (Proc.devRef .tc main_arg15) = (m ((c : Thread nD τ).loc main_arg15)) :=
  (W4_of_ne m ρ c main_arg15 (by decide)).trans (arg15_at3 m ρ c)

theorem arg15_at5 (c : Dev nD) : W5 m ρ c (Proc.devRef .tc main_arg15) = (m ((c : Thread nD τ).loc main_arg15)) :=
  (show StableHlo.after hostOps2 (W4 m ρ c) (Proc.devRef .tc main_arg15) = W4 m ρ c (Proc.devRef .tc main_arg15) from by after_results_simp <;> rfl).trans (arg15_at4 m ρ c)

theorem arg15_at6 (c : Dev nD) : W6 m ρ c (Proc.devRef .tc main_arg15) = (m ((c : Thread nD τ).loc main_arg15)) :=
  (W6_of_ne m ρ c main_arg15 (by decide)).trans (arg15_at5 m ρ c)

theorem arg16_at1 (c : Dev nD) : W1 m ρ c (Proc.devRef .tc main_arg16) = (m ((c : Thread nD τ).loc main_arg16)) :=
  (show StableHlo.after hostOps0 (W0 m ρ c) (Proc.devRef .tc main_arg16) = W0 m ρ c (Proc.devRef .tc main_arg16) from by after_results_simp <;> rfl).trans rfl

theorem arg16_at2 (c : Dev nD) : W2 m ρ c (Proc.devRef .tc main_arg16) = (m ((c : Thread nD τ).loc main_arg16)) :=
  (W2_of_ne m ρ c main_arg16 (by decide)).trans (arg16_at1 m ρ c)

theorem arg16_at3 (c : Dev nD) : W3 m ρ c (Proc.devRef .tc main_arg16) = (m ((c : Thread nD τ).loc main_arg16)) :=
  (show StableHlo.after hostOps1 (W2 m ρ c) (Proc.devRef .tc main_arg16) = W2 m ρ c (Proc.devRef .tc main_arg16) from by after_results_simp <;> rfl).trans (arg16_at2 m ρ c)

theorem arg16_at4 (c : Dev nD) : W4 m ρ c (Proc.devRef .tc main_arg16) = (m ((c : Thread nD τ).loc main_arg16)) :=
  (W4_of_ne m ρ c main_arg16 (by decide)).trans (arg16_at3 m ρ c)

theorem arg16_at5 (c : Dev nD) : W5 m ρ c (Proc.devRef .tc main_arg16) = (m ((c : Thread nD τ).loc main_arg16)) :=
  (show StableHlo.after hostOps2 (W4 m ρ c) (Proc.devRef .tc main_arg16) = W4 m ρ c (Proc.devRef .tc main_arg16) from by after_results_simp <;> rfl).trans (arg16_at4 m ρ c)

theorem arg16_at6 (c : Dev nD) : W6 m ρ c (Proc.devRef .tc main_arg16) = (m ((c : Thread nD τ).loc main_arg16)) :=
  (W6_of_ne m ρ c main_arg16 (by decide)).trans (arg16_at5 m ρ c)

theorem arg17_at1 (c : Dev nD) : W1 m ρ c (Proc.devRef .tc main_arg17) = (m ((c : Thread nD τ).loc main_arg17)) :=
  (show StableHlo.after hostOps0 (W0 m ρ c) (Proc.devRef .tc main_arg17) = W0 m ρ c (Proc.devRef .tc main_arg17) from by after_results_simp <;> rfl).trans rfl

theorem arg17_at2 (c : Dev nD) : W2 m ρ c (Proc.devRef .tc main_arg17) = (m ((c : Thread nD τ).loc main_arg17)) :=
  (W2_of_ne m ρ c main_arg17 (by decide)).trans (arg17_at1 m ρ c)

theorem arg17_at3 (c : Dev nD) : W3 m ρ c (Proc.devRef .tc main_arg17) = (m ((c : Thread nD τ).loc main_arg17)) :=
  (show StableHlo.after hostOps1 (W2 m ρ c) (Proc.devRef .tc main_arg17) = W2 m ρ c (Proc.devRef .tc main_arg17) from by after_results_simp <;> rfl).trans (arg17_at2 m ρ c)

theorem arg17_at4 (c : Dev nD) : W4 m ρ c (Proc.devRef .tc main_arg17) = (m ((c : Thread nD τ).loc main_arg17)) :=
  (W4_of_ne m ρ c main_arg17 (by decide)).trans (arg17_at3 m ρ c)

theorem arg17_at5 (c : Dev nD) : W5 m ρ c (Proc.devRef .tc main_arg17) = (m ((c : Thread nD τ).loc main_arg17)) :=
  (show StableHlo.after hostOps2 (W4 m ρ c) (Proc.devRef .tc main_arg17) = W4 m ρ c (Proc.devRef .tc main_arg17) from by after_results_simp <;> rfl).trans (arg17_at4 m ρ c)

theorem arg17_at6 (c : Dev nD) : W6 m ρ c (Proc.devRef .tc main_arg17) = (m ((c : Thread nD τ).loc main_arg17)) :=
  (W6_of_ne m ρ c main_arg17 (by decide)).trans (arg17_at5 m ρ c)

theorem arg18_at1 (c : Dev nD) : W1 m ρ c (Proc.devRef .tc main_arg18) = (m ((c : Thread nD τ).loc main_arg18)) :=
  (show StableHlo.after hostOps0 (W0 m ρ c) (Proc.devRef .tc main_arg18) = W0 m ρ c (Proc.devRef .tc main_arg18) from by after_results_simp <;> rfl).trans rfl

theorem arg18_at2 (c : Dev nD) : W2 m ρ c (Proc.devRef .tc main_arg18) = (m ((c : Thread nD τ).loc main_arg18)) :=
  (W2_of_ne m ρ c main_arg18 (by decide)).trans (arg18_at1 m ρ c)

theorem arg18_at3 (c : Dev nD) : W3 m ρ c (Proc.devRef .tc main_arg18) = (m ((c : Thread nD τ).loc main_arg18)) :=
  (show StableHlo.after hostOps1 (W2 m ρ c) (Proc.devRef .tc main_arg18) = W2 m ρ c (Proc.devRef .tc main_arg18) from by after_results_simp <;> rfl).trans (arg18_at2 m ρ c)

theorem arg18_at4 (c : Dev nD) : W4 m ρ c (Proc.devRef .tc main_arg18) = (m ((c : Thread nD τ).loc main_arg18)) :=
  (W4_of_ne m ρ c main_arg18 (by decide)).trans (arg18_at3 m ρ c)

theorem arg18_at5 (c : Dev nD) : W5 m ρ c (Proc.devRef .tc main_arg18) = (m ((c : Thread nD τ).loc main_arg18)) :=
  (show StableHlo.after hostOps2 (W4 m ρ c) (Proc.devRef .tc main_arg18) = W4 m ρ c (Proc.devRef .tc main_arg18) from by after_results_simp <;> rfl).trans (arg18_at4 m ρ c)

theorem arg18_at6 (c : Dev nD) : W6 m ρ c (Proc.devRef .tc main_arg18) = (m ((c : Thread nD τ).loc main_arg18)) :=
  (W6_of_ne m ρ c main_arg18 (by decide)).trans (arg18_at5 m ρ c)

theorem arg18_at7 (c : Dev nD) : W7 m ρ c (Proc.devRef .tc main_arg18) = (m ((c : Thread nD τ).loc main_arg18)) :=
  (show StableHlo.after hostOps3 (W6 m ρ c) (Proc.devRef .tc main_arg18) = W6 m ρ c (Proc.devRef .tc main_arg18) from by after_results_simp <;> rfl).trans (arg18_at6 m ρ c)

theorem arg18_at8 (c : Dev nD) : W8 m ρ c (Proc.devRef .tc main_arg18) = (m ((c : Thread nD τ).loc main_arg18)) :=
  (W8_of_ne m ρ c main_arg18 (by decide)).trans (arg18_at7 m ρ c)

theorem arg19_at1 (c : Dev nD) : W1 m ρ c (Proc.devRef .tc main_arg19) = (m ((c : Thread nD τ).loc main_arg19)) :=
  (show StableHlo.after hostOps0 (W0 m ρ c) (Proc.devRef .tc main_arg19) = W0 m ρ c (Proc.devRef .tc main_arg19) from by after_results_simp <;> rfl).trans rfl

theorem arg19_at2 (c : Dev nD) : W2 m ρ c (Proc.devRef .tc main_arg19) = (m ((c : Thread nD τ).loc main_arg19)) :=
  (W2_of_ne m ρ c main_arg19 (by decide)).trans (arg19_at1 m ρ c)

theorem arg19_at3 (c : Dev nD) : W3 m ρ c (Proc.devRef .tc main_arg19) = (m ((c : Thread nD τ).loc main_arg19)) :=
  (show StableHlo.after hostOps1 (W2 m ρ c) (Proc.devRef .tc main_arg19) = W2 m ρ c (Proc.devRef .tc main_arg19) from by after_results_simp <;> rfl).trans (arg19_at2 m ρ c)

theorem arg19_at4 (c : Dev nD) : W4 m ρ c (Proc.devRef .tc main_arg19) = (m ((c : Thread nD τ).loc main_arg19)) :=
  (W4_of_ne m ρ c main_arg19 (by decide)).trans (arg19_at3 m ρ c)

theorem arg19_at5 (c : Dev nD) : W5 m ρ c (Proc.devRef .tc main_arg19) = (m ((c : Thread nD τ).loc main_arg19)) :=
  (show StableHlo.after hostOps2 (W4 m ρ c) (Proc.devRef .tc main_arg19) = W4 m ρ c (Proc.devRef .tc main_arg19) from by after_results_simp <;> rfl).trans (arg19_at4 m ρ c)

theorem arg19_at6 (c : Dev nD) : W6 m ρ c (Proc.devRef .tc main_arg19) = (m ((c : Thread nD τ).loc main_arg19)) :=
  (W6_of_ne m ρ c main_arg19 (by decide)).trans (arg19_at5 m ρ c)

theorem arg19_at7 (c : Dev nD) : W7 m ρ c (Proc.devRef .tc main_arg19) = (m ((c : Thread nD τ).loc main_arg19)) :=
  (show StableHlo.after hostOps3 (W6 m ρ c) (Proc.devRef .tc main_arg19) = W6 m ρ c (Proc.devRef .tc main_arg19) from by after_results_simp <;> rfl).trans (arg19_at6 m ρ c)

theorem arg19_at8 (c : Dev nD) : W8 m ρ c (Proc.devRef .tc main_arg19) = (m ((c : Thread nD τ).loc main_arg19)) :=
  (W8_of_ne m ρ c main_arg19 (by decide)).trans (arg19_at7 m ρ c)

theorem arg20_at1 (c : Dev nD) : W1 m ρ c (Proc.devRef .tc main_arg20) = (m ((c : Thread nD τ).loc main_arg20)) :=
  (show StableHlo.after hostOps0 (W0 m ρ c) (Proc.devRef .tc main_arg20) = W0 m ρ c (Proc.devRef .tc main_arg20) from by after_results_simp <;> rfl).trans rfl

theorem arg20_at2 (c : Dev nD) : W2 m ρ c (Proc.devRef .tc main_arg20) = (m ((c : Thread nD τ).loc main_arg20)) :=
  (W2_of_ne m ρ c main_arg20 (by decide)).trans (arg20_at1 m ρ c)

theorem arg20_at3 (c : Dev nD) : W3 m ρ c (Proc.devRef .tc main_arg20) = (m ((c : Thread nD τ).loc main_arg20)) :=
  (show StableHlo.after hostOps1 (W2 m ρ c) (Proc.devRef .tc main_arg20) = W2 m ρ c (Proc.devRef .tc main_arg20) from by after_results_simp <;> rfl).trans (arg20_at2 m ρ c)

theorem arg20_at4 (c : Dev nD) : W4 m ρ c (Proc.devRef .tc main_arg20) = (m ((c : Thread nD τ).loc main_arg20)) :=
  (W4_of_ne m ρ c main_arg20 (by decide)).trans (arg20_at3 m ρ c)

theorem arg20_at5 (c : Dev nD) : W5 m ρ c (Proc.devRef .tc main_arg20) = (m ((c : Thread nD τ).loc main_arg20)) :=
  (show StableHlo.after hostOps2 (W4 m ρ c) (Proc.devRef .tc main_arg20) = W4 m ρ c (Proc.devRef .tc main_arg20) from by after_results_simp <;> rfl).trans (arg20_at4 m ρ c)

theorem arg20_at6 (c : Dev nD) : W6 m ρ c (Proc.devRef .tc main_arg20) = (m ((c : Thread nD τ).loc main_arg20)) :=
  (W6_of_ne m ρ c main_arg20 (by decide)).trans (arg20_at5 m ρ c)

theorem arg20_at7 (c : Dev nD) : W7 m ρ c (Proc.devRef .tc main_arg20) = (m ((c : Thread nD τ).loc main_arg20)) :=
  (show StableHlo.after hostOps3 (W6 m ρ c) (Proc.devRef .tc main_arg20) = W6 m ρ c (Proc.devRef .tc main_arg20) from by after_results_simp <;> rfl).trans (arg20_at6 m ρ c)

theorem arg20_at8 (c : Dev nD) : W8 m ρ c (Proc.devRef .tc main_arg20) = (m ((c : Thread nD τ).loc main_arg20)) :=
  (W8_of_ne m ρ c main_arg20 (by decide)).trans (arg20_at7 m ρ c)

theorem arg20_at9 (c : Dev nD) : W9 m ρ c (Proc.devRef .tc main_arg20) = (m ((c : Thread nD τ).loc main_arg20)) :=
  (show StableHlo.after hostOps4 (W8 m ρ c) (Proc.devRef .tc main_arg20) = W8 m ρ c (Proc.devRef .tc main_arg20) from by after_results_simp <;> rfl).trans (arg20_at8 m ρ c)

theorem arg21_at1 (c : Dev nD) : W1 m ρ c (Proc.devRef .tc main_arg21) = (m ((c : Thread nD τ).loc main_arg21)) :=
  (show StableHlo.after hostOps0 (W0 m ρ c) (Proc.devRef .tc main_arg21) = W0 m ρ c (Proc.devRef .tc main_arg21) from by after_results_simp <;> rfl).trans rfl

theorem arg21_at2 (c : Dev nD) : W2 m ρ c (Proc.devRef .tc main_arg21) = (m ((c : Thread nD τ).loc main_arg21)) :=
  (W2_of_ne m ρ c main_arg21 (by decide)).trans (arg21_at1 m ρ c)

theorem arg21_at3 (c : Dev nD) : W3 m ρ c (Proc.devRef .tc main_arg21) = (m ((c : Thread nD τ).loc main_arg21)) :=
  (show StableHlo.after hostOps1 (W2 m ρ c) (Proc.devRef .tc main_arg21) = W2 m ρ c (Proc.devRef .tc main_arg21) from by after_results_simp <;> rfl).trans (arg21_at2 m ρ c)

theorem arg21_at4 (c : Dev nD) : W4 m ρ c (Proc.devRef .tc main_arg21) = (m ((c : Thread nD τ).loc main_arg21)) :=
  (W4_of_ne m ρ c main_arg21 (by decide)).trans (arg21_at3 m ρ c)

theorem arg21_at5 (c : Dev nD) : W5 m ρ c (Proc.devRef .tc main_arg21) = (m ((c : Thread nD τ).loc main_arg21)) :=
  (show StableHlo.after hostOps2 (W4 m ρ c) (Proc.devRef .tc main_arg21) = W4 m ρ c (Proc.devRef .tc main_arg21) from by after_results_simp <;> rfl).trans (arg21_at4 m ρ c)

theorem arg21_at6 (c : Dev nD) : W6 m ρ c (Proc.devRef .tc main_arg21) = (m ((c : Thread nD τ).loc main_arg21)) :=
  (W6_of_ne m ρ c main_arg21 (by decide)).trans (arg21_at5 m ρ c)

theorem arg21_at7 (c : Dev nD) : W7 m ρ c (Proc.devRef .tc main_arg21) = (m ((c : Thread nD τ).loc main_arg21)) :=
  (show StableHlo.after hostOps3 (W6 m ρ c) (Proc.devRef .tc main_arg21) = W6 m ρ c (Proc.devRef .tc main_arg21) from by after_results_simp <;> rfl).trans (arg21_at6 m ρ c)

theorem arg21_at8 (c : Dev nD) : W8 m ρ c (Proc.devRef .tc main_arg21) = (m ((c : Thread nD τ).loc main_arg21)) :=
  (W8_of_ne m ρ c main_arg21 (by decide)).trans (arg21_at7 m ρ c)

end Cert.KernelIdeal.Wire

end
-- ==== Proof.MatRow.lean ====
/-
  A block of rows times a 64-column-deep matrix, entry by entry.

  The kernel bodies multiply a block of 10000 rows of 64 by a 64×64 matrix (and, in the head, by a 64×4 matrix) into a zero
  accumulator. On the extended reals that product's entry (p, q) is the plain sum over k < 64 of the left operand at (p, k)
  times the right operand at (k, q): the contraction runs over the one shared axis, the row comes from the left operand and
  the column from the right.
-/
import proofs.«131276_j14113262535218_1_alg».proof.Proof.Gen.KernelIdeal
import Idealize.ShloMosaic.PureOps.Ideal.Laws
import Idealize.ShloMosaic.Lib.ValueIdx

noncomputable section

namespace Cert.KernelIdeal.MatRow

open Cert.KernelIdeal Cert.KernelIdeal.Gen Idealize.ShloMosaic Idealize.ShloMosaic.ValueIdx

/-! ## Rows of 64 against a 64×64 matrix -/

theorem lhs64_0 (i : S10000x64.Idx) (s : dot_S10000x64_S64x64_S10000x64_1_0_0_1_n_n.contr.Idx) :
    (dot_S10000x64_S64x64_S10000x64_1_0_0_1_n_n.lhsIdx i s 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

theorem rhs64_1 (i : S10000x64.Idx) (s : dot_S10000x64_S64x64_S10000x64_1_0_0_1_n_n.contr.Idx) :
    (dot_S10000x64_S64x64_S10000x64_1_0_0_1_n_n.rhsIdx i s 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, q) of a 10000×64 block times a 64×64 matrix, accumulated from zero, is the sum of the 64 products along
    the shared axis. -/
theorem mm64 {φ₁ φ₂ : FTy} (l : FVec Ideal S10000x64 φ₁) (r : FVec Ideal S64x64 φ₂) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs64_0 _ _
    | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (dot_S10000x64_S64x64_S10000x64_1_0_0_1_n_n.rhsIdx_val_of_single rfl _ _).trans hk
    | ⟨1, _⟩ => exact rhs64_1 _ _)
  rw [el, er]

end Cert.KernelIdeal.MatRow

end
-- ==== Proof.UpdRegion0.lean ====
/-
  Update region 0: what its output array holds when the region has run, as ONE function of the arrays the region found.

  The region walks 20 grid points. Point t stages rows [10000·t, 10000·t + 10000) of the two row-blocked operands (the
  neighbourhood means and the side's own features), the seven small operands whole (two 64×64 weight matrices, the bias
  row, and the scale, shift, mean and variance rows of the normalisation), runs the body on them, and writes the result
  back to the same rows of the output. Entry (p, q) of the body's result depends on row p of each row-blocked operand
  and column q of each small one: it is the layer's map (the shared specification) of the staged rows. Since the
  staged rows of point t ARE rows 10000·t + p of the arrays, what point t writes back is block t of the layer's map of
  the whole arrays; the 20 blocks tile the 200000 rows (row r lies in block r / 10000), so the array ends as that map.
-/
import proofs.«131276_j14113262535218_1_alg».proof.Proof.Gen.KernelIdeal.Frame
import proofs.«131276_j14113262535218_1_alg».proof.Proof.Spec
import proofs.«131276_j14113262535218_1_alg».proof.Proof.MatRow
import Idealize.ShloMosaic.Lib.Pipeline.Value
import Idealize.ShloMosaic.Lib.ValueIdx
import Idealize.ShloMosaic.Lib.ValueLayout

set_option maxRecDepth 16384

noncomputable section

namespace Cert.KernelIdeal.UpdRegion0

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at an entry -/

/-- Entry (p, q) of the body's result on staged blocks is the layer's map of those blocks at (p, q): the casts to the
    narrow format are the identity on extended reals, each product into a zero accumulator is the sum of 64 products, and
    a row operand broadcast down the block reads its single row. -/
theorem body_ix (x0 x1 : Vec Ideal S10000x64 .f32) (x2 : Vec Ideal S64x64 .f32) (x3 : Vec Ideal S1x64 .f32) (x4 : Vec Ideal S64x64 .f32)
    (x5 x6 x7 x8 : Vec Ideal S1x64 .f32) (p : Fin 10000) (q : Fin 64) :
    k0_pay1 (k0_pay2 x0 x1 x2 x4 x3 x5 x6 x7 x8) (Scalar.ofBits .f32 0x00000000#32) (ix2 p q) = Cert.Sage.upd x0 x1 x2 x3 x4 x5 x6 x7 x8 (ix2 p q) := by
  rw [Cert.Sage.upd_ix2]
  unfold k0_pay1 k0_pay2
  dsimp only
  simp only [shapeCast_self, maximumf_apply, addf_apply, mulf_apply, subf_apply, broadcast_apply, truncf_apply,
    broadcastTo_1b_ab_apply, MatRow.mm64]
  rfl

/-! ## One grid point -/

/-- The body's result at an entry `j` of the block, when the staged blocks are the rows of the arrays `A0`, `A1` that the
    array index `i` names (same row for every column k, same column as `j`) and the small operands are staged whole: the
    layer's map of the ARRAYS at `i`. -/
theorem point (A0 A1 : (⟨2, ![200000, 64]⟩ : Shape).Idx → EReal)
    (W2 : (⟨2, ![64, 64]⟩ : Shape).Idx → EReal) (W3 : (⟨2, ![1, 64]⟩ : Shape).Idx → EReal) (W4 : (⟨2, ![64, 64]⟩ : Shape).Idx → EReal)
    (W5 W6 W7 W8 : (⟨2, ![1, 64]⟩ : Shape).Idx → EReal)
    (x0 x1 : Vec Ideal S10000x64 .f32) (x2 : Vec Ideal S64x64 .f32) (x3 : Vec Ideal S1x64 .f32) (x4 : Vec Ideal S64x64 .f32)
    (x5 x6 x7 x8 : Vec Ideal S1x64 .f32)
    (i : (⟨2, ![200000, 64]⟩ : Shape).Idx) (j : S10000x64.Idx)
    (h0 : ∀ k : Fin 64, x0 (ix2 ⟨(j 0).val, (j 0).isLt⟩ k) = A0 (ix2 ⟨(i 0).val, (i 0).isLt⟩ k))
    (h1 : ∀ k : Fin 64, x1 (ix2 ⟨(j 0).val, (j 0).isLt⟩ k) = A1 (ix2 ⟨(i 0).val, (i 0).isLt⟩ k))
    (h2 : x2 = W2) (h3 : x3 = W3) (h4 : x4 = W4) (h5 : x5 = W5) (h6 : x6 = W6) (h7 : x7 = W7) (h8 : x8 = W8)
    (hq : (i 1).val = (j 1).val) :
    k0_pay1 (k0_pay2 x0 x1 x2 x4 x3 x5 x6 x7 x8) (Scalar.ofBits .f32 0x00000000#32) j = Cert.Sage.upd A0 A1 W2 W3 W4 W5 W6 W7 W8 i := by
  subst h2 h3 h4 h5 h6 h7 h8
  obtain ⟨p, q, rfl⟩ : ∃ (p : Fin 10000) (q : Fin 64), j = ix2 p q := ⟨j 0, j 1, eq_ix2 j⟩
  rw [body_ix, Cert.Sage.upd_ix2]
  have hq' : (⟨(i 1).val, (i 1).isLt⟩ : Fin 64) = q := Fin.ext hq
  show _ = Cert.Sage.act x5 x6 x7 x8 ⟨(i 1).val, (i 1).isLt⟩ (Cert.Sage.preA A0 A1 x2 x4 x3 ⟨(i 0).val, (i 0).isLt⟩ ⟨(i 1).val, (i 1).isLt⟩)
  rw [hq']
  refine congrArg _ ?_
  unfold Cert.Sage.preA Cert.Sage.dot64
  have e0 : ∀ k : Fin 64, x0 (ix2 p k) = A0 (ix2 ⟨(i 0).val, (i 0).isLt⟩ k) := h0
  have e1 : ∀ k : Fin 64, x1 (ix2 p k) = A1 (ix2 ⟨(i 0).val, (i 0).isLt⟩ k) := h1
  simp only [e0, e1]

/-! ## The index maps, decided over the 20 grid points -/

theorem idx_rows : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_9.index t (1 : Fin 2) = 0 ∧ win0_9.index t (0 : Fin 2) ≤ 19 :=
  (by decide +kernel : ∀ t : Fin grid0.N, _)

theorem idx_small : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Every block row of the output is some point's. -/
theorem idx_onto : ∀ q0 : Fin 20, ∃ t : Fin cfg0.N, win0_9.index t = ![q0.val, 0] :=
  (by decide +kernel : ∀ q0 : Fin 20, ∃ t : Fin grid0.N, win0_9.index t = ![q0.val, 0])

/-! ## The staged blocks are the arrays' rows -/

variable (V : (c : Dev nD) → (b : Ref sig .tc) → Buf (Elt Ideal) ((c : Thread nD τ).loc b))

theorem hz : (![0, 0] : Fin 2 → Nat) = fun _ => 0 := funext fun a => by fin_cases a <;> rfl

/-- Small operand 2 is staged whole at every point. -/
theorem whole2 (c : Dev nD) (t : Fin cfg0.N) : iblk0 V c 2 t = V c main_v42 := by
  funext y
  show V c main_v42 (((cfg0.win 2).blk t).view.emb y) = V c main_v42 y
  refine congrArg _ (funext fun a => Fin.ext ?_)
  have e := (idx_small t).1
  match a with
  | ⟨0, _⟩ => show win0_2.index t (0 : Fin 2) * 64 + 1 * (y 0).val = (y 0).val; rw [e.1]; omega
  | ⟨1, _⟩ => show win0_2.index t (1 : Fin 2) * 64 + 1 * (y 1).val = (y 1).val; rw [e.2]; omega

/-- Small operand 3 is staged whole at every point. -/
theorem whole3 (c : Dev nD) (t : Fin cfg0.N) : iblk0 V c 3 t = V c main_v55 := by
  funext y
  show V c main_v55 (((cfg0.win 3).blk t).view.emb y) = V c main_v55 y
  refine congrArg _ (funext fun a => Fin.ext ?_)
  have e := (idx_small t).2.1
  match a with
  | ⟨0, _⟩ => show win0_3.index t (0 : Fin 2) * 1 + 1 * (y 0).val = (y 0).val; rw [e.1]; omega
  | ⟨1, _⟩ => show win0_3.index t (1 : Fin 2) * 64 + 1 * (y 1).val = (y 1).val; rw [e.2]; omega

/-- Small operand 4 is staged whole at every point. -/
theorem whole4 (c : Dev nD) (t : Fin cfg0.N) : iblk0 V c 4 t = V c main_v46 := by
  funext y
  show V c main_v46 (((cfg0.win 4).blk t).view.emb y) = V c main_v46 y
  refine congrArg _ (funext fun a => Fin.ext ?_)
  have e := (idx_small t).2.2.1
  match a with
  | ⟨0, _⟩ => show win0_4.index t (0 : Fin 2) * 64 + 1 * (y 0).val = (y 0).val; rw [e.1]; omega
  | ⟨1, _⟩ => show win0_4.index t (1 : Fin 2) * 64 + 1 * (y 1).val = (y 1).val; rw [e.2]; omega

/-- Small operand 5 is staged whole at every point. -/
theorem whole5 (c : Dev nD) (t : Fin cfg0.N) : iblk0 V c 5 t = V c main_v56 := by
  funext y
  show V c main_v56 (((cfg0.win 5).blk t).view.emb y) = V c main_v56 y
  refine congrArg _ (funext fun a => Fin.ext ?_)
  have e := (idx_small t).2.2.2.1
  match a with
  | ⟨0, _⟩ => show win0_5.index t (0 : Fin 2) * 1 + 1 * (y 0).val = (y 0).val; rw [e.1]; omega
  | ⟨1, _⟩ => show win0_5.index t (1 : Fin 2) * 64 + 1 * (y 1).val = (y 1).val; rw [e.2]; omega

/-- Small operand 6 is staged whole at every point. -/
theorem whole6 (c : Dev nD) (t : Fin cfg0.N) : iblk0 V c 6 t = V c main_v57 := by
  funext y
  show V c main_v57 (((cfg0.win 6).blk t).view.emb y) = V c main_v57 y
  refine congrArg _ (funext fun a => Fin.ext ?_)
  have e := (idx_small t).2.2.2.2.1
  match a with
  | ⟨0, _⟩ => show win0_6.index t (0 : Fin 2) * 1 + 1 * (y 0).val = (y 0).val; rw [e.1]; omega
  | ⟨1, _⟩ => show win0_6.index t (1 : Fin 2) * 64 + 1 * (y 1).val = (y 1).val; rw [e.2]; omega

/-- Small operand 7 is staged whole at every point. -/
theorem whole7 (c : Dev nD) (t : Fin cfg0.N) : iblk0 V c 7 t = V c main_v58 := by
  funext y
  show V c main_v58 (((cfg0.win 7).blk t).view.emb y) = V c main_v58 y
  refine congrArg _ (funext fun a => Fin.ext ?_)
  have e := (idx_small t).2.2.2.2.2.1
  match a with
  | ⟨0, _⟩ => show win0_7.index t (0 : Fin 2) * 1 + 1 * (y 0).val = (y 0).val; rw [e.1]; omega
  | ⟨1, _⟩ => show win0_7.index t (1 : Fin 2) * 64 + 1 * (y 1).val = (y 1).val; rw [e.2]; omega

/-- Small operand 8 is staged whole at every point. -/
theorem whole8 (c : Dev nD) (t : Fin cfg0.N) : iblk0 V c 8 t = V c main_v59 := by
  funext y
  show V c main_v59 (((cfg0.win 8).blk t).view.emb y) = V c main_v59 y
  refine congrArg _ (funext fun a => Fin.ext ?_)
  have e := (idx_small t).2.2.2.2.2.2
  match a with
  | ⟨0, _⟩ => show win0_8.index t (0 : Fin 2) * 1 + 1 * (y 0).val = (y 0).val; rw [e.1]; omega
  | ⟨1, _⟩ => show win0_8.index t (1 : Fin 2) * 64 + 1 * (y 1).val = (y 1).val; rw [e.2]; omega

/-! ## What a point writes back -/

/-- WHAT POINT `t` WRITES BACK is block `t` of the layer's map of the arrays as the region finds them. -/
theorem flushed_eq (c : Dev nD) (t : Fin cfg0.N) :
    (dat0 V c).flushed 9 t = ((cfg0.win 9).blk t).view.read (Elt Ideal)
      (Cert.Sage.upd (n := 200000) (V c main_v28) (V c main_arg2) (V c main_v42) (V c main_v55) (V c main_v46) (V c main_v56) (V c main_v57) (V c main_v58) (V c main_v59)) := by
  show (cfg0.win 9).cut (grid0.coords t) ((dat0 V c).after 9 t) = _
  rw [after0_9]
  unfold out0_9
  rw [View.canon_unit_zero hz]
  simp only [View.ld_unit_zero (S := S10000x64) hz, View.ld_unit_zero (S := S64x64) hz, View.ld_unit_zero (S := S1x64) hz]
  obtain ⟨r0, r1, r2, r3, r4, r5⟩ := idx_rows t
  funext j
  show k0_pay1 (k0_pay2 (iblk0 V c 0 t) (iblk0 V c 1 t) (iblk0 V c 2 t) (iblk0 V c 4 t) (iblk0 V c 3 t) (iblk0 V c 5 t) (iblk0 V c 6 t) (iblk0 V c 7 t) (iblk0 V c 8 t)) (Scalar.ofBits .f32 0x00000000#32) j
      = Cert.Sage.upd (n := 200000) (V c main_v28) (V c main_arg2) (V c main_v42) (V c main_v55) (V c main_v46) (V c main_v56) (V c main_v57) (V c main_v58) (V c main_v59) (((cfg0.win 9).blk t).view.emb j)
  refine point (V c main_v28) (V c main_arg2) (V c main_v42) (V c main_v55) (V c main_v46) (V c main_v56) (V c main_v57) (V c main_v58) (V c main_v59) (iblk0 V c 0 t) (iblk0 V c 1 t) (iblk0 V c 2 t) (iblk0 V c 3 t) (iblk0 V c 4 t) (iblk0 V c 5 t) (iblk0 V c 6 t) (iblk0 V c 7 t) (iblk0 V c 8 t)
    (((cfg0.win 9).blk t).view.emb j) j
    (fun k => ?_) (fun k => ?_) (whole2 V c t) (whole3 V c t) (whole4 V c t) (whole5 V c t) (whole6 V c t) (whole7 V c t) (whole8 V c t) ?_
  · show V c main_v28 (((cfg0.win 0).blk t).view.emb (ix2 ⟨(j 0).val, (j 0).isLt⟩ k)) = _
    refine congrArg _ (funext fun a => Fin.ext ?_)
    match a with
    | ⟨0, _⟩ => show win0_0.index t (0 : Fin 2) * 10000 + 1 * (j 0).val = win0_9.index t (0 : Fin 2) * 10000 + 1 * (j 0).val; rw [r0]
    | ⟨1, _⟩ => show win0_0.index t (1 : Fin 2) * 64 + 1 * k.val = k.val; rw [r1]; omega
  · show V c main_arg2 (((cfg0.win 1).blk t).view.emb (ix2 ⟨(j 0).val, (j 0).isLt⟩ k)) = _
    refine congrArg _ (funext fun a => Fin.ext ?_)
    match a with
    | ⟨0, _⟩ => show win0_1.index t (0 : Fin 2) * 10000 + 1 * (j 0).val = win0_9.index t (0 : Fin 2) * 10000 + 1 * (j 0).val; rw [r2]
    | ⟨1, _⟩ => show win0_1.index t (1 : Fin 2) * 64 + 1 * k.val = k.val; rw [r3]; omega
  · show win0_9.index t (1 : Fin 2) * 64 + 1 * (j 1).val = (j 1).val
    rw [r4]; omega

/-! ## The blocks tile the array -/

/-- An index of the array is in point `t`'s block iff each coordinate is in the block's range on its axis. -/
theorem mem_blk (t : Fin cfg0.N) (i : S200000x64.Idx) :
    i ∈ ((cfg0.win 9).blk t).view.set ↔ ∀ a : Fin 2, win0_9.index t a * S10000x64.size a ≤ (i a).val ∧ (i a).val < win0_9.index t a * S10000x64.size a + S10000x64.size a := by
  show i ∈ ((View.whole main_v60).slice (win0_9.rect t)).set ↔ _
  rw [View.set_slice_whole, Rect.mem_set_unit]
  exact Iff.rfl

/-- Every index of the array lies in some point's block: row r in the block of point r / 10000. -/
theorem cover (i : S200000x64.Idx) :
    ∃ t : Fin cfg0.N, (cfg0.win 9).flush t = true ∧ i ∈ ((cfg0.win 9).blk t).view.set := by
  have hi0 : (i 0).val < 200000 := (i 0).isLt
  have hi1 : (i 1).val < 64 := (i 1).isLt
  obtain ⟨t, ht⟩ := idx_onto ⟨(i 0).val / 10000, by omega⟩
  have q0 : win0_9.index t (0 : Fin 2) = (i 0).val / 10000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 10000 ≤ (i 0).val ∧ (i 0).val < win0_9.index t (0 : Fin 2) * 10000 + 10000; omega
  | ⟨1, _⟩ => show win0_9.index t (1 : Fin 2) * 64 ≤ (i 1).val ∧ (i 1).val < win0_9.index t (1 : Fin 2) * 64 + 64; omega

/-! ## The array after the region -/

/-- THE OUTPUT ARRAY after region 0: the layer's map of the nine arrays the region found. -/
theorem final (c : Dev nD) :
    (dat0 V c).arrAt 9 cfg0.N
      = Cert.Sage.upd (n := 200000) (V c main_v28) (V c main_arg2) (V c main_v42)
        (V c main_v55) (V c main_v46) (V c main_v56)
        (V c main_v57) (V c main_v58) (V c main_v59) :=
  (dat0 V c).arrAt_eq_of_cover 9 _ (fun t _ => flushed_eq V c t) cover

end Cert.KernelIdeal.UpdRegion0

end
-- ==== Proof.UpdRegion1.lean ====
/-
  Update region 1: what its output array holds when the region has run, as ONE function of the arrays the region found.

  The region walks 20 grid points. Point t stages rows [10000·t, 10000·t + 10000) of the two row-blocked operands (the
  neighbourhood means and the side's own features), the seven small operands whole (two 64×64 weight matrices, the bias
  row, and the scale, shift, mean and variance rows of the normalisation), runs the body on them, and writes the result
  back to the same rows of the output. Entry (p, q) of the body's result depends on row p of each row-blocked operand
  and column q of each small one: it is the layer's map (the shared specification) of the staged rows. Since the
  staged rows of point t ARE rows 10000·t + p of the arrays, what point t writes back is block t of the layer's map of
  the whole arrays; the 20 blocks tile the 200000 rows (row r lies in block r / 10000), so the array ends as that map.
-/
import proofs.«131276_j14113262535218_1_alg».proof.Proof.Gen.KernelIdeal.Frame
import proofs.«131276_j14113262535218_1_alg».proof.Proof.Spec
import proofs.«131276_j14113262535218_1_alg».proof.Proof.MatRow
import Idealize.ShloMosaic.Lib.Pipeline.Value
import Idealize.ShloMosaic.Lib.ValueIdx
import Idealize.ShloMosaic.Lib.ValueLayout

set_option maxRecDepth 16384

noncomputable section

namespace Cert.KernelIdeal.UpdRegion1

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at an entry -/

/-- Entry (p, q) of the body's result on staged blocks is the layer's map of those blocks at (p, q): the casts to the
    narrow format are the identity on extended reals, each product into a zero accumulator is the sum of 64 products, and
    a row operand broadcast down the block reads its single row. -/
theorem body_ix (x0 x1 : Vec Ideal S10000x64 .f32) (x2 : Vec Ideal S64x64 .f32) (x3 : Vec Ideal S1x64 .f32) (x4 : Vec Ideal S64x64 .f32)
    (x5 x6 x7 x8 : Vec Ideal S1x64 .f32) (p : Fin 10000) (q : Fin 64) :
    k1_pay1 (k1_pay2 x0 x1 x2 x4 x3 x5 x6 x7 x8) (Scalar.ofBits .f32 0x00000000#32) (ix2 p q) = Cert.Sage.upd x0 x1 x2 x3 x4 x5 x6 x7 x8 (ix2 p q) := by
  rw [Cert.Sage.upd_ix2]
  unfold k1_pay1 k1_pay2
  dsimp only
  simp only [shapeCast_self, maximumf_apply, addf_apply, mulf_apply, subf_apply, broadcast_apply, truncf_apply,
    broadcastTo_1b_ab_apply, MatRow.mm64]
  rfl

/-! ## One grid point -/

/-- The body's result at an entry `j` of the block, when the staged blocks are the rows of the arrays `A0`, `A1` that the
    array index `i` names (same row for every column k, same column as `j`) and the small operands are staged whole: the
    layer's map of the ARRAYS at `i`. -/
theorem point (A0 A1 : (⟨2, ![200000, 64]⟩ : Shape).Idx → EReal)
    (W2 : (⟨2, ![64, 64]⟩ : Shape).Idx → EReal) (W3 : (⟨2, ![1, 64]⟩ : Shape).Idx → EReal) (W4 : (⟨2, ![64, 64]⟩ : Shape).Idx → EReal)
    (W5 W6 W7 W8 : (⟨2, ![1, 64]⟩ : Shape).Idx → EReal)
    (x0 x1 : Vec Ideal S10000x64 .f32) (x2 : Vec Ideal S64x64 .f32) (x3 : Vec Ideal S1x64 .f32) (x4 : Vec Ideal S64x64 .f32)
    (x5 x6 x7 x8 : Vec Ideal S1x64 .f32)
    (i : (⟨2, ![200000, 64]⟩ : Shape).Idx) (j : S10000x64.Idx)
    (h0 : ∀ k : Fin 64, x0 (ix2 ⟨(j 0).val, (j 0).isLt⟩ k) = A0 (ix2 ⟨(i 0).val, (i 0).isLt⟩ k))
    (h1 : ∀ k : Fin 64, x1 (ix2 ⟨(j 0).val, (j 0).isLt⟩ k) = A1 (ix2 ⟨(i 0).val, (i 0).isLt⟩ k))
    (h2 : x2 = W2) (h3 : x3 = W3) (h4 : x4 = W4) (h5 : x5 = W5) (h6 : x6 = W6) (h7 : x7 = W7) (h8 : x8 = W8)
    (hq : (i 1).val = (j 1).val) :
    k1_pay1 (k1_pay2 x0 x1 x2 x4 x3 x5 x6 x7 x8) (Scalar.ofBits .f32 0x00000000#32) j = Cert.Sage.upd A0 A1 W2 W3 W4 W5 W6 W7 W8 i := by
  subst h2 h3 h4 h5 h6 h7 h8
  obtain ⟨p, q, rfl⟩ : ∃ (p : Fin 10000) (q : Fin 64), j = ix2 p q := ⟨j 0, j 1, eq_ix2 j⟩
  rw [body_ix, Cert.Sage.upd_ix2]
  have hq' : (⟨(i 1).val, (i 1).isLt⟩ : Fin 64) = q := Fin.ext hq
  show _ = Cert.Sage.act x5 x6 x7 x8 ⟨(i 1).val, (i 1).isLt⟩ (Cert.Sage.preA A0 A1 x2 x4 x3 ⟨(i 0).val, (i 0).isLt⟩ ⟨(i 1).val, (i 1).isLt⟩)
  rw [hq']
  refine congrArg _ ?_
  unfold Cert.Sage.preA Cert.Sage.dot64
  have e0 : ∀ k : Fin 64, x0 (ix2 p k) = A0 (ix2 ⟨(i 0).val, (i 0).isLt⟩ k) := h0
  have e1 : ∀ k : Fin 64, x1 (ix2 p k) = A1 (ix2 ⟨(i 0).val, (i 0).isLt⟩ k) := h1
  simp only [e0, e1]

/-! ## The index maps, decided over the 20 grid points -/

theorem idx_rows : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_9.index t (1 : Fin 2) = 0 ∧ win1_9.index t (0 : Fin 2) ≤ 19 :=
  (by decide +kernel : ∀ t : Fin grid1.N, _)

theorem idx_small : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- Every block row of the output is some point's. -/
theorem idx_onto : ∀ q0 : Fin 20, ∃ t : Fin cfg1.N, win1_9.index t = ![q0.val, 0] :=
  (by decide +kernel : ∀ q0 : Fin 20, ∃ t : Fin grid1.N, win1_9.index t = ![q0.val, 0])

/-! ## The staged blocks are the arrays' rows -/

variable (V : (c : Dev nD) → (b : Ref sig .tc) → Buf (Elt Ideal) ((c : Thread nD τ).loc b))

theorem hz : (![0, 0] : Fin 2 → Nat) = fun _ => 0 := funext fun a => by fin_cases a <;> rfl

/-- Small operand 2 is staged whole at every point. -/
theorem whole2 (c : Dev nD) (t : Fin cfg1.N) : iblk1 V c 2 t = V c main_v62 := by
  funext y
  show V c main_v62 (((cfg1.win 2).blk t).view.emb y) = V c main_v62 y
  refine congrArg _ (funext fun a => Fin.ext ?_)
  have e := (idx_small t).1
  match a with
  | ⟨0, _⟩ => show win1_2.index t (0 : Fin 2) * 64 + 1 * (y 0).val = (y 0).val; rw [e.1]; omega
  | ⟨1, _⟩ => show win1_2.index t (1 : Fin 2) * 64 + 1 * (y 1).val = (y 1).val; rw [e.2]; omega

/-- Small operand 3 is staged whole at every point. -/
theorem whole3 (c : Dev nD) (t : Fin cfg1.N) : iblk1 V c 3 t = V c main_v75 := by
  funext y
  show V c main_v75 (((cfg1.win 3).blk t).view.emb y) = V c main_v75 y
  refine congrArg _ (funext fun a => Fin.ext ?_)
  have e := (idx_small t).2.1
  match a with
  | ⟨0, _⟩ => show win1_3.index t (0 : Fin 2) * 1 + 1 * (y 0).val = (y 0).val; rw [e.1]; omega
  | ⟨1, _⟩ => show win1_3.index t (1 : Fin 2) * 64 + 1 * (y 1).val = (y 1).val; rw [e.2]; omega

/-- Small operand 4 is staged whole at every point. -/
theorem whole4 (c : Dev nD) (t : Fin cfg1.N) : iblk1 V c 4 t = V c main_v66 := by
  funext y
  show V c main_v66 (((cfg1.win 4).blk t).view.emb y) = V c main_v66 y
  refine congrArg _ (funext fun a => Fin.ext ?_)
  have e := (idx_small t).2.2.1
  match a with
  | ⟨0, _⟩ => show win1_4.index t (0 : Fin 2) * 64 + 1 * (y 0).val = (y 0).val; rw [e.1]; omega
  | ⟨1, _⟩ => show win1_4.index t (1 : Fin 2) * 64 + 1 * (y 1).val = (y 1).val; rw [e.2]; omega

/-- Small operand 5 is staged whole at every point. -/
theorem whole5 (c : Dev nD) (t : Fin cfg1.N) : iblk1 V c 5 t = V c main_v76 := by
  funext y
  show V c main_v76 (((cfg1.win 5).blk t).view.emb y) = V c main_v76 y
  refine congrArg _ (funext fun a => Fin.ext ?_)
  have e := (idx_small t).2.2.2.1
  match a with
  | ⟨0, _⟩ => show win1_5.index t (0 : Fin 2) * 1 + 1 * (y 0).val = (y 0).val; rw [e.1]; omega
  | ⟨1, _⟩ => show win1_5.index t (1 : Fin 2) * 64 + 1 * (y 1).val = (y 1).val; rw [e.2]; omega

/-- Small operand 6 is staged whole at every point. -/
theorem whole6 (c : Dev nD) (t : Fin cfg1.N) : iblk1 V c 6 t = V c main_v77 := by
  funext y
  show V c main_v77 (((cfg1.win 6).blk t).view.emb y) = V c main_v77 y
  refine congrArg _ (funext fun a => Fin.ext ?_)
  have e := (idx_small t).2.2.2.2.1
  match a with
  | ⟨0, _⟩ => show win1_6.index t (0 : Fin 2) * 1 + 1 * (y 0).val = (y 0).val; rw [e.1]; omega
  | ⟨1, _⟩ => show win1_6.index t (1 : Fin 2) * 64 + 1 * (y 1).val = (y 1).val; rw [e.2]; omega

/-- Small operand 7 is staged whole at every point. -/
theorem whole7 (c : Dev nD) (t : Fin cfg1.N) : iblk1 V c 7 t = V c main_v78 := by
  funext y
  show V c main_v78 (((cfg1.win 7).blk t).view.emb y) = V c main_v78 y
  refine congrArg _ (funext fun a => Fin.ext ?_)
  have e := (idx_small t).2.2.2.2.2.1
  match a with
  | ⟨0, _⟩ => show win1_7.index t (0 : Fin 2) * 1 + 1 * (y 0).val = (y 0).val; rw [e.1]; omega
  | ⟨1, _⟩ => show win1_7.index t (1 : Fin 2) * 64 + 1 * (y 1).val = (y 1).val; rw [e.2]; omega

/-- Small operand 8 is staged whole at every point. -/
theorem whole8 (c : Dev nD) (t : Fin cfg1.N) : iblk1 V c 8 t = V c main_v79 := by
  funext y
  show V c main_v79 (((cfg1.win 8).blk t).view.emb y) = V c main_v79 y
  refine congrArg _ (funext fun a => Fin.ext ?_)
  have e := (idx_small t).2.2.2.2.2.2
  match a with
  | ⟨0, _⟩ => show win1_8.index t (0 : Fin 2) * 1 + 1 * (y 0).val = (y 0).val; rw [e.1]; omega
  | ⟨1, _⟩ => show win1_8.index t (1 : Fin 2) * 64 + 1 * (y 1).val = (y 1).val; rw [e.2]; omega

/-! ## What a point writes back -/

/-- WHAT POINT `t` WRITES BACK is block `t` of the layer's map of the arrays as the region finds them. -/
theorem flushed_eq (c : Dev nD) (t : Fin cfg1.N) :
    (dat1 V c).flushed 9 t = ((cfg1.win 9).blk t).view.read (Elt Ideal)
      (Cert.Sage.upd (n := 200000) (V c main_v40) (V c main_arg3) (V c main_v62) (V c main_v75) (V c main_v66) (V c main_v76) (V c main_v77) (V c main_v78) (V c main_v79)) := by
  show (cfg1.win 9).cut (grid1.coords t) ((dat1 V c).after 9 t) = _
  rw [after1_9]
  unfold out1_9
  rw [View.canon_unit_zero hz]
  simp only [View.ld_unit_zero (S := S10000x64) hz, View.ld_unit_zero (S := S64x64) hz, View.ld_unit_zero (S := S1x64) hz]
  obtain ⟨r0, r1, r2, r3, r4, r5⟩ := idx_rows t
  funext j
  show k1_pay1 (k1_pay2 (iblk1 V c 0 t) (iblk1 V c 1 t) (iblk1 V c 2 t) (iblk1 V c 4 t) (iblk1 V c 3 t) (iblk1 V c 5 t) (iblk1 V c 6 t) (iblk1 V c 7 t) (iblk1 V c 8 t)) (Scalar.ofBits .f32 0x00000000#32) j
      = Cert.Sage.upd (n := 200000) (V c main_v40) (V c main_arg3) (V c main_v62) (V c main_v75) (V c main_v66) (V c main_v76) (V c main_v77) (V c main_v78) (V c main_v79) (((cfg1.win 9).blk t).view.emb j)
  refine point (V c main_v40) (V c main_arg3) (V c main_v62) (V c main_v75) (V c main_v66) (V c main_v76) (V c main_v77) (V c main_v78) (V c main_v79) (iblk1 V c 0 t) (iblk1 V c 1 t) (iblk1 V c 2 t) (iblk1 V c 3 t) (iblk1 V c 4 t) (iblk1 V c 5 t) (iblk1 V c 6 t) (iblk1 V c 7 t) (iblk1 V c 8 t)
    (((cfg1.win 9).blk t).view.emb j) j
    (fun k => ?_) (fun k => ?_) (whole2 V c t) (whole3 V c t) (whole4 V c t) (whole5 V c t) (whole6 V c t) (whole7 V c t) (whole8 V c t) ?_
  · show V c main_v40 (((cfg1.win 0).blk t).view.emb (ix2 ⟨(j 0).val, (j 0).isLt⟩ k)) = _
    refine congrArg _ (funext fun a => Fin.ext ?_)
    match a with
    | ⟨0, _⟩ => show win1_0.index t (0 : Fin 2) * 10000 + 1 * (j 0).val = win1_9.index t (0 : Fin 2) * 10000 + 1 * (j 0).val; rw [r0]
    | ⟨1, _⟩ => show win1_0.index t (1 : Fin 2) * 64 + 1 * k.val = k.val; rw [r1]; omega
  · show V c main_arg3 (((cfg1.win 1).blk t).view.emb (ix2 ⟨(j 0).val, (j 0).isLt⟩ k)) = _
    refine congrArg _ (funext fun a => Fin.ext ?_)
    match a with
    | ⟨0, _⟩ => show win1_1.index t (0 : Fin 2) * 10000 + 1 * (j 0).val = win1_9.index t (0 : Fin 2) * 10000 + 1 * (j 0).val; rw [r2]
    | ⟨1, _⟩ => show win1_1.index t (1 : Fin 2) * 64 + 1 * k.val = k.val; rw [r3]; omega
  · show win1_9.index t (1 : Fin 2) * 64 + 1 * (j 1).val = (j 1).val
    rw [r4]; omega

/-! ## The blocks tile the array -/

/-- An index of the array is in point `t`'s block iff each coordinate is in the block's range on its axis. -/
theorem mem_blk (t : Fin cfg1.N) (i : S200000x64.Idx) :
    i ∈ ((cfg1.win 9).blk t).view.set ↔ ∀ a : Fin 2, win1_9.index t a * S10000x64.size a ≤ (i a).val ∧ (i a).val < win1_9.index t a * S10000x64.size a + S10000x64.size a := by
  show i ∈ ((View.whole main_v80).slice (win1_9.rect t)).set ↔ _
  rw [View.set_slice_whole, Rect.mem_set_unit]
  exact Iff.rfl

/-- Every index of the array lies in some point's block: row r in the block of point r / 10000. -/
theorem cover (i : S200000x64.Idx) :
    ∃ t : Fin cfg1.N, (cfg1.win 9).flush t = true ∧ i ∈ ((cfg1.win 9).blk t).view.set := by
  have hi0 : (i 0).val < 200000 := (i 0).isLt
  have hi1 : (i 1).val < 64 := (i 1).isLt
  obtain ⟨t, ht⟩ := idx_onto ⟨(i 0).val / 10000, by omega⟩
  have q0 : win1_9.index t (0 : Fin 2) = (i 0).val / 10000 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 10000 ≤ (i 0).val ∧ (i 0).val < win1_9.index t (0 : Fin 2) * 10000 + 10000; omega
  | ⟨1, _⟩ => show win1_9.index t (1 : Fin 2) * 64 ≤ (i 1).val ∧ (i 1).val < win1_9.index t (1 : Fin 2) * 64 + 64; omega

/-! ## The array after the region -/

/-- THE OUTPUT ARRAY after region 1: the layer's map of the nine arrays the region found. -/
theorem final (c : Dev nD) :
    (dat1 V c).arrAt 9 cfg1.N
      = Cert.Sage.upd (n := 200000) (V c main_v40) (V c main_arg3) (V c main_v62)
        (V c main_v75) (V c main_v66) (V c main_v76)
        (V c main_v77) (V c main_v78) (V c main_v79) :=
  (dat1 V c).arrAt_eq_of_cover 9 _ (fun t _ => flushed_eq V c t) cover

end Cert.KernelIdeal.UpdRegion1

end
-- ==== Proof.Wire1.lean ====
/-
  The first layer, on the kernel's side, in the reference's terms.

  What the kernel program's buffers hold at its first four segment boundaries, each stated as the reference's own stage
  of the SAME argument arrays: the host operations before the first region compute the index vectors, the degree counts
  and the two neighbourhood-mean arrays exactly as the reference does (the same operations on the same operands: the
  gathers and segment sums are never opened), and the small operands staged for a region are the reference's slices read
  as rows. With the region's array law and the reference's chain law, the first region leaves the reference's first-layer
  user features and the second its first-layer item features.
-/
import proofs.«131276_j14113262535218_1_alg».proof.Proof.Gen.KernelIdeal.Frame
import proofs.«131276_j14113262535218_1_alg».proof.Proof.RefRead
import proofs.«131276_j14113262535218_1_alg».proof.Proof.Spec
import proofs.«131276_j14113262535218_1_alg».proof.Proof.RefSide
import proofs.«131276_j14113262535218_1_alg».proof.Proof.UpdRegion0
import proofs.«131276_j14113262535218_1_alg».proof.Proof.UpdRegion1
import proofs.«131276_j14113262535218_1_alg».proof.Proof.WireArgs
import Idealize.ShloMosaic.Lib.StableHlo.Run
import Idealize.ShloMosaic.PureOps.Ideal

set_option maxRecDepth 16384
set_option maxHeartbeats 1000000

noncomputable section

namespace Cert.KernelIdeal.Wire

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

theorem v1_at1 (c : Dev nD) : W1 m ρ c (Proc.devRef .tc main_v1) = (Cert.ReferenceIdeal.Read.val_main_v1 (F := Ideal) (m ((c : Thread nD τ).loc main_arg0))) := by
  show StableHlo.after hostOps0 (W0 m ρ c) (Proc.devRef .tc main_v1) = _
  after_results_simp
  rfl

theorem v3_at1 (c : Dev nD) : W1 m ρ c (Proc.devRef .tc main_v3) = (Cert.ReferenceIdeal.Read.val_main_v3 (F := Ideal) (m ((c : Thread nD τ).loc main_arg0))) := by
  show StableHlo.after hostOps0 (W0 m ρ c) (Proc.devRef .tc main_v3) = _
  after_results_simp
  rfl

theorem v10_at1 (c : Dev nD) : W1 m ρ c (Proc.devRef .tc main_v10) = (Cert.ReferenceIdeal.Read.val_main_v20 (F := Ideal) (m ((c : Thread nD τ).loc main_arg0))) := by
  show StableHlo.after hostOps0 (W0 m ρ c) (Proc.devRef .tc main_v10) = _
  after_results_simp
  rfl

theorem v16_at1 (c : Dev nD) : W1 m ρ c (Proc.devRef .tc main_v16) = (Cert.ReferenceIdeal.Read.val_main_v75 (F := Ideal) (m ((c : Thread nD τ).loc main_arg0))) := by
  show StableHlo.after hostOps0 (W0 m ρ c) (Proc.devRef .tc main_v16) = _
  after_results_simp
  rfl

theorem v28_at1 (c : Dev nD) : W1 m ρ c (Proc.devRef .tc main_v28) = (Cert.ReferenceIdeal.Read.val_main_v22 (F := Ideal) (m ((c : Thread nD τ).loc main_arg0)) (m ((c : Thread nD τ).loc main_arg3))) := by
  show StableHlo.after hostOps0 (W0 m ρ c) (Proc.devRef .tc main_v28) = _
  after_results_simp
  rfl

theorem v40_at1 (c : Dev nD) : W1 m ρ c (Proc.devRef .tc main_v40) = (Cert.ReferenceIdeal.Read.val_main_v77 (F := Ideal) (m ((c : Thread nD τ).loc main_arg0)) (m ((c : Thread nD τ).loc main_arg2))) := by
  show StableHlo.after hostOps0 (W0 m ρ c) (Proc.devRef .tc main_v40) = _
  after_results_simp
  rfl

theorem v42_at1 (c : Dev nD) : W1 m ρ c (Proc.devRef .tc main_v42) = (Cert.ReferenceIdeal.Read.val_main_v24 (F := Ideal) (m ((c : Thread nD τ).loc main_arg4))) := by
  show StableHlo.after hostOps0 (W0 m ρ c) (Proc.devRef .tc main_v42) = _
  after_results_simp
  rfl

theorem v46_at1 (c : Dev nD) : W1 m ρ c (Proc.devRef .tc main_v46) = (Cert.ReferenceIdeal.Read.val_main_v32 (F := Ideal) (m ((c : Thread nD τ).loc main_arg6))) := by
  show StableHlo.after hostOps0 (W0 m ρ c) (Proc.devRef .tc main_v46) = _
  after_results_simp
  rfl

theorem v55_at1 (c : Dev nD) : W1 m ρ c (Proc.devRef .tc main_v55) = (Cert.Sage.row (Cert.ReferenceIdeal.Read.val_main_v27 (F := Ideal) (m ((c : Thread nD τ).loc main_arg5)))) := by
  show StableHlo.after hostOps0 (W0 m ρ c) (Proc.devRef .tc main_v55) = _
  after_results_simp
  refine Eq.trans ?_ (reshape_row (n := 64) (Cert.ReferenceIdeal.Read.val_main_v27 (F := Ideal) (m ((c : Thread nD τ).loc main_arg5))) shapeCasts_S64_S1x64)
  rfl

theorem v56_at1 (c : Dev nD) : W1 m ρ c (Proc.devRef .tc main_v56) = (Cert.Sage.row (Cert.ReferenceIdeal.Read.val_main_v36 (F := Ideal) (m ((c : Thread nD τ).loc main_arg10)))) := by
  show StableHlo.after hostOps0 (W0 m ρ c) (Proc.devRef .tc main_v56) = _
  after_results_simp
  refine Eq.trans ?_ (reshape_row (n := 64) (Cert.ReferenceIdeal.Read.val_main_v36 (F := Ideal) (m ((c : Thread nD τ).loc main_arg10))) shapeCasts_S64_S1x64)
  rfl

theorem v57_at1 (c : Dev nD) : W1 m ρ c (Proc.devRef .tc main_v57) = (Cert.Sage.row (Cert.ReferenceIdeal.Read.val_main_v38 (F := Ideal) (m ((c : Thread nD τ).loc main_arg11)))) := by
  show StableHlo.after hostOps0 (W0 m ρ c) (Proc.devRef .tc main_v57) = _
  after_results_simp
  refine Eq.trans ?_ (reshape_row (n := 64) (Cert.ReferenceIdeal.Read.val_main_v38 (F := Ideal) (m ((c : Thread nD τ).loc main_arg11))) shapeCasts_S64_S1x64)
  rfl

theorem v58_at1 (c : Dev nD) : W1 m ρ c (Proc.devRef .tc main_v58) = (Cert.Sage.row (Cert.ReferenceIdeal.Read.val_main_v40 (F := Ideal) (m ((c : Thread nD τ).loc main_arg12)))) := by
  show StableHlo.after hostOps0 (W0 m ρ c) (Proc.devRef .tc main_v58) = _
  after_results_simp
  refine Eq.trans ?_ (reshape_row (n := 64) (Cert.ReferenceIdeal.Read.val_main_v40 (F := Ideal) (m ((c : Thread nD τ).loc main_arg12))) shapeCasts_S64_S1x64)
  rfl

theorem v59_at1 (c : Dev nD) : W1 m ρ c (Proc.devRef .tc main_v59) = (Cert.Sage.row (Cert.ReferenceIdeal.Read.val_main_v42 (F := Ideal) (m ((c : Thread nD τ).loc main_arg13)))) := by
  show StableHlo.after hostOps0 (W0 m ρ c) (Proc.devRef .tc main_v59) = _
  after_results_simp
  refine Eq.trans ?_ (reshape_row (n := 64) (Cert.ReferenceIdeal.Read.val_main_v42 (F := Ideal) (m ((c : Thread nD τ).loc main_arg13))) shapeCasts_S64_S1x64)
  rfl

theorem arg2_at1 (c : Dev nD) : W1 m ρ c (Proc.devRef .tc main_arg2) = (m ((c : Thread nD τ).loc main_arg2)) := by
  show StableHlo.after hostOps0 (W0 m ρ c) (Proc.devRef .tc main_arg2) = _
  after_results_simp <;> rfl

theorem x1u_at2 (c : Dev nD) : W2 m ρ c (Proc.devRef .tc main_v60) = (Cert.ReferenceIdeal.Read.val_main_v58 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13))) := by
  refine (W2_arr m ρ c 9).trans ?_
  rw [UpdRegion0.final (V1 m ρ) c]
  show Cert.Sage.upd (n := 200000) (W1 m ρ c (Proc.devRef .tc main_v28)) (W1 m ρ c (Proc.devRef .tc main_arg2)) (W1 m ρ c (Proc.devRef .tc main_v42)) (W1 m ρ c (Proc.devRef .tc main_v55)) (W1 m ρ c (Proc.devRef .tc main_v46)) (W1 m ρ c (Proc.devRef .tc main_v56)) (W1 m ρ c (Proc.devRef .tc main_v57)) (W1 m ρ c (Proc.devRef .tc main_v58)) (W1 m ρ c (Proc.devRef .tc main_v59)) = _
  rw [v28_at1 m ρ c, arg2_at1 m ρ c, v42_at1 m ρ c, v55_at1 m ρ c, v46_at1 m ρ c, v56_at1 m ρ c, v57_at1 m ρ c, v58_at1 m ρ c, v59_at1 m ρ c]
  exact (Cert.Sage.Ref.upd_u0 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13))).symm

theorem v40_at2 (c : Dev nD) : W2 m ρ c (Proc.devRef .tc main_v40) = (Cert.ReferenceIdeal.Read.val_main_v77 (F := Ideal) (m ((c : Thread nD τ).loc main_arg0)) (m ((c : Thread nD τ).loc main_arg2))) :=
  (W2_of_ne m ρ c main_v40 (by decide)).trans (v40_at1 m ρ c)

theorem v40_at3 (c : Dev nD) : W3 m ρ c (Proc.devRef .tc main_v40) = (Cert.ReferenceIdeal.Read.val_main_v77 (F := Ideal) (m ((c : Thread nD τ).loc main_arg0)) (m ((c : Thread nD τ).loc main_arg2))) :=
  (show StableHlo.after hostOps1 (W2 m ρ c) (Proc.devRef .tc main_v40) = W2 m ρ c (Proc.devRef .tc main_v40) from by after_results_simp <;> rfl).trans (v40_at2 m ρ c)

theorem v1_at2 (c : Dev nD) : W2 m ρ c (Proc.devRef .tc main_v1) = (Cert.ReferenceIdeal.Read.val_main_v1 (F := Ideal) (m ((c : Thread nD τ).loc main_arg0))) :=
  (W2_of_ne m ρ c main_v1 (by decide)).trans (v1_at1 m ρ c)

theorem v1_at3 (c : Dev nD) : W3 m ρ c (Proc.devRef .tc main_v1) = (Cert.ReferenceIdeal.Read.val_main_v1 (F := Ideal) (m ((c : Thread nD τ).loc main_arg0))) :=
  (show StableHlo.after hostOps1 (W2 m ρ c) (Proc.devRef .tc main_v1) = W2 m ρ c (Proc.devRef .tc main_v1) from by after_results_simp <;> rfl).trans (v1_at2 m ρ c)

theorem v1_at4 (c : Dev nD) : W4 m ρ c (Proc.devRef .tc main_v1) = (Cert.ReferenceIdeal.Read.val_main_v1 (F := Ideal) (m ((c : Thread nD τ).loc main_arg0))) :=
  (W4_of_ne m ρ c main_v1 (by decide)).trans (v1_at3 m ρ c)

theorem v3_at2 (c : Dev nD) : W2 m ρ c (Proc.devRef .tc main_v3) = (Cert.ReferenceIdeal.Read.val_main_v3 (F := Ideal) (m ((c : Thread nD τ).loc main_arg0))) :=
  (W2_of_ne m ρ c main_v3 (by decide)).trans (v3_at1 m ρ c)

theorem v3_at3 (c : Dev nD) : W3 m ρ c (Proc.devRef .tc main_v3) = (Cert.ReferenceIdeal.Read.val_main_v3 (F := Ideal) (m ((c : Thread nD τ).loc main_arg0))) :=
  (show StableHlo.after hostOps1 (W2 m ρ c) (Proc.devRef .tc main_v3) = W2 m ρ c (Proc.devRef .tc main_v3) from by after_results_simp <;> rfl).trans (v3_at2 m ρ c)

theorem v3_at4 (c : Dev nD) : W4 m ρ c (Proc.devRef .tc main_v3) = (Cert.ReferenceIdeal.Read.val_main_v3 (F := Ideal) (m ((c : Thread nD τ).loc main_arg0))) :=
  (W4_of_ne m ρ c main_v3 (by decide)).trans (v3_at3 m ρ c)

theorem v10_at2 (c : Dev nD) : W2 m ρ c (Proc.devRef .tc main_v10) = (Cert.ReferenceIdeal.Read.val_main_v20 (F := Ideal) (m ((c : Thread nD τ).loc main_arg0))) :=
  (W2_of_ne m ρ c main_v10 (by decide)).trans (v10_at1 m ρ c)

theorem v10_at3 (c : Dev nD) : W3 m ρ c (Proc.devRef .tc main_v10) = (Cert.ReferenceIdeal.Read.val_main_v20 (F := Ideal) (m ((c : Thread nD τ).loc main_arg0))) :=
  (show StableHlo.after hostOps1 (W2 m ρ c) (Proc.devRef .tc main_v10) = W2 m ρ c (Proc.devRef .tc main_v10) from by after_results_simp <;> rfl).trans (v10_at2 m ρ c)

theorem v10_at4 (c : Dev nD) : W4 m ρ c (Proc.devRef .tc main_v10) = (Cert.ReferenceIdeal.Read.val_main_v20 (F := Ideal) (m ((c : Thread nD τ).loc main_arg0))) :=
  (W4_of_ne m ρ c main_v10 (by decide)).trans (v10_at3 m ρ c)

theorem v16_at2 (c : Dev nD) : W2 m ρ c (Proc.devRef .tc main_v16) = (Cert.ReferenceIdeal.Read.val_main_v75 (F := Ideal) (m ((c : Thread nD τ).loc main_arg0))) :=
  (W2_of_ne m ρ c main_v16 (by decide)).trans (v16_at1 m ρ c)

theorem v16_at3 (c : Dev nD) : W3 m ρ c (Proc.devRef .tc main_v16) = (Cert.ReferenceIdeal.Read.val_main_v75 (F := Ideal) (m ((c : Thread nD τ).loc main_arg0))) :=
  (show StableHlo.after hostOps1 (W2 m ρ c) (Proc.devRef .tc main_v16) = W2 m ρ c (Proc.devRef .tc main_v16) from by after_results_simp <;> rfl).trans (v16_at2 m ρ c)

theorem v16_at4 (c : Dev nD) : W4 m ρ c (Proc.devRef .tc main_v16) = (Cert.ReferenceIdeal.Read.val_main_v75 (F := Ideal) (m ((c : Thread nD τ).loc main_arg0))) :=
  (W4_of_ne m ρ c main_v16 (by decide)).trans (v16_at3 m ρ c)

theorem x1u_at3 (c : Dev nD) : W3 m ρ c (Proc.devRef .tc main_v60) = (Cert.ReferenceIdeal.Read.val_main_v58 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13))) :=
  (show StableHlo.after hostOps1 (W2 m ρ c) (Proc.devRef .tc main_v60) = W2 m ρ c (Proc.devRef .tc main_v60) from by after_results_simp <;> rfl).trans (x1u_at2 m ρ c)

theorem x1u_at4 (c : Dev nD) : W4 m ρ c (Proc.devRef .tc main_v60) = (Cert.ReferenceIdeal.Read.val_main_v58 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13))) :=
  (W4_of_ne m ρ c main_v60 (by decide)).trans (x1u_at3 m ρ c)

theorem v62_at3 (c : Dev nD) : W3 m ρ c (Proc.devRef .tc main_v62) = (Cert.ReferenceIdeal.Read.val_main_v79 (F := Ideal) (m ((c : Thread nD τ).loc main_arg7))) := by
  show StableHlo.after hostOps1 (W2 m ρ c) (Proc.devRef .tc main_v62) = _
  after_results_simp
  rw [arg7_at2 m ρ c]
  rfl

theorem v66_at3 (c : Dev nD) : W3 m ρ c (Proc.devRef .tc main_v66) = (Cert.ReferenceIdeal.Read.val_main_v87 (F := Ideal) (m ((c : Thread nD τ).loc main_arg9))) := by
  show StableHlo.after hostOps1 (W2 m ρ c) (Proc.devRef .tc main_v66) = _
  after_results_simp
  rw [arg9_at2 m ρ c]
  rfl

theorem v75_at3 (c : Dev nD) : W3 m ρ c (Proc.devRef .tc main_v75) = (Cert.Sage.row (Cert.ReferenceIdeal.Read.val_main_v82 (F := Ideal) (m ((c : Thread nD τ).loc main_arg8)))) := by
  show StableHlo.after hostOps1 (W2 m ρ c) (Proc.devRef .tc main_v75) = _
  after_results_simp
  rw [arg8_at2 m ρ c]
  refine Eq.trans ?_ (reshape_row (n := 64) (Cert.ReferenceIdeal.Read.val_main_v82 (F := Ideal) (m ((c : Thread nD τ).loc main_arg8))) shapeCasts_S64_S1x64)
  rfl

theorem v76_at3 (c : Dev nD) : W3 m ρ c (Proc.devRef .tc main_v76) = (Cert.Sage.row (Cert.ReferenceIdeal.Read.val_main_v91 (F := Ideal) (m ((c : Thread nD τ).loc main_arg14)))) := by
  show StableHlo.after hostOps1 (W2 m ρ c) (Proc.devRef .tc main_v76) = _
  after_results_simp
  rw [arg14_at2 m ρ c]
  refine Eq.trans ?_ (reshape_row (n := 64) (Cert.ReferenceIdeal.Read.val_main_v91 (F := Ideal) (m ((c : Thread nD τ).loc main_arg14))) shapeCasts_S64_S1x64)
  rfl

theorem v77_at3 (c : Dev nD) : W3 m ρ c (Proc.devRef .tc main_v77) = (Cert.Sage.row (Cert.ReferenceIdeal.Read.val_main_v93 (F := Ideal) (m ((c : Thread nD τ).loc main_arg15)))) := by
  show StableHlo.after hostOps1 (W2 m ρ c) (Proc.devRef .tc main_v77) = _
  after_results_simp
  rw [arg15_at2 m ρ c]
  refine Eq.trans ?_ (reshape_row (n := 64) (Cert.ReferenceIdeal.Read.val_main_v93 (F := Ideal) (m ((c : Thread nD τ).loc main_arg15))) shapeCasts_S64_S1x64)
  rfl

theorem v78_at3 (c : Dev nD) : W3 m ρ c (Proc.devRef .tc main_v78) = (Cert.Sage.row (Cert.ReferenceIdeal.Read.val_main_v95 (F := Ideal) (m ((c : Thread nD τ).loc main_arg16)))) := by
  show StableHlo.after hostOps1 (W2 m ρ c) (Proc.devRef .tc main_v78) = _
  after_results_simp
  rw [arg16_at2 m ρ c]
  refine Eq.trans ?_ (reshape_row (n := 64) (Cert.ReferenceIdeal.Read.val_main_v95 (F := Ideal) (m ((c : Thread nD τ).loc main_arg16))) shapeCasts_S64_S1x64)
  rfl

theorem v79_at3 (c : Dev nD) : W3 m ρ c (Proc.devRef .tc main_v79) = (Cert.Sage.row (Cert.ReferenceIdeal.Read.val_main_v97 (F := Ideal) (m ((c : Thread nD τ).loc main_arg17)))) := by
  show StableHlo.after hostOps1 (W2 m ρ c) (Proc.devRef .tc main_v79) = _
  after_results_simp
  rw [arg17_at2 m ρ c]
  refine Eq.trans ?_ (reshape_row (n := 64) (Cert.ReferenceIdeal.Read.val_main_v97 (F := Ideal) (m ((c : Thread nD τ).loc main_arg17))) shapeCasts_S64_S1x64)
  rfl

theorem x1i_at4 (c : Dev nD) : W4 m ρ c (Proc.devRef .tc main_v80) = (Cert.ReferenceIdeal.Read.val_main_v113 (F := Ideal) (m ((c : Thread nD τ).loc main_arg0)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17))) := by
  refine (W4_arr m ρ c 9).trans ?_
  rw [UpdRegion1.final (V3 m ρ) c]
  show Cert.Sage.upd (n := 200000) (W3 m ρ c (Proc.devRef .tc main_v40)) (W3 m ρ c (Proc.devRef .tc main_arg3)) (W3 m ρ c (Proc.devRef .tc main_v62)) (W3 m ρ c (Proc.devRef .tc main_v75)) (W3 m ρ c (Proc.devRef .tc main_v66)) (W3 m ρ c (Proc.devRef .tc main_v76)) (W3 m ρ c (Proc.devRef .tc main_v77)) (W3 m ρ c (Proc.devRef .tc main_v78)) (W3 m ρ c (Proc.devRef .tc main_v79)) = _
  rw [v40_at3 m ρ c, arg3_at3 m ρ c, v62_at3 m ρ c, v75_at3 m ρ c, v66_at3 m ρ c, v76_at3 m ρ c, v77_at3 m ρ c, v78_at3 m ρ c, v79_at3 m ρ c]
  exact (Cert.Sage.Ref.upd_i0 (m ((c : Thread nD τ).loc main_arg0)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17))).symm

end Cert.KernelIdeal.Wire

end
-- ==== Proof.UpdRegion2.lean ====
/-
  Update region 2: what its output array holds when the region has run, as ONE function of the arrays the region found.

  The region walks 20 grid points. Point t stages rows [10000·t, 10000·t + 10000) of the two row-blocked operands (the
  neighbourhood means and the side's own features), the seven small operands whole (two 64×64 weight matrices, the bias
  row, and the scale, shift, mean and variance rows of the normalisation), runs the body on them, and writes the result
  back to the same rows of the output. Entry (p, q) of the body's result depends on row p of each row-blocked operand
  and column q of each small one: it is the layer's map (the shared specification) of the staged rows. Since the
  staged rows of point t ARE rows 10000·t + p of the arrays, what point t writes back is block t of the layer's map of
  the whole arrays; the 20 blocks tile the 200000 rows (row r lies in block r / 10000), so the array ends as that map.
-/
import proofs.«131276_j14113262535218_1_alg».proof.Proof.Gen.KernelIdeal.Frame
import proofs.«131276_j14113262535218_1_alg».proof.Proof.Spec
import proofs.«131276_j14113262535218_1_alg».proof.Proof.MatRow
import Idealize.ShloMosaic.Lib.Pipeline.Value
import Idealize.ShloMosaic.Lib.ValueIdx
import Idealize.ShloMosaic.Lib.ValueLayout

set_option maxRecDepth 16384

noncomputable section

namespace Cert.KernelIdeal.UpdRegion2

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at an entry -/

/-- Entry (p, q) of the body's result on staged blocks is the layer's map of those blocks at (p, q): the casts to the
    narrow format are the identity on extended reals, each product into a zero accumulator is the sum of 64 products, and
    a row operand broadcast down the block reads its single row. -/
theorem body_ix (x0 x1 : Vec Ideal S10000x64 .f32) (x2 : Vec Ideal S64x64 .f32) (x3 : Vec Ideal S1x64 .f32) (x4 : Vec Ideal S64x64 .f32)
    (x5 x6 x7 x8 : Vec Ideal S1x64 .f32) (p : Fin 10000) (q : Fin 64) :
    k2_pay1 (k2_pay2 x0 x1 x2 x4 x3 x5 x6 x7 x8) (ix2 p q) = Cert.Sage.upd x0 x1 x2 x3 x4 x5 x6 x7 x8 (ix2 p q) := by
  rw [Cert.Sage.upd_ix2]
  unfold k2_pay1 k2_pay2
  dsimp only
  simp only [shapeCast_self, maximumf_apply, addf_apply, mulf_apply, subf_apply, broadcast_apply, truncf_apply,
    broadcastTo_1b_ab_apply, MatRow.mm64]
  rfl

/-! ## One grid point -/

/-- The body's result at an entry `j` of the block, when the staged blocks are the rows of the arrays `A0`, `A1` that the
    array index `i` names (same row for every column k, same column as `j`) and the small operands are staged whole: the
    layer's map of the ARRAYS at `i`. -/
theorem point (A0 A1 : (⟨2, ![200000, 64]⟩ : Shape).Idx → EReal)
    (W2 : (⟨2, ![64, 64]⟩ : Shape).Idx → EReal) (W3 : (⟨2, ![1, 64]⟩ : Shape).Idx → EReal) (W4 : (⟨2, ![64, 64]⟩ : Shape).Idx → EReal)
    (W5 W6 W7 W8 : (⟨2, ![1, 64]⟩ : Shape).Idx → EReal)
    (x0 x1 : Vec Ideal S10000x64 .f32) (x2 : Vec Ideal S64x64 .f32) (x3 : Vec Ideal S1x64 .f32) (x4 : Vec Ideal S64x64 .f32)
    (x5 x6 x7 x8 : Vec Ideal S1x64 .f32)
    (i : (⟨2, ![200000, 64]⟩ : Shape).Idx) (j : S10000x64.Idx)
    (h0 : ∀ k : Fin 64, x0 (ix2 ⟨(j 0).val, (j 0).isLt⟩ k) = A0 (ix2 ⟨(i 0).val, (i 0).isLt⟩ k))
    (h1 : ∀ k : Fin 64, x1 (ix2 ⟨(j 0).val, (j 0).isLt⟩ k) = A1 (ix2 ⟨(i 0).val, (i 0).isLt⟩ k))
    (h2 : x2 = W2) (h3 : x3 = W3) (h4 : x4 = W4) (h5 : x5 = W5) (h6 : x6 = W6) (h7 : x7 = W7) (h8 : x8 = W8)
    (hq : (i 1).val = (j 1).val) :
    k2_pay1 (k2_pay2 x0 x1 x2 x4 x3 x5 x6 x7 x8) j = Cert.Sage.upd A0 A1 W2 W3 W4 W5 W6 W7 W8 i := by
  subst h2 h3 h4 h5 h6 h7 h8
  obtain ⟨p, q, rfl⟩ : ∃ (p : Fin 10000) (q : Fin 64), j = ix2 p q := ⟨j 0, j 1, eq_ix2 j⟩
  rw [body_ix, Cert.Sage.upd_ix2]
  have hq' : (⟨(i 1).val, (i 1).isLt⟩ : Fin 64) = q := Fin.ext hq
  show _ = Cert.Sage.act x5 x6 x7 x8 ⟨(i 1).val, (i 1).isLt⟩ (Cert.Sage.preA A0 A1 x2 x4 x3 ⟨(i 0).val, (i 0).isLt⟩ ⟨(i 1).val, (i 1).isLt⟩)
  rw [hq']
  refine congrArg _ ?_
  unfold Cert.Sage.preA Cert.Sage.dot64
  have e0 : ∀ k : Fin 64, x0 (ix2 p k) = A0 (ix2 ⟨(i 0).val, (i 0).isLt⟩ k) := h0
  have e1 : ∀ k : Fin 64, x1 (ix2 p k) = A1 (ix2 ⟨(i 0).val, (i 0).isLt⟩ k) := h1
  simp only [e0, e1]

/-! ## The index maps, decided over the 20 grid points -/

theorem idx_rows : ∀ t : Fin cfg2.N,
    win2_0.index t (0 : Fin 2) = win2_9.index t (0 : Fin 2) ∧ win2_0.index t (1 : Fin 2) = 0
    ∧ win2_1.index t (0 : Fin 2) = win2_9.index t (0 : Fin 2) ∧ win2_1.index t (1 : Fin 2) = 0
    ∧ win2_9.index t (1 : Fin 2) = 0 ∧ win2_9.index t (0 : Fin 2) ≤ 19 :=
  (by decide +kernel : ∀ t : Fin grid2.N, _)

theorem idx_small : ∀ t : Fin cfg2.N,
    (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

/-- Every block row of the output is some point's. -/
theorem idx_onto : ∀ q0 : Fin 20, ∃ t : Fin cfg2.N, win2_9.index t = ![q0.val, 0] :=
  (by decide +kernel : ∀ q0 : Fin 20, ∃ t : Fin grid2.N, win2_9.index t = ![q0.val, 0])

/-! ## The staged blocks are the arrays' rows -/

variable (V : (c : Dev nD) → (b : Ref sig .tc) → Buf (Elt Ideal) ((c : Thread nD τ).loc b))

theorem hz : (![0, 0] : Fin 2 → Nat) = fun _ => 0 := funext fun a => by fin_cases a <;> rfl

/-- Small operand 2 is staged whole at every point. -/
theorem whole2 (c : Dev nD) (t : Fin cfg2.N) : iblk2 V c 2 t = V c main_v106 := by
  funext y
  show V c main_v106 (((cfg2.win 2).blk t).view.emb y) = V c main_v106 y
  refine congrArg _ (funext fun a => Fin.ext ?_)
  have e := (idx_small t).1
  match a with
  | ⟨0, _⟩ => show win2_2.index t (0 : Fin 2) * 64 + 1 * (y 0).val = (y 0).val; rw [e.1]; omega
  | ⟨1, _⟩ => show win2_2.index t (1 : Fin 2) * 64 + 1 * (y 1).val = (y 1).val; rw [e.2]; omega

/-- Small operand 3 is staged whole at every point. -/
theorem whole3 (c : Dev nD) (t : Fin cfg2.N) : iblk2 V c 3 t = V c main_v119 := by
  funext y
  show V c main_v119 (((cfg2.win 3).blk t).view.emb y) = V c main_v119 y
  refine congrArg _ (funext fun a => Fin.ext ?_)
  have e := (idx_small t).2.1
  match a with
  | ⟨0, _⟩ => show win2_3.index t (0 : Fin 2) * 1 + 1 * (y 0).val = (y 0).val; rw [e.1]; omega
  | ⟨1, _⟩ => show win2_3.index t (1 : Fin 2) * 64 + 1 * (y 1).val = (y 1).val; rw [e.2]; omega

/-- Small operand 4 is staged whole at every point. -/
theorem whole4 (c : Dev nD) (t : Fin cfg2.N) : iblk2 V c 4 t = V c main_v110 := by
  funext y
  show V c main_v110 (((cfg2.win 4).blk t).view.emb y) = V c main_v110 y
  refine congrArg _ (funext fun a => Fin.ext ?_)
  have e := (idx_small t).2.2.1
  match a with
  | ⟨0, _⟩ => show win2_4.index t (0 : Fin 2) * 64 + 1 * (y 0).val = (y 0).val; rw [e.1]; omega
  | ⟨1, _⟩ => show win2_4.index t (1 : Fin 2) * 64 + 1 * (y 1).val = (y 1).val; rw [e.2]; omega

/-- Small operand 5 is staged whole at every point. -/
theorem whole5 (c : Dev nD) (t : Fin cfg2.N) : iblk2 V c 5 t = V c main_v120 := by
  funext y
  show V c main_v120 (((cfg2.win 5).blk t).view.emb y) = V c main_v120 y
  refine congrArg _ (funext fun a => Fin.ext ?_)
  have e := (idx_small t).2.2.2.1
  match a with
  | ⟨0, _⟩ => show win2_5.index t (0 : Fin 2) * 1 + 1 * (y 0).val = (y 0).val; rw [e.1]; omega
  | ⟨1, _⟩ => show win2_5.index t (1 : Fin 2) * 64 + 1 * (y 1).val = (y 1).val; rw [e.2]; omega

/-- Small operand 6 is staged whole at every point. -/
theorem whole6 (c : Dev nD) (t : Fin cfg2.N) : iblk2 V c 6 t = V c main_v121 := by
  funext y
  show V c main_v121 (((cfg2.win 6).blk t).view.emb y) = V c main_v121 y
  refine congrArg _ (funext fun a => Fin.ext ?_)
  have e := (idx_small t).2.2.2.2.1
  match a with
  | ⟨0, _⟩ => show win2_6.index t (0 : Fin 2) * 1 + 1 * (y 0).val = (y 0).val; rw [e.1]; omega
  | ⟨1, _⟩ => show win2_6.index t (1 : Fin 2) * 64 + 1 * (y 1).val = (y 1).val; rw [e.2]; omega

/-- Small operand 7 is staged whole at every point. -/
theorem whole7 (c : Dev nD) (t : Fin cfg2.N) : iblk2 V c 7 t = V c main_v122 := by
  funext y
  show V c main_v122 (((cfg2.win 7).blk t).view.emb y) = V c main_v122 y
  refine congrArg _ (funext fun a => Fin.ext ?_)
  have e := (idx_small t).2.2.2.2.2.1
  match a with
  | ⟨0, _⟩ => show win2_7.index t (0 : Fin 2) * 1 + 1 * (y 0).val = (y 0).val; rw [e.1]; omega
  | ⟨1, _⟩ => show win2_7.index t (1 : Fin 2) * 64 + 1 * (y 1).val = (y 1).val; rw [e.2]; omega

/-- Small operand 8 is staged whole at every point. -/
theorem whole8 (c : Dev nD) (t : Fin cfg2.N) : iblk2 V c 8 t = V c main_v123 := by
  funext y
  show V c main_v123 (((cfg2.win 8).blk t).view.emb y) = V c main_v123 y
  refine congrArg _ (funext fun a => Fin.ext ?_)
  have e := (idx_small t).2.2.2.2.2.2
  match a with
  | ⟨0, _⟩ => show win2_8.index t (0 : Fin 2) * 1 + 1 * (y 0).val = (y 0).val; rw [e.1]; omega
  | ⟨1, _⟩ => show win2_8.index t (1 : Fin 2) * 64 + 1 * (y 1).val = (y 1).val; rw [e.2]; omega

/-! ## What a point writes back -/

/-- WHAT POINT `t` WRITES BACK is block `t` of the layer's map of the arrays as the region finds them. -/
theorem flushed_eq (c : Dev nD) (t : Fin cfg2.N) :
    (dat2 V c).flushed 9 t = ((cfg2.win 9).blk t).view.read (Elt Ideal)
      (Cert.Sage.upd (n := 200000) (V c main_v92) (V c main_v60) (V c main_v106) (V c main_v119) (V c main_v110) (V c main_v120) (V c main_v121) (V c main_v122) (V c main_v123)) := by
  show (cfg2.win 9).cut (grid2.coords t) ((dat2 V c).after 9 t) = _
  rw [after2_9]
  unfold out2_9
  rw [View.canon_unit_zero hz]
  simp only [View.ld_unit_zero (S := S10000x64) hz, View.ld_unit_zero (S := S64x64) hz, View.ld_unit_zero (S := S1x64) hz]
  obtain ⟨r0, r1, r2, r3, r4, r5⟩ := idx_rows t
  funext j
  show k2_pay1 (k2_pay2 (iblk2 V c 0 t) (iblk2 V c 1 t) (iblk2 V c 2 t) (iblk2 V c 4 t) (iblk2 V c 3 t) (iblk2 V c 5 t) (iblk2 V c 6 t) (iblk2 V c 7 t) (iblk2 V c 8 t)) j
      = Cert.Sage.upd (n := 200000) (V c main_v92) (V c main_v60) (V c main_v106) (V c main_v119) (V c main_v110) (V c main_v120) (V c main_v121) (V c main_v122) (V c main_v123) (((cfg2.win 9).blk t).view.emb j)
  refine point (V c main_v92) (V c main_v60) (V c main_v106) (V c main_v119) (V c main_v110) (V c main_v120) (V c main_v121) (V c main_v122) (V c main_v123) (iblk2 V c 0 t) (iblk2 V c 1 t) (iblk2 V c 2 t) (iblk2 V c 3 t) (iblk2 V c 4 t) (iblk2 V c 5 t) (iblk2 V c 6 t) (iblk2 V c 7 t) (iblk2 V c 8 t)
    (((cfg2.win 9).blk t).view.emb j) j
    (fun k => ?_) (fun k => ?_) (whole2 V c t) (whole3 V c t) (whole4 V c t) (whole5 V c t) (whole6 V c t) (whole7 V c t) (whole8 V c t) ?_
  · show V c main_v92 (((cfg2.win 0).blk t).view.emb (ix2 ⟨(j 0).val, (j 0).isLt⟩ k)) = _
    refine congrArg _ (funext fun a => Fin.ext ?_)
    match a with
    | ⟨0, _⟩ => show win2_0.index t (0 : Fin 2) * 10000 + 1 * (j 0).val = win2_9.index t (0 : Fin 2) * 10000 + 1 * (j 0).val; rw [r0]
    | ⟨1, _⟩ => show win2_0.index t (1 : Fin 2) * 64 + 1 * k.val = k.val; rw [r1]; omega
  · show V c main_v60 (((cfg2.win 1).blk t).view.emb (ix2 ⟨(j 0).val, (j 0).isLt⟩ k)) = _
    refine congrArg _ (funext fun a => Fin.ext ?_)
    match a with
    | ⟨0, _⟩ => show win2_1.index t (0 : Fin 2) * 10000 + 1 * (j 0).val = win2_9.index t (0 : Fin 2) * 10000 + 1 * (j 0).val; rw [r2]
    | ⟨1, _⟩ => show win2_1.index t (1 : Fin 2) * 64 + 1 * k.val = k.val; rw [r3]; omega
  · show win2_9.index t (1 : Fin 2) * 64 + 1 * (j 1).val = (j 1).val
    rw [r4]; omega

/-! ## The blocks tile the array -/

/-- An index of the array is in point `t`'s block iff each coordinate is in the block's range on its axis. -/
theorem mem_blk (t : Fin cfg2.N) (i : S200000x64.Idx) :
    i ∈ ((cfg2.win 9).blk t).view.set ↔ ∀ a : Fin 2, win2_9.index t a * S10000x64.size a ≤ (i a).val ∧ (i a).val < win2_9.index t a * S10000x64.size a + S10000x64.size a := by
  show i ∈ ((View.whole main_v124).slice (win2_9.rect t)).set ↔ _
  rw [View.set_slice_whole, Rect.mem_set_unit]
  exact Iff.rfl

/-- Every index of the array lies in some point's block: row r in the block of point r / 10000. -/
theorem cover (i : S200000x64.Idx) :
    ∃ t : Fin cfg2.N, (cfg2.win 9).flush t = true ∧ i ∈ ((cfg2.win 9).blk t).view.set := by
  have hi0 : (i 0).val < 200000 := (i 0).isLt
  have hi1 : (i 1).val < 64 := (i 1).isLt
  obtain ⟨t, ht⟩ := idx_onto ⟨(i 0).val / 10000, by omega⟩
  have q0 : win2_9.index t (0 : Fin 2) = (i 0).val / 10000 := congrFun ht 0
  have q1 : win2_9.index t (1 : Fin 2) = 0 := congrFun ht 1
  refine ⟨t, flush2_9 t, ?_⟩
  rw [mem_blk]
  intro a
  match a with
  | ⟨0, _⟩ => show win2_9.index t (0 : Fin 2) * 10000 ≤ (i 0).val ∧ (i 0).val < win2_9.index t (0 : Fin 2) * 10000 + 10000; omega
  | ⟨1, _⟩ => show win2_9.index t (1 : Fin 2) * 64 ≤ (i 1).val ∧ (i 1).val < win2_9.index t (1 : Fin 2) * 64 + 64; omega

/-! ## The array after the region -/

/-- THE OUTPUT ARRAY after region 2: the layer's map of the nine arrays the region found. -/
theorem final (c : Dev nD) :
    (dat2 V c).arrAt 9 cfg2.N
      = Cert.Sage.upd (n := 200000) (V c main_v92) (V c main_v60) (V c main_v106)
        (V c main_v119) (V c main_v110) (V c main_v120)
        (V c main_v121) (V c main_v122) (V c main_v123) :=
  (dat2 V c).arrAt_eq_of_cover 9 _ (fun t _ => flushed_eq V c t) cover

end Cert.KernelIdeal.UpdRegion2

end
-- ==== Proof.UpdRegion3.lean ====
/-
  Update region 3: what its output array holds when the region has run, as ONE function of the arrays the region found.

  The region walks 20 grid points. Point t stages rows [10000·t, 10000·t + 10000) of the two row-blocked operands (the
  neighbourhood means and the side's own features), the seven small operands whole (two 64×64 weight matrices, the bias
  row, and the scale, shift, mean and variance rows of the normalisation), runs the body on them, and writes the result
  back to the same rows of the output. Entry (p, q) of the body's result depends on row p of each row-blocked operand
  and column q of each small one: it is the layer's map (the shared specification) of the staged rows. Since the
  staged rows of point t ARE rows 10000·t + p of the arrays, what point t writes back is block t of the layer's map of
  the whole arrays; the 20 blocks tile the 200000 rows (row r lies in block r / 10000), so the array ends as that map.
-/
import proofs.«131276_j14113262535218_1_alg».proof.Proof.Gen.KernelIdeal.Frame
import proofs.«131276_j14113262535218_1_alg».proof.Proof.Spec
import proofs.«131276_j14113262535218_1_alg».proof.Proof.MatRow
import Idealize.ShloMosaic.Lib.Pipeline.Value
import Idealize.ShloMosaic.Lib.ValueIdx
import Idealize.ShloMosaic.Lib.ValueLayout

set_option maxRecDepth 16384

noncomputable section

namespace Cert.KernelIdeal.UpdRegion3

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at an entry -/

/-- Entry (p, q) of the body's result on staged blocks is the layer's map of those blocks at (p, q): the casts to the
    narrow format are the identity on extended reals, each product into a zero accumulator is the sum of 64 products, and
    a row operand broadcast down the block reads its single row. -/
theorem body_ix (x0 x1 : Vec Ideal S10000x64 .f32) (x2 : Vec Ideal S64x64 .f32) (x3 : Vec Ideal S1x64 .f32) (x4 : Vec Ideal S64x64 .f32)
    (x5 x6 x7 x8 : Vec Ideal S1x64 .f32) (p : Fin 10000) (q : Fin 64) :
    k3_pay1 (k3_pay2 x0 x1 x2 x4 x3 x5 x6 x7 x8) (ix2 p q) = Cert.Sage.upd x0 x1 x2 x3 x4 x5 x6 x7 x8 (ix2 p q) := by
  rw [Cert.Sage.upd_ix2]
  unfold k3_pay1 k3_pay2
  dsimp only
  simp only [shapeCast_self, maximumf_apply, addf_apply, mulf_apply, subf_apply, broadcast_apply, truncf_apply,
    broadcastTo_1b_ab_apply, MatRow.mm64]
  rfl

/-! ## One grid point -/

/-- The body's result at an entry `j` of the block, when the staged blocks are the rows of the arrays `A0`, `A1` that the
    array index `i` names (same row for every column k, same column as `j`) and the small operands are staged whole: the
    layer's map of the ARRAYS at `i`. -/
theorem point (A0 A1 : (⟨2, ![200000, 64]⟩ : Shape).Idx → EReal)
    (W2 : (⟨2, ![64, 64]⟩ : Shape).Idx → EReal) (W3 : (⟨2, ![1, 64]⟩ : Shape).Idx → EReal) (W4 : (⟨2, ![64, 64]⟩ : Shape).Idx → EReal)
    (W5 W6 W7 W8 : (⟨2, ![1, 64]⟩ : Shape).Idx → EReal)
    (x0 x1 : Vec Ideal S10000x64 .f32) (x2 : Vec Ideal S64x64 .f32) (x3 : Vec Ideal S1x64 .f32) (x4 : Vec Ideal S64x64 .f32)
    (x5 x6 x7 x8 : Vec Ideal S1x64 .f32)
    (i : (⟨2, ![200000, 64]⟩ : Shape).Idx) (j : S10000x64.Idx)
    (h0 : ∀ k : Fin 64, x0 (ix2 ⟨(j 0).val, (j 0).isLt⟩ k) = A0 (ix2 ⟨(i 0).val, (i 0).isLt⟩ k))
    (h1 : ∀ k : Fin 64, x1 (ix2 ⟨(j 0).val, (j 0).isLt⟩ k) = A1 (ix2 ⟨(i 0).val, (i 0).isLt⟩ k))
    (h2 : x2 = W2) (h3 : x3 = W3) (h4 : x4 = W4) (h5 : x5 = W5) (h6 : x6 = W6) (h7 : x7 = W7) (h8 : x8 = W8)
    (hq : (i 1).val = (j 1).val) :
    k3_pay1 (k3_pay2 x0 x1 x2 x4 x3 x5 x6 x7 x8) j = Cert.Sage.upd A0 A1 W2 W3 W4 W5 W6 W7 W8 i := by
  subst h2 h3 h4 h5 h6 h7 h8
  obtain ⟨p, q, rfl⟩ : ∃ (p : Fin 10000) (q : Fin 64), j = ix2 p q := ⟨j 0, j 1, eq_ix2 j⟩
  rw [body_ix, Cert.Sage.upd_ix2]
  have hq' : (⟨(i 1).val, (i 1).isLt⟩ : Fin 64) = q := Fin.ext hq
  show _ = Cert.Sage.act x5 x6 x7 x8 ⟨(i 1).val, (i 1).isLt⟩ (Cert.Sage.preA A0 A1 x2 x4 x3 ⟨(i 0).val, (i 0).isLt⟩ ⟨(i 1).val, (i 1).isLt⟩)
  rw [hq']
  refine congrArg _ ?_
  unfold Cert.Sage.preA Cert.Sage.dot64
  have e0 : ∀ k : Fin 64, x0 (ix2 p k) = A0 (ix2 ⟨(i 0).val, (i 0).isLt⟩ k) := h0
  have e1 : ∀ k : Fin 64, x1 (ix2 p k) = A1 (ix2 ⟨(i 0).val, (i 0).isLt⟩ k) := h1
  simp only [e0, e1]

/-! ## The index maps, decided over the 20 grid points -/

theorem idx_rows : ∀ t : Fin cfg3.N,
    win3_0.index t (0 : Fin 2) = win3_9.index t (0 : Fin 2) ∧ win3_0.index t (1 : Fin 2) = 0
    ∧ win3_1.index t (0 : Fin 2) = win3_9.index t (0 : Fin 2) ∧ win3_1.index t (1 : Fin 2) = 0
    ∧ win3_9.index t (1 : Fin 2) = 0 ∧ win3_9.index t (0 : Fin 2) ≤ 19 :=
  (by decide +kernel : ∀ t : Fin grid3.N, _)

theorem idx_small : ∀ t : Fin cfg3.N,
    (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0) :=
  (by decide +kernel : ∀ t : Fin grid3.N, _)

/-- Every block row of the output is some point's. -/
theorem idx_onto : ∀ q0 : Fin 20, ∃ t : Fin cfg3.N, win3_9.index t = ![q0.val, 0] :=
  (by decide +kernel : ∀ q0 : Fin 20, ∃ t : Fin grid3.N, win3_9.index t = ![q0.val, 0])

/-! ## The staged blocks are the arrays' rows -/

variable (V : (c : Dev nD) → (b : Ref sig .tc) → Buf (Elt Ideal) ((c : Thread nD τ).loc b))

theorem hz : (![0, 0] : Fin 2 → Nat) = fun _ => 0 := funext fun a => by fin_cases a <;> rfl

/-- Small operand 2 is staged whole at every point. -/
theorem whole2 (c : Dev nD) (t : Fin cfg3.N) : iblk3 V c 2 t = V c main_v126 := by
  funext y
  show V c main_v126 (((cfg3.win 2).blk t).view.emb y) = V c main_v126 y
  refine congrArg _ (funext fun a => Fin.ext ?_)
  have e := (idx_small t).1
  match a with
  | ⟨0, _⟩ => show win3_2.index t (0 : Fin 2) * 64 + 1 * (y 0).val = (y 0).val; rw [e.1]; omega
  | ⟨1, _⟩ => show win3_2.index t (1 : Fin 2) * 64 + 1 * (y 1).val = (y 1).val; rw [e.2]; omega

/-- Small operand 3 is staged whole at every point. -/
theorem whole3 (c : Dev nD) (t : Fin cfg3.N) : iblk3 V c 3 t = V c main_v139 := by
  funext y
  show V c main_v139 (((cfg3.win 3).blk t).view.emb y) = V c main_v139 y
  refine congrArg _ (funext fun a => Fin.ext ?_)
  have e := (idx_small t).2.1
  match a with
  | ⟨0, _⟩ => show win3_3.index t (0 : Fin 2) * 1 + 1 * (y 0).val = (y 0).val; rw [e.1]; omega
  | ⟨1, _⟩ => show win3_3.index t (1 : Fin 2) * 64 + 1 * (y 1).val = (y 1).val; rw [e.2]; omega

/-- Small operand 4 is staged whole at every point. -/
theorem whole4 (c : Dev nD) (t : Fin cfg3.N) : iblk3 V c 4 t = V c main_v130 := by
  funext y
  show V c main_v130 (((cfg3.win 4).blk t).view.emb y) = V c main_v130 y
  refine congrArg _ (funext fun a => Fin.ext ?_)
  have e := (idx_small t).2.2.1
  match a with
  | ⟨0, _⟩ => show win3_4.index t (0 : Fin 2) * 64 + 1 * (y 0).val = (y 0).val; rw [e.1]; omega
  | ⟨1, _⟩ => show win3_4.index t (1 : Fin 2) * 64 + 1 * (y 1).val = (y 1).val; rw [e.2]; omega

/-- Small operand 5 is staged whole at every point. -/
theorem whole5 (c : Dev nD) (t : Fin cfg3.N) : iblk3 V c 5 t = V c main_v140 := by
  funext y
  show V c main_v140 (((cfg3.win 5).blk t).view.emb y) = V c main_v140 y
  refine congrArg _ (funext fun a => Fin.ext ?_)
  have e := (idx_small t).2.2.2.1
  match a with
  | ⟨0, _⟩ => show win3_5.index t (0 : Fin 2) * 1 + 1 * (y 0).val = (y 0).val; rw [e.1]; omega
  | ⟨1, _⟩ => show win3_5.index t (1 : Fin 2) * 64 + 1 * (y 1).val = (y 1).val; rw [e.2]; omega

/-- Small operand 6 is staged whole at every point. -/
theorem whole6 (c : Dev nD) (t : Fin cfg3.N) : iblk3 V c 6 t = V c main_v141 := by
  funext y
  show V c main_v141 (((cfg3.win 6).blk t).view.emb y) = V c main_v141 y
  refine congrArg _ (funext fun a => Fin.ext ?_)
  have e := (idx_small t).2.2.2.2.1
  match a with
  | ⟨0, _⟩ => show win3_6.index t (0 : Fin 2) * 1 + 1 * (y 0).val = (y 0).val; rw [e.1]; omega
  | ⟨1, _⟩ => show win3_6.index t (1 : Fin 2) * 64 + 1 * (y 1).val = (y 1).val; rw [e.2]; omega

/-- Small operand 7 is staged whole at every point. -/
theorem whole7 (c : Dev nD) (t : Fin cfg3.N) : iblk3 V c 7 t = V c main_v142 := by
  funext y
  show V c main_v142 (((cfg3.win 7).blk t).view.emb y) = V c main_v142 y
  refine congrArg _ (funext fun a => Fin.ext ?_)
  have e := (idx_small t).2.2.2.2.2.1
  match a with
  | ⟨0, _⟩ => show win3_7.index t (0 : Fin 2) * 1 + 1 * (y 0).val = (y 0).val; rw [e.1]; omega
  | ⟨1, _⟩ => show win3_7.index t (1 : Fin 2) * 64 + 1 * (y 1).val = (y 1).val; rw [e.2]; omega

/-- Small operand 8 is staged whole at every point. -/
theorem whole8 (c : Dev nD) (t : Fin cfg3.N) : iblk3 V c 8 t = V c main_v143 := by
  funext y
  show V c main_v143 (((cfg3.win 8).blk t).view.emb y) = V c main_v143 y
  refine congrArg _ (funext fun a => Fin.ext ?_)
  have e := (idx_small t).2.2.2.2.2.2
  match a with
  | ⟨0, _⟩ => show win3_8.index t (0 : Fin 2) * 1 + 1 * (y 0).val = (y 0).val; rw [e.1]; omega
  | ⟨1, _⟩ => show win3_8.index t (1 : Fin 2) * 64 + 1 * (y 1).val = (y 1).val; rw [e.2]; omega

/-! ## What a point writes back -/

/-- WHAT POINT `t` WRITES BACK is block `t` of the layer's map of the arrays as the region finds them. -/
theorem flushed_eq (c : Dev nD) (t : Fin cfg3.N) :
    (dat3 V c).flushed 9 t = ((cfg3.win 9).blk t).view.read (Elt Ideal)
      (Cert.Sage.upd (n := 200000) (V c main_v104) (V c main_v80) (V c main_v126) (V c main_v139) (V c main_v130) (V c main_v140) (V c main_v141) (V c main_v142) (V c main_v143)) := by
  show (cfg3.win 9).cut (grid3.coords t) ((dat3 V c).after 9 t) = _
  rw [after3_9]
  unfold out3_9
  rw [View.canon_unit_zero hz]
  simp only [View.ld_unit_zero (S := S10000x64) hz, View.ld_unit_zero (S := S64x64) hz, View.ld_unit_zero (S := S1x64) hz]
  obtain ⟨r0, r1, r2, r3, r4, r5⟩ := idx_rows t
  funext j
  show k3_pay1 (k3_pay2 (iblk3 V c 0 t) (iblk3 V c 1 t) (iblk3 V c 2 t) (iblk3 V c 4 t) (iblk3 V c 3 t) (iblk3 V c 5 t) (iblk3 V c 6 t) (iblk3 V c 7 t) (iblk3 V c 8 t)) j
      = Cert.Sage.upd (n := 200000) (V c main_v104) (V c main_v80) (V c main_v126) (V c main_v139) (V c main_v130) (V c main_v140) (V c main_v141) (V c main_v142) (V c main_v143) (((cfg3.win 9).blk t).view.emb j)
  refine point (V c main_v104) (V c main_v80) (V c main_v126) (V c main_v139) (V c main_v130) (V c main_v140) (V c main_v141) (V c main_v142) (V c main_v143) (iblk3 V c 0 t) (iblk3 V c 1 t) (iblk3 V c 2 t) (iblk3 V c 3 t) (iblk3 V c 4 t) (iblk3 V c 5 t) (iblk3 V c 6 t) (iblk3 V c 7 t) (iblk3 V c 8 t)
    (((cfg3.win 9).blk t).view.emb j) j
    (fun k => ?_) (fun k => ?_) (whole2 V c t) (whole3 V c t) (whole4 V c t) (whole5 V c t) (whole6 V c t) (whole7 V c t) (whole8 V c t) ?_
  · show V c main_v104 (((cfg3.win 0).blk t).view.emb (ix2 ⟨(j 0).val, (j 0).isLt⟩ k)) = _
    refine congrArg _ (funext fun a => Fin.ext ?_)
    match a with
    | ⟨0, _⟩ => show win3_0.index t (0 : Fin 2) * 10000 + 1 * (j 0).val = win3_9.index t (0 : Fin 2) * 10000 + 1 * (j 0).val; rw [r0]
    | ⟨1, _⟩ => show win3_0.index t (1 : Fin 2) * 64 + 1 * k.val = k.val; rw [r1]; omega
  · show V c main_v80 (((cfg3.win 1).blk t).view.emb (ix2 ⟨(j 0).val, (j 0).isLt⟩ k)) = _
    refine congrArg _ (funext fun a => Fin.ext ?_)
    match a with
    | ⟨0, _⟩ => show win3_1.index t (0 : Fin 2) * 10000 + 1 * (j 0).val = win3_9.index t (0 : Fin 2) * 10000 + 1 * (j 0).val; rw [r2]
    | ⟨1, _⟩ => show win3_1.index t (1 : Fin 2) * 64 + 1 * k.val = k.val; rw [r3]; omega
  · show win3_9.index t (1 : Fin 2) * 64 + 1 * (j 1).val = (j 1).val
    rw [r4]; omega

/-! ## The blocks tile the array -/

/-- An index of the array is in point `t`'s block iff each coordinate is in the block's range on its axis. -/
theorem mem_blk (t : Fin cfg3.N) (i : S200000x64.Idx) :
    i ∈ ((cfg3.win 9).blk t).view.set ↔ ∀ a : Fin 2, win3_9.index t a * S10000x64.size a ≤ (i a).val ∧ (i a).val < win3_9.index t a * S10000x64.size a + S10000x64.size a := by
  show i ∈ ((View.whole main_v144).slice (win3_9.rect t)).set ↔ _
  rw [View.set_slice_whole, Rect.mem_set_unit]
  exact Iff.rfl

/-- Every index of the array lies in some point's block: row r in the block of point r / 10000. -/
theorem cover (i : S200000x64.Idx) :
    ∃ t : Fin cfg3.N, (cfg3.win 9).flush t = true ∧ i ∈ ((cfg3.win 9).blk t).view.set := by
  have hi0 : (i 0).val < 200000 := (i 0).isLt
  have hi1 : (i 1).val < 64 := (i 1).isLt
  obtain ⟨t, ht⟩ := idx_onto ⟨(i 0).val / 10000, by omega⟩
  have q0 : win3_9.index t (0 : Fin 2) = (i 0).val / 10000 := congrFun ht 0
  have q1 : win3_9.index t (1 : Fin 2) = 0 := congrFun ht 1
  refine ⟨t, flush3_9 t, ?_⟩
  rw [mem_blk]
  intro a
  match a with
  | ⟨0, _⟩ => show win3_9.index t (0 : Fin 2) * 10000 ≤ (i 0).val ∧ (i 0).val < win3_9.index t (0 : Fin 2) * 10000 + 10000; omega
  | ⟨1, _⟩ => show win3_9.index t (1 : Fin 2) * 64 ≤ (i 1).val ∧ (i 1).val < win3_9.index t (1 : Fin 2) * 64 + 64; omega

/-! ## The array after the region -/

/-- THE OUTPUT ARRAY after region 3: the layer's map of the nine arrays the region found. -/
theorem final (c : Dev nD) :
    (dat3 V c).arrAt 9 cfg3.N
      = Cert.Sage.upd (n := 200000) (V c main_v104) (V c main_v80) (V c main_v126)
        (V c main_v139) (V c main_v130) (V c main_v140)
        (V c main_v141) (V c main_v142) (V c main_v143) :=
  (dat3 V c).arrAt_eq_of_cover 9 _ (fun t _ => flushed_eq V c t) cover

end Cert.KernelIdeal.UpdRegion3

end
-- ==== Proof.Wire2.lean ====
/-
  The second layer, on the kernel's side, in the reference's terms.

  The host operations between the second and third regions gather the first-layer features along the edges, sum them per
  endpoint and divide by the degree counts computed before the first region — the reference's second-layer neighbourhood
  means of the same first-layer features, operation for operation; the third and fourth regions then leave the
  reference's second-layer user and item features.
-/
import proofs.«131276_j14113262535218_1_alg».proof.Proof.Gen.KernelIdeal.Frame
import proofs.«131276_j14113262535218_1_alg».proof.Proof.RefRead
import proofs.«131276_j14113262535218_1_alg».proof.Proof.Spec
import proofs.«131276_j14113262535218_1_alg».proof.Proof.RefSide
import proofs.«131276_j14113262535218_1_alg».proof.Proof.UpdRegion2
import proofs.«131276_j14113262535218_1_alg».proof.Proof.UpdRegion3
import proofs.«131276_j14113262535218_1_alg».proof.Proof.WireArgs
import proofs.«131276_j14113262535218_1_alg».proof.Proof.Wire1
import Idealize.ShloMosaic.Lib.StableHlo.Run
import Idealize.ShloMosaic.PureOps.Ideal

set_option maxRecDepth 16384
set_option maxHeartbeats 1000000

noncomputable section

namespace Cert.KernelIdeal.Wire

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

theorem v92_at5 (c : Dev nD) : W5 m ρ c (Proc.devRef .tc main_v92) = (Cert.ReferenceIdeal.Read.val_main_v132 (F := Ideal) (m ((c : Thread nD τ).loc main_arg0)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17))) := by
  show StableHlo.after hostOps2 (W4 m ρ c) (Proc.devRef .tc main_v92) = _
  after_results_simp
  rw [v3_at4 m ρ c, x1i_at4 m ρ c, v1_at4 m ρ c, v10_at4 m ρ c]
  rfl

theorem v104_at5 (c : Dev nD) : W5 m ρ c (Proc.devRef .tc main_v104) = (Cert.ReferenceIdeal.Read.val_main_v187 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13))) := by
  show StableHlo.after hostOps2 (W4 m ρ c) (Proc.devRef .tc main_v104) = _
  after_results_simp
  rw [v1_at4 m ρ c, x1u_at4 m ρ c, v3_at4 m ρ c, v16_at4 m ρ c]
  rfl

theorem v106_at5 (c : Dev nD) : W5 m ρ c (Proc.devRef .tc main_v106) = (Cert.ReferenceIdeal.Read.val_main_v134 (F := Ideal) (m ((c : Thread nD τ).loc main_arg4))) := by
  show StableHlo.after hostOps2 (W4 m ρ c) (Proc.devRef .tc main_v106) = _
  after_results_simp
  rw [arg4_at4 m ρ c]
  rfl

theorem v110_at5 (c : Dev nD) : W5 m ρ c (Proc.devRef .tc main_v110) = (Cert.ReferenceIdeal.Read.val_main_v142 (F := Ideal) (m ((c : Thread nD τ).loc main_arg6))) := by
  show StableHlo.after hostOps2 (W4 m ρ c) (Proc.devRef .tc main_v110) = _
  after_results_simp
  rw [arg6_at4 m ρ c]
  rfl

theorem v119_at5 (c : Dev nD) : W5 m ρ c (Proc.devRef .tc main_v119) = (Cert.Sage.row (Cert.ReferenceIdeal.Read.val_main_v137 (F := Ideal) (m ((c : Thread nD τ).loc main_arg5)))) := by
  show StableHlo.after hostOps2 (W4 m ρ c) (Proc.devRef .tc main_v119) = _
  after_results_simp
  rw [arg5_at4 m ρ c]
  refine Eq.trans ?_ (reshape_row (n := 64) (Cert.ReferenceIdeal.Read.val_main_v137 (F := Ideal) (m ((c : Thread nD τ).loc main_arg5))) shapeCasts_S64_S1x64)
  rfl

theorem v120_at5 (c : Dev nD) : W5 m ρ c (Proc.devRef .tc main_v120) = (Cert.Sage.row (Cert.ReferenceIdeal.Read.val_main_v146 (F := Ideal) (m ((c : Thread nD τ).loc main_arg10)))) := by
  show StableHlo.after hostOps2 (W4 m ρ c) (Proc.devRef .tc main_v120) = _
  after_results_simp
  rw [arg10_at4 m ρ c]
  refine Eq.trans ?_ (reshape_row (n := 64) (Cert.ReferenceIdeal.Read.val_main_v146 (F := Ideal) (m ((c : Thread nD τ).loc main_arg10))) shapeCasts_S64_S1x64)
  rfl

theorem v121_at5 (c : Dev nD) : W5 m ρ c (Proc.devRef .tc main_v121) = (Cert.Sage.row (Cert.ReferenceIdeal.Read.val_main_v148 (F := Ideal) (m ((c : Thread nD τ).loc main_arg11)))) := by
  show StableHlo.after hostOps2 (W4 m ρ c) (Proc.devRef .tc main_v121) = _
  after_results_simp
  rw [arg11_at4 m ρ c]
  refine Eq.trans ?_ (reshape_row (n := 64) (Cert.ReferenceIdeal.Read.val_main_v148 (F := Ideal) (m ((c : Thread nD τ).loc main_arg11))) shapeCasts_S64_S1x64)
  rfl

theorem v122_at5 (c : Dev nD) : W5 m ρ c (Proc.devRef .tc main_v122) = (Cert.Sage.row (Cert.ReferenceIdeal.Read.val_main_v150 (F := Ideal) (m ((c : Thread nD τ).loc main_arg12)))) := by
  show StableHlo.after hostOps2 (W4 m ρ c) (Proc.devRef .tc main_v122) = _
  after_results_simp
  rw [arg12_at4 m ρ c]
  refine Eq.trans ?_ (reshape_row (n := 64) (Cert.ReferenceIdeal.Read.val_main_v150 (F := Ideal) (m ((c : Thread nD τ).loc main_arg12))) shapeCasts_S64_S1x64)
  rfl

theorem v123_at5 (c : Dev nD) : W5 m ρ c (Proc.devRef .tc main_v123) = (Cert.Sage.row (Cert.ReferenceIdeal.Read.val_main_v152 (F := Ideal) (m ((c : Thread nD τ).loc main_arg13)))) := by
  show StableHlo.after hostOps2 (W4 m ρ c) (Proc.devRef .tc main_v123) = _
  after_results_simp
  rw [arg13_at4 m ρ c]
  refine Eq.trans ?_ (reshape_row (n := 64) (Cert.ReferenceIdeal.Read.val_main_v152 (F := Ideal) (m ((c : Thread nD τ).loc main_arg13))) shapeCasts_S64_S1x64)
  rfl

theorem x1u_at5 (c : Dev nD) : W5 m ρ c (Proc.devRef .tc main_v60) = (Cert.ReferenceIdeal.Read.val_main_v58 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13))) :=
  (show StableHlo.after hostOps2 (W4 m ρ c) (Proc.devRef .tc main_v60) = W4 m ρ c (Proc.devRef .tc main_v60) from by after_results_simp <;> rfl).trans (x1u_at4 m ρ c)

theorem x2u_at6 (c : Dev nD) : W6 m ρ c (Proc.devRef .tc main_v124) = (Cert.ReferenceIdeal.Read.val_main_v168 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  refine (W6_arr m ρ c 9).trans ?_
  rw [UpdRegion2.final (V5 m ρ) c]
  show Cert.Sage.upd (n := 200000) (W5 m ρ c (Proc.devRef .tc main_v92)) (W5 m ρ c (Proc.devRef .tc main_v60)) (W5 m ρ c (Proc.devRef .tc main_v106)) (W5 m ρ c (Proc.devRef .tc main_v119)) (W5 m ρ c (Proc.devRef .tc main_v110)) (W5 m ρ c (Proc.devRef .tc main_v120)) (W5 m ρ c (Proc.devRef .tc main_v121)) (W5 m ρ c (Proc.devRef .tc main_v122)) (W5 m ρ c (Proc.devRef .tc main_v123)) = _
  rw [v92_at5 m ρ c, x1u_at5 m ρ c, v106_at5 m ρ c, v119_at5 m ρ c, v110_at5 m ρ c, v120_at5 m ρ c, v121_at5 m ρ c, v122_at5 m ρ c, v123_at5 m ρ c]
  exact (Cert.Sage.Ref.upd_u1 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))).symm

theorem v104_at6 (c : Dev nD) : W6 m ρ c (Proc.devRef .tc main_v104) = (Cert.ReferenceIdeal.Read.val_main_v187 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13))) :=
  (W6_of_ne m ρ c main_v104 (by decide)).trans (v104_at5 m ρ c)

theorem v104_at7 (c : Dev nD) : W7 m ρ c (Proc.devRef .tc main_v104) = (Cert.ReferenceIdeal.Read.val_main_v187 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13))) :=
  (show StableHlo.after hostOps3 (W6 m ρ c) (Proc.devRef .tc main_v104) = W6 m ρ c (Proc.devRef .tc main_v104) from by after_results_simp <;> rfl).trans (v104_at6 m ρ c)

theorem x1i_at5 (c : Dev nD) : W5 m ρ c (Proc.devRef .tc main_v80) = (Cert.ReferenceIdeal.Read.val_main_v113 (F := Ideal) (m ((c : Thread nD τ).loc main_arg0)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17))) :=
  (show StableHlo.after hostOps2 (W4 m ρ c) (Proc.devRef .tc main_v80) = W4 m ρ c (Proc.devRef .tc main_v80) from by after_results_simp <;> rfl).trans (x1i_at4 m ρ c)

theorem x1i_at6 (c : Dev nD) : W6 m ρ c (Proc.devRef .tc main_v80) = (Cert.ReferenceIdeal.Read.val_main_v113 (F := Ideal) (m ((c : Thread nD τ).loc main_arg0)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17))) :=
  (W6_of_ne m ρ c main_v80 (by decide)).trans (x1i_at5 m ρ c)

theorem x1i_at7 (c : Dev nD) : W7 m ρ c (Proc.devRef .tc main_v80) = (Cert.ReferenceIdeal.Read.val_main_v113 (F := Ideal) (m ((c : Thread nD τ).loc main_arg0)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17))) :=
  (show StableHlo.after hostOps3 (W6 m ρ c) (Proc.devRef .tc main_v80) = W6 m ρ c (Proc.devRef .tc main_v80) from by after_results_simp <;> rfl).trans (x1i_at6 m ρ c)

theorem v126_at7 (c : Dev nD) : W7 m ρ c (Proc.devRef .tc main_v126) = (Cert.ReferenceIdeal.Read.val_main_v189 (F := Ideal) (m ((c : Thread nD τ).loc main_arg7))) := by
  show StableHlo.after hostOps3 (W6 m ρ c) (Proc.devRef .tc main_v126) = _
  after_results_simp
  rw [arg7_at6 m ρ c]
  rfl

theorem v130_at7 (c : Dev nD) : W7 m ρ c (Proc.devRef .tc main_v130) = (Cert.ReferenceIdeal.Read.val_main_v197 (F := Ideal) (m ((c : Thread nD τ).loc main_arg9))) := by
  show StableHlo.after hostOps3 (W6 m ρ c) (Proc.devRef .tc main_v130) = _
  after_results_simp
  rw [arg9_at6 m ρ c]
  rfl

theorem v139_at7 (c : Dev nD) : W7 m ρ c (Proc.devRef .tc main_v139) = (Cert.Sage.row (Cert.ReferenceIdeal.Read.val_main_v192 (F := Ideal) (m ((c : Thread nD τ).loc main_arg8)))) := by
  show StableHlo.after hostOps3 (W6 m ρ c) (Proc.devRef .tc main_v139) = _
  after_results_simp
  rw [arg8_at6 m ρ c]
  refine Eq.trans ?_ (reshape_row (n := 64) (Cert.ReferenceIdeal.Read.val_main_v192 (F := Ideal) (m ((c : Thread nD τ).loc main_arg8))) shapeCasts_S64_S1x64)
  rfl

theorem v140_at7 (c : Dev nD) : W7 m ρ c (Proc.devRef .tc main_v140) = (Cert.Sage.row (Cert.ReferenceIdeal.Read.val_main_v201 (F := Ideal) (m ((c : Thread nD τ).loc main_arg14)))) := by
  show StableHlo.after hostOps3 (W6 m ρ c) (Proc.devRef .tc main_v140) = _
  after_results_simp
  rw [arg14_at6 m ρ c]
  refine Eq.trans ?_ (reshape_row (n := 64) (Cert.ReferenceIdeal.Read.val_main_v201 (F := Ideal) (m ((c : Thread nD τ).loc main_arg14))) shapeCasts_S64_S1x64)
  rfl

theorem v141_at7 (c : Dev nD) : W7 m ρ c (Proc.devRef .tc main_v141) = (Cert.Sage.row (Cert.ReferenceIdeal.Read.val_main_v203 (F := Ideal) (m ((c : Thread nD τ).loc main_arg15)))) := by
  show StableHlo.after hostOps3 (W6 m ρ c) (Proc.devRef .tc main_v141) = _
  after_results_simp
  rw [arg15_at6 m ρ c]
  refine Eq.trans ?_ (reshape_row (n := 64) (Cert.ReferenceIdeal.Read.val_main_v203 (F := Ideal) (m ((c : Thread nD τ).loc main_arg15))) shapeCasts_S64_S1x64)
  rfl

theorem v142_at7 (c : Dev nD) : W7 m ρ c (Proc.devRef .tc main_v142) = (Cert.Sage.row (Cert.ReferenceIdeal.Read.val_main_v205 (F := Ideal) (m ((c : Thread nD τ).loc main_arg16)))) := by
  show StableHlo.after hostOps3 (W6 m ρ c) (Proc.devRef .tc main_v142) = _
  after_results_simp
  rw [arg16_at6 m ρ c]
  refine Eq.trans ?_ (reshape_row (n := 64) (Cert.ReferenceIdeal.Read.val_main_v205 (F := Ideal) (m ((c : Thread nD τ).loc main_arg16))) shapeCasts_S64_S1x64)
  rfl

theorem v143_at7 (c : Dev nD) : W7 m ρ c (Proc.devRef .tc main_v143) = (Cert.Sage.row (Cert.ReferenceIdeal.Read.val_main_v207 (F := Ideal) (m ((c : Thread nD τ).loc main_arg17)))) := by
  show StableHlo.after hostOps3 (W6 m ρ c) (Proc.devRef .tc main_v143) = _
  after_results_simp
  rw [arg17_at6 m ρ c]
  refine Eq.trans ?_ (reshape_row (n := 64) (Cert.ReferenceIdeal.Read.val_main_v207 (F := Ideal) (m ((c : Thread nD τ).loc main_arg17))) shapeCasts_S64_S1x64)
  rfl

theorem x2i_at8 (c : Dev nD) : W8 m ρ c (Proc.devRef .tc main_v144) = (Cert.ReferenceIdeal.Read.val_main_v223 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  refine (W8_arr m ρ c 9).trans ?_
  rw [UpdRegion3.final (V7 m ρ) c]
  show Cert.Sage.upd (n := 200000) (W7 m ρ c (Proc.devRef .tc main_v104)) (W7 m ρ c (Proc.devRef .tc main_v80)) (W7 m ρ c (Proc.devRef .tc main_v126)) (W7 m ρ c (Proc.devRef .tc main_v139)) (W7 m ρ c (Proc.devRef .tc main_v130)) (W7 m ρ c (Proc.devRef .tc main_v140)) (W7 m ρ c (Proc.devRef .tc main_v141)) (W7 m ρ c (Proc.devRef .tc main_v142)) (W7 m ρ c (Proc.devRef .tc main_v143)) = _
  rw [v104_at7 m ρ c, x1i_at7 m ρ c, v126_at7 m ρ c, v139_at7 m ρ c, v130_at7 m ρ c, v140_at7 m ρ c, v141_at7 m ρ c, v142_at7 m ρ c, v143_at7 m ρ c]
  exact (Cert.Sage.Ref.upd_i1 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))).symm

theorem x2u_at7 (c : Dev nD) : W7 m ρ c (Proc.devRef .tc main_v124) = (Cert.ReferenceIdeal.Read.val_main_v168 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) :=
  (show StableHlo.after hostOps3 (W6 m ρ c) (Proc.devRef .tc main_v124) = W6 m ρ c (Proc.devRef .tc main_v124) from by after_results_simp <;> rfl).trans (x2u_at6 m ρ c)

theorem x2u_at8 (c : Dev nD) : W8 m ρ c (Proc.devRef .tc main_v124) = (Cert.ReferenceIdeal.Read.val_main_v168 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) :=
  (W8_of_ne m ρ c main_v124 (by decide)).trans (x2u_at7 m ρ c)

end Cert.KernelIdeal.Wire

end
-- ==== Proof.Wire3.lean ====
/-
  The head, on the kernel's side, in the reference's terms.

  The host operations before the last region gather the second-layer features of the queried pairs' endpoints (the
  reference's two gathers of the same arrays by the same index rows), cut the 128×64 matrix into its upper and lower
  halves and reshape the two bias vectors into rows; the last region applies the head to them. The reference multiplies
  the concatenated row by the whole matrix: the same number, the 128-long sum split into its halves.
-/
import proofs.«131276_j14113262535218_1_alg».proof.Proof.Gen.KernelIdeal.Frame
import proofs.«131276_j14113262535218_1_alg».proof.Proof.RefRead
import proofs.«131276_j14113262535218_1_alg».proof.Proof.Spec
import proofs.«131276_j14113262535218_1_alg».proof.Proof.RefSide
import proofs.«131276_j14113262535218_1_alg».proof.Proof.HeadRegion
import proofs.«131276_j14113262535218_1_alg».proof.Proof.WireArgs
import proofs.«131276_j14113262535218_1_alg».proof.Proof.Wire1
import proofs.«131276_j14113262535218_1_alg».proof.Proof.Wire2
import Idealize.ShloMosaic.Lib.StableHlo.Run
import Idealize.ShloMosaic.PureOps.Ideal

set_option maxRecDepth 16384
set_option maxHeartbeats 1000000

noncomputable section

namespace Cert.KernelIdeal.Wire

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The first 64 rows of a 128×64 matrix, cut out, are its upper half. -/
theorem slice_top (X : (⟨2, ![128, 64]⟩ : Shape).Idx → EReal) (h : (⟨2, ![128, 64]⟩ : Shape).Slices ![0, 0] ⟨2, ![64, 64]⟩) :
    extractStridedSlice ⟨2, ![64, 64]⟩ ![0, 0] X h = Cert.Sage.top X := by
  funext j
  obtain ⟨p, q, rfl⟩ : ∃ (p : Fin 64) (q : Fin 64), j = ix2 p q := ⟨j 0, j 1, eq_ix2 j⟩
  rw [Cert.Sage.top_ix2]
  exact slice2_axis0_apply 0 X h p q ⟨p.val, by omega⟩ (Nat.zero_add _).symm

/-- The last 64 rows of a 128×64 matrix, cut out, are its lower half. -/
theorem slice_bot (X : (⟨2, ![128, 64]⟩ : Shape).Idx → EReal) (h : (⟨2, ![128, 64]⟩ : Shape).Slices ![64, 0] ⟨2, ![64, 64]⟩) :
    extractStridedSlice ⟨2, ![64, 64]⟩ ![64, 0] X h = Cert.Sage.bot X := by
  funext j
  obtain ⟨p, q, rfl⟩ : ∃ (p : Fin 64) (q : Fin 64), j = ix2 p q := ⟨j 0, j 1, eq_ix2 j⟩
  rw [Cert.Sage.bot_ix2]
  exact slice2_axis0_apply 64 X h p q ⟨64 + p.val, by omega⟩ rfl

theorem v153_at9 (c : Dev nD) : W9 m ρ c (Proc.devRef .tc main_v153) = (Cert.ReferenceIdeal.Read.val_main_v232 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  show StableHlo.after hostOps4 (W8 m ρ c) (Proc.devRef .tc main_v153) = _
  after_results_simp
  rw [x2u_at8 m ρ c, arg1_at8 m ρ c]
  rfl

theorem v162_at9 (c : Dev nD) : W9 m ρ c (Proc.devRef .tc main_v162) = (Cert.ReferenceIdeal.Read.val_main_v241 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  show StableHlo.after hostOps4 (W8 m ρ c) (Proc.devRef .tc main_v162) = _
  after_results_simp
  rw [x2i_at8 m ρ c, arg1_at8 m ρ c]
  rfl

theorem v163_at9 (c : Dev nD) : W9 m ρ c (Proc.devRef .tc main_v163) = Cert.Sage.top (m ((c : Thread nD τ).loc main_arg18)) := by
  show StableHlo.after hostOps4 (W8 m ρ c) (Proc.devRef .tc main_v163) = _
  after_results_simp
  rw [arg18_at8 m ρ c]
  exact slice_top _ _

theorem v164_at9 (c : Dev nD) : W9 m ρ c (Proc.devRef .tc main_v164) = Cert.Sage.bot (m ((c : Thread nD τ).loc main_arg18)) := by
  show StableHlo.after hostOps4 (W8 m ρ c) (Proc.devRef .tc main_v164) = _
  after_results_simp
  rw [arg18_at8 m ρ c]
  exact slice_bot _ _

theorem v165_at9 (c : Dev nD) : W9 m ρ c (Proc.devRef .tc main_v165) = Cert.Sage.row (m ((c : Thread nD τ).loc main_arg19)) := by
  show StableHlo.after hostOps4 (W8 m ρ c) (Proc.devRef .tc main_v165) = _
  after_results_simp
  rw [arg19_at8 m ρ c]
  refine Eq.trans ?_ (reshape_row (n := 64) (m ((c : Thread nD τ).loc main_arg19)) shapeCasts_S64_S1x64)
  rfl

theorem v166_at9 (c : Dev nD) : W9 m ρ c (Proc.devRef .tc main_v166) = Cert.Sage.row (m ((c : Thread nD τ).loc main_arg21)) := by
  show StableHlo.after hostOps4 (W8 m ρ c) (Proc.devRef .tc main_v166) = _
  after_results_simp
  rw [arg21_at8 m ρ c]
  refine Eq.trans ?_ (reshape_row (n := 4) (m ((c : Thread nD τ).loc main_arg21)) shapeCasts_S4_S1x4)
  rfl

/-- THE KERNEL PROGRAM'S RESULT, in the reference's terms: the last region leaves the reference's head applied to the
    reference's gathered second-layer features. -/
theorem result_at10 (c : Dev nD) : W10 m ρ c (Proc.devRef .tc main_v167) = (Cert.ReferenceIdeal.Read.val_main_v251 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))) := by
  refine (W10_arr m ρ c 7).trans ?_
  rw [HeadRegion.head_array (V9 m ρ) c]
  show Cert.Sage.head (n := 100000) (W9 m ρ c (Proc.devRef .tc main_v153)) (W9 m ρ c (Proc.devRef .tc main_v162)) (W9 m ρ c (Proc.devRef .tc main_v163)) (W9 m ρ c (Proc.devRef .tc main_v164)) (W9 m ρ c (Proc.devRef .tc main_v165)) (W9 m ρ c (Proc.devRef .tc main_arg20)) (W9 m ρ c (Proc.devRef .tc main_v166)) = _
  rw [v153_at9 m ρ c, v162_at9 m ρ c, v163_at9 m ρ c, v164_at9 m ρ c, v165_at9 m ρ c, arg20_at9 m ρ c, v166_at9 m ρ c]
  exact (Cert.Sage.Ref.head_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm

end Cert.KernelIdeal.Wire

end
-- ==== Proof.lean ====
/-
  A two-layer bipartite mean-aggregation network with a two-layer prediction head: the kernel program (four pipelined
  "update" regions and one "head" region among host gathers and segment sums) against its reference (the same network as
  plain host operations), equal as extended reals.

  Both programs compute, for each layer and each side (users, items): the mean over incident edges of the other side's
  features (a gather along the edges, a segment sum per endpoint, a division by the clipped degree), then
      max( ((mean·Wl + x·Wr + bias) − mu) · rsqrt(var + ε) · g + b, 0 ),
  and finally, on the gathered features of the queried pairs, max([u | t]·W1 + b1, 0)·W2 + b2. They differ in three ways,
  none of which changes a value on the extended reals: the kernel adds the bias after the second product and the
  reference before it (addition is commutative and associative); the kernel multiplies the two 64-wide halves of the
  concatenated row by the two halves of W1 where the reference multiplies the 128-wide row by W1 (a finite sum split in
  two); and the kernel rounds operands to a narrower format before each product, which is the identity at exact values.
  The gathers, segment sums and degree counts are the same host operations applied to the same operands in both programs
  and are never opened. No step uses finiteness of the inputs.

  The pieces: the kernel program's run with its result named at the last segment boundary; each region's output array as
  the layer's (or the head's) map of the arrays the region finds; the buffers at every boundary stated as the reference's
  own stages of the same arguments; the reference's stages as the same maps; the reference's run.
-/
import proofs.«131276_j14113262535218_1_alg».proof.Defs
import proofs.«131276_j14113262535218_1_alg».proof.Proof.Gen.Kernel
import proofs.«131276_j14113262535218_1_alg».proof.Proof.Gen.Kernel.Skeleton
import proofs.«131276_j14113262535218_1_alg».proof.Proof.Gen.Kernel.Launch
import proofs.«131276_j14113262535218_1_alg».proof.Proof.Gen.Kernel.Points
import proofs.«131276_j14113262535218_1_alg».proof.Proof.Gen.Kernel.Frame
import proofs.«131276_j14113262535218_1_alg».proof.Proof.Gen.KernelIdeal
import proofs.«131276_j14113262535218_1_alg».proof.Proof.Gen.KernelIdeal.Skeleton
import proofs.«131276_j14113262535218_1_alg».proof.Proof.Gen.KernelIdeal.Launch
import proofs.«131276_j14113262535218_1_alg».proof.Proof.Gen.KernelIdeal.Points
import proofs.«131276_j14113262535218_1_alg».proof.Proof.Gen.KernelIdeal.Frame
import proofs.«131276_j14113262535218_1_alg».proof.Proof.Gen.ReferenceIdeal
import proofs.«131276_j14113262535218_1_alg».proof.Proof.Gen.Pre_finite_inputs
import proofs.«131276_j14113262535218_1_alg».proof.Proof.RefRun
import proofs.«131276_j14113262535218_1_alg».proof.Proof.RefRead
import proofs.«131276_j14113262535218_1_alg».proof.Proof.ValueRun
import proofs.«131276_j14113262535218_1_alg».proof.Proof.Wire3
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to restate. -/
theorem preserves : Cert.preserves_Kernel_KernelIdeal := trivial

/-- From memories agreeing on the arguments both programs run, and the kernel program's result — the last segment
    boundary's contents of its result buffer, which are the reference's last stage of the kernel's arguments — is the
    reference's result, the reference's last stage of its own, equal, arguments. -/
theorem algebraic : Cert.algebraic_KernelIdeal_ReferenceIdeal := by
  intro m ρ m' ρ' _ hagree
  refine ⟨fun c => Cert.KernelIdeal.Gen.W10 m ρ c (Proc.devRef .tc Cert.KernelIdeal.main_v167),
    Cert.KernelIdeal.ValueRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21⟩ := hagree c
  rw [Cert.ReferenceIdeal.Read.val_main_v251_eq, h0, h1, h2, h3, h4, h5, h6, h7, h8, h9, h10, h11, h12, h13, h14, h15, h16, h17, h18, h19, h20, h21]
  exact (Cert.KernelIdeal.Wire.result_at10 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
